-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S256x512 : Shape := ⟨2, ![256, 512]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_

variable [Facts]

def fn_part5 {F : FTy → Type} [FloatOps F] (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  main_v88

def fn_part4 {F : FTy → Type} [FloatOps F] (main_arg14 : FVec F S256x512 .f32) (main_arg15 : FVec F S256 .f32) (main_arg16 : FVec F S256x512 .f32) (main_arg17 : FVec F S256 .f32) (main_v63 : IVec S_ 1) (main_v67 : IVec S_ 1) : IVec S_ 1 :=
  let main_v68 : IVec S_ 1 := andi main_v63 main_v67
  let main_v69 : FVec F S256x512 .f32 := Host.absf main_arg14
  let main_cst_26 : FVec F S_ .f32 := constant S_ .f32 0x7F800000#32
  let main_v70 : FVec F S256x512 .f32 := broadcastInDim S256x512 ![] bcast_S_S256x512 main_cst_26
  let main_v71 : IVec S256x512 1 := cmpf .olt main_v69 main_v70
  let main_c_27 : IVec S_ 1 := constantI S_ 1 1#1
  let main_v72 : IVec S_ 1 := (fun x v => Host.reduce IntOp.andi x v reducesTo_S256x512_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x512 .f32 := Host.absf main_arg16
  let main_cst_30 : FVec F S_ .f32 := constant S_ .f32 0x7F800000#32
  let main_v80 : FVec F S256x512 .f32 := broadcastInDim S256x512 ![] bcast_S_S256x512 main_cst_30
  let main_v81 : IVec S256x512 1 := cmpf .olt main_v79 main_v80
  let main_c_31 : IVec S_ 1 := constantI S_ 1 1#1
  let main_v82 : IVec S_ 1 := (fun x v => Host.reduce IntOp.andi x v reducesTo_S256x512_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_v83 main_v84 main_cst_32

def fn_part3 {F : FTy → Type} [FloatOps F] (main_arg11 : FVec F S256 .f32) (main_arg12 : FVec F S256x256 .f32) (main_arg13 : FVec F S256 .f32) (main_arg14 : FVec F S256x512 .f32) (main_arg15 : FVec F S256 .f32) (main_arg16 : FVec F S256x512 .f32) (main_arg17 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_v63 main_v67

def fn_part2 {F : FTy → Type} [FloatOps F] (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x512 .f32) (main_arg15 : FVec F S256 .f32) (main_arg16 : FVec F S256x512 .f32) (main_arg17 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_arg16 main_arg17 main_v48 main_v49 main_v50

def fn_part1 {F : FTy → Type} [FloatOps F] (main_arg4 : FVec F S4096x4096 .f32) (main_arg5 : FVec F S4096x4096 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x512 .f32) (main_arg15 : FVec F S256 .f32) (main_arg16 : FVec F S256x512 .f32) (main_arg17 : FVec F S256 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S4096x256 .f32) (main_arg1 : FVec F S4096x256 .f32) (main_arg2 : FVec F S4096x4096 .f32) (main_arg3 : FVec F S4096x4096 .f32) (main_arg4 : FVec F S4096x4096 .f32) (main_arg5 : FVec F S4096x4096 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x512 .f32) (main_arg15 : FVec F S256 .f32) (main_arg16 : FVec F S256x512 .f32) (main_arg17 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S256x512 : Shape := ⟨2, ![256, 512]⟩
abbrev S1x256 : Shape := ⟨2, ![1, 256]⟩
abbrev S256x4096 : Shape := ⟨2, ![256, 4096]⟩

abbrev nBuf : Space → Nat
  | .hbm => 39
  | .vmem => 40
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x512, .f32⟩
  | .hbm, ⟨15, _⟩ => ⟨S256, .f32⟩
  | .hbm, ⟨16, _⟩ => ⟨S256x512, .f32⟩
  | .hbm, ⟨17, _⟩ => ⟨S256, .f32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S256x256, .f32⟩
  | .hbm, ⟨25, _⟩ => ⟨S256x256, .f32⟩
  | .hbm, ⟨26, _⟩ => ⟨S256x256, .bf16⟩
  | .hbm, ⟨27, _⟩ => ⟨S256x256, .f32⟩
  | .hbm, ⟨28, _⟩ => ⟨S256x256, .f32⟩
  | .hbm, ⟨29, _⟩ => ⟨S256x256, .bf16⟩
  | .hbm, ⟨30, _⟩ => ⟨S256x256, .f32⟩
  | .hbm, ⟨31, _⟩ => ⟨S256x256, .f32⟩
  | .hbm, ⟨32, _⟩ => ⟨S256x256, .bf16⟩
  | .hbm, ⟨33, _⟩ => ⟨S256x256, .f32⟩
  | .hbm, ⟨34, _⟩ => ⟨S256x256, .f32⟩
  | .hbm, ⟨35, _⟩ => ⟨S256x256, .bf16⟩
  | .hbm, ⟨36, _⟩ => ⟨S4096x256, .bf16⟩
  | .hbm, ⟨37, _⟩ => ⟨S4096x256, .bf16⟩
  | .hbm, ⟨38, _⟩ => ⟨S4096x256, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S4096x256, .f32⟩
  | .local _ .vmem, ⟨5, _⟩ => ⟨S4096x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S4096x256, .bf16⟩
  | .local _ .vmem, ⟨15, _⟩ => ⟨S4096x256, .bf16⟩
  | .local _ .vmem, ⟨16, _⟩ => ⟨S256x4096, .f32⟩
  | .local _ .vmem, ⟨17, _⟩ => ⟨S256x4096, .f32⟩
  | .local _ .vmem, ⟨18, _⟩ => ⟨S256x4096, .f32⟩
  | .local _ .vmem, ⟨19, _⟩ => ⟨S256x4096, .f32⟩
  | .local _ .vmem, ⟨20, _⟩ => ⟨S4096x256, .bf16⟩
  | .local _ .vmem, ⟨21, _⟩ => ⟨S4096x256, .bf16⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S1x256, .f32⟩
  | .local _ .vmem, ⟨28, _⟩ => ⟨S256x256, .f32⟩
  | .local _ .vmem, ⟨29, _⟩ => ⟨S1x256, .f32⟩
  | .local _ .vmem, ⟨30, _⟩ => ⟨S256x256, .bf16⟩
  | .local _ .vmem, ⟨31, _⟩ => ⟨S256x256, .bf16⟩
  | .local _ .vmem, ⟨32, _⟩ => ⟨S1x256, .f32⟩
  | .local _ .vmem, ⟨33, _⟩ => ⟨S256x256, .bf16⟩
  | .local _ .vmem, ⟨34, _⟩ => ⟨S256x256, .bf16⟩
  | .local _ .vmem, ⟨35, _⟩ => ⟨S1x256, .f32⟩
  | .local _ .vmem, ⟨36, _⟩ => ⟨S256x256, .f32⟩
  | .local _ .vmem, ⟨37, _⟩ => ⟨S256x256, .f32⟩
  | .local _ .vmem, ⟨38, _⟩ => ⟨S4096x256, .bf16⟩
  | .local _ .vmem, ⟨39, _⟩ => ⟨S4096x256, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18_0 : Ref sig .tc := ⟨.hbm, 36, rfl⟩
abbrev main_v18_1 : Ref sig .tc := ⟨.hbm, 37, rfl⟩
abbrev main_v19 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg12_0 : Ref sig .tc := ⟨.vmem, 32, rfl⟩
abbrev cc1_stg13_0 : Ref sig .tc := ⟨.vmem, 33, rfl⟩
abbrev cc1_stg14_0 : Ref sig .tc := ⟨.vmem, 34, rfl⟩
abbrev cc1_stg15_0 : Ref sig .tc := ⟨.vmem, 35, rfl⟩
abbrev cc1_stg16_0 : Ref sig .tc := ⟨.vmem, 36, rfl⟩
abbrev cc1_stg16_1 : Ref sig .tc := ⟨.vmem, 37, rfl⟩
abbrev cc1_scratch0 : Ref sig .tc := ⟨.vmem, 38, rfl⟩
abbrev cc1_scratch1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem11_0 : DmaSem sig := 29
abbrev cc1_sem12_0 : DmaSem sig := 30
abbrev cc1_sem13_0 : DmaSem sig := 31
abbrev cc1_sem14_0 : DmaSem sig := 32
abbrev cc1_sem15_0 : DmaSem sig := 33
abbrev cc1_sem16_0 : DmaSem sig := 34
abbrev cc1_sem16_1 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S256x256 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S256x256 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S256x256 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S256x256 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x256 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 2 → Memref sig .tc .vmem S256x256 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

class Facts₀ : Prop where
  shapeCasts_S256_S1x256 : S256.ShapeCasts S1x256
  slices_S256x512_S256x256_0_0 : S256x512.Slices ![0, 0] S256x256
  transposes_S256x256_S256x256_1_0 : S256x256.Transposes [1, 0] S256x256
  bitsLt_bf16_f32 : FTy.bits .bf16 < FTy.bits .f32
  slices_S256x512_S256x256_0_256 : S256x512.Slices ![0, 256] S256x256
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  inb_S256x4096_S256x4096_0_0 : ∀ a, (![0, 0] : Fin 2 → Nat) a + S256x4096.size a ≤ S256x4096.size a
  h_S256x4096 : 0 < S256x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  packedbf16_S256x256_S256x256_0_0 : (Rect.unit (s := S256x256) ![0, 0] S256x256.size inb_S256x256_S256x256_0_0).PackedRows (EltTy.packing .bf16)
  shapeCasts_S256x256_S256x256 : S256x256.ShapeCasts S256x256
  dot_S4096x256_S256x256_S4096x256_1_0_0_1_n_n_wf : DotDims.WF S4096x256 S256x256 S4096x256 [1] [0] [0] [1] [] []
  dot_S256x4096_S4096x256_S256x256_1_0_0_1_n_n_wf : DotDims.WF S256x4096 S4096x256 S256x256 [1] [0] [0] [1] [] []
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x256.size a
  hwx0_2 : ∀ i : grid0.Coords, EltTy.bits .f32 = 32 ∨ (Rect.block (s := S4096x256) S4096x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x256.size a
  hwx0_3 : ∀ i : grid0.Coords, EltTy.bits .f32 = 32 ∨ (Rect.block (s := S4096x256) S4096x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S4096x256.size a
  hwx0_8 : ∀ i : grid0.Coords, EltTy.bits .bf16 = 32 ∨ (Rect.block (s := S4096x256) S256x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S4096x256.size a
  hwx0_9 : ∀ i : grid0.Coords, EltTy.bits .bf16 = 32 ∨ (Rect.block (s := S4096x256) S256x256.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S4096x4096.size a
  hwx1_1 : ∀ i : grid1.Coords, EltTy.bits .f32 = 32 ∨ (Rect.block (s := S4096x4096) S256x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x256.size a ≤ S4096x256.size a
  hwx1_2 : ∀ i : grid1.Coords, EltTy.bits .bf16 = 32 ∨ (Rect.block (s := S4096x256) S4096x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x256.size a ≤ S4096x256.size a
  hwx1_3 : ∀ i : grid1.Coords, EltTy.bits .bf16 = 32 ∨ (Rect.block (s := S4096x256) S4096x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S4096x256.size a
  hwx1_4 : ∀ i : grid1.Coords, EltTy.bits .f32 = 32 ∨ (Rect.block (s := S4096x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S4096x256.size a
  hwx1_5 : ∀ i : grid1.Coords, EltTy.bits .f32 = 32 ∨ (Rect.block (s := S4096x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .f32 = 32 ∨ (Rect.block (s := S256x256) S256x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x256.size a ≤ S256x256.size a
  hwx1_8 : ∀ i : grid1.Coords, EltTy.bits .f32 = 32 ∨ (Rect.block (s := S256x256) S256x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S256x256.size a ≤ S256x256.size a
  hwx1_10 : ∀ i : grid1.Coords, EltTy.bits .bf16 = 32 ∨ (Rect.block (s := S256x256) S256x256.size (cc1_transform_10 i) (hinb1_10 i)).WholeWords (EltTy.packing .bf16)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S256x256.size a ≤ S256x256.size a
  hwx1_11 : ∀ i : grid1.Coords, EltTy.bits .bf16 = 32 ∨ (Rect.block (s := S256x256) S256x256.size (cc1_transform_11 i) (hinb1_11 i)).WholeWords (EltTy.packing .bf16)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x256.size a ≤ S1x256.size a
  hwx1_12 : ∀ i : grid1.Coords, EltTy.bits .f32 = 32 ∨ (Rect.block (s := S1x256) S1x256.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S256x256.size a ≤ S256x256.size a
  hwx1_13 : ∀ i : grid1.Coords, EltTy.bits .bf16 = 32 ∨ (Rect.block (s := S256x256) S256x256.size (cc1_transform_13 i) (hinb1_13 i)).WholeWords (EltTy.packing .bf16)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S256x256.size a ≤ S256x256.size a
  hwx1_14 : ∀ i : grid1.Coords, EltTy.bits .bf16 = 32 ∨ (Rect.block (s := S256x256) S256x256.size (cc1_transform_14 i) (hinb1_14 i)).WholeWords (EltTy.packing .bf16)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x256.size a ≤ S1x256.size a
  hwx1_15 : ∀ i : grid1.Coords, EltTy.bits .f32 = 32 ∨ (Rect.block (s := S1x256) S1x256.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S256x256.size a ≤ S4096x256.size a
  hwx1_16 : ∀ i : grid1.Coords, EltTy.bits .f32 = 32 ∨ (Rect.block (s := S4096x256) S256x256.size (cc1_transform_16 i) (hinb1_16 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_arg3) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4096x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S4096x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18_0) S256x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v18_1) S256x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg2) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18_0) S4096x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18_1) S4096x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S256x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg1) S256x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v2) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg12) S256x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v3) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v8) S256x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v11) S256x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v4) S1x256.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v14) S256x256.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v17) S256x256.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v5) S1x256.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v19) S256x256.size cc1_transform_16 reads1_16 true false 2 stage1_16 sem1_16
    hrank1 hreads1_16 hinb1_16 nbuf1_16 (Memref.isWhole_whole _) hwx1_16 hstage1_16

abbrev win1 : Fin 17 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | ⟨_ + 17, h⟩ => absurd h (Nat.not_lt.2 (Nat.le_add_left _ _))
abbrev spec1 : Fin 17 → Pipeline.WinSpec sig grid1.rank := fun w => (win1 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S256x512 : Shape := ⟨2, ![256, 512]⟩
abbrev S1x256 : Shape := ⟨2, ![1, 256]⟩
abbrev S_ : Shape := ⟨0, ![]⟩
abbrev S4096x512 : Shape := ⟨2, ![4096, 512]⟩
abbrev S512x256 : Shape := ⟨2, ![512, 256]⟩

abbrev nBuf : Space → Nat
  | .hbm => 91
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x512, .f32⟩
  | .hbm, ⟨15, _⟩ => ⟨S256, .f32⟩
  | .hbm, ⟨16, _⟩ => ⟨S256x512, .f32⟩
  | .hbm, ⟨17, _⟩ => ⟨S256, .f32⟩
  | .hbm, ⟨18, _⟩ => ⟨S4096x256, .f32⟩
  | .hbm, ⟨19, _⟩ => ⟨S4096x256, .f32⟩
  | .hbm, ⟨20, _⟩ => ⟨S1x256, .f32⟩
  | .hbm, ⟨21, _⟩ => ⟨S4096x256, .f32⟩
  | .hbm, ⟨22, _⟩ => ⟨S4096x256, .f32⟩
  | .hbm, ⟨23, _⟩ => ⟨S_, .f32⟩
  | .hbm, ⟨24, _⟩ => ⟨S4096x256, .f32⟩
  | .hbm, ⟨25, _⟩ => ⟨S4096x256, .i1⟩
  | .hbm, ⟨26, _⟩ => ⟨S_, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S4096x256, .f32⟩
  | .hbm, ⟨31, _⟩ => ⟨S4096x256, .f32⟩
  | .hbm, ⟨32, _⟩ => ⟨S1x256, .f32⟩
  | .hbm, ⟨33, _⟩ => ⟨S4096x256, .f32⟩
  | .hbm, ⟨34, _⟩ => ⟨S4096x256, .f32⟩
  | .hbm, ⟨35, _⟩ => ⟨S_, .f32⟩
  | .hbm, ⟨36, _⟩ => ⟨S4096x256, .f32⟩
  | .hbm, ⟨37, _⟩ => ⟨S4096x256, .i1⟩
  | .hbm, ⟨38, _⟩ => ⟨S_, .f32⟩
  | .hbm, ⟨39, _⟩ => ⟨S4096x256, .f32⟩
  | .hbm, ⟨40, _⟩ => ⟨S4096x256, .f32⟩
  | .hbm, ⟨41, _⟩ => ⟨S4096x256, .f32⟩
  | .hbm, ⟨42, _⟩ => ⟨S4096x256, .f32⟩
  | .hbm, ⟨43, _⟩ => ⟨S4096x256, .f32⟩
  | .hbm, ⟨44, _⟩ => ⟨S1x256, .f32⟩
  | .hbm, ⟨45, _⟩ => ⟨S4096x256, .f32⟩
  | .hbm, ⟨46, _⟩ => ⟨S4096x256, .f32⟩
  | .hbm, ⟨47, _⟩ => ⟨S_, .f32⟩
  | .hbm, ⟨48, _⟩ => ⟨S4096x256, .f32⟩
  | .hbm, ⟨49, _⟩ => ⟨S4096x256, .i1⟩
  | .hbm, ⟨50, _⟩ => ⟨S_, .f32⟩
  | .hbm, ⟨51, _⟩ => ⟨S4096x256, .f32⟩
  | .hbm, ⟨52, _⟩ => ⟨S4096x256, .f32⟩
  | .hbm, ⟨53, _⟩ => ⟨S4096x256, .f32⟩
  | .hbm, ⟨54, _⟩ => ⟨S4096x256, .f32⟩
  | .hbm, ⟨55, _⟩ => ⟨S4096x256, .f32⟩
  | .hbm, ⟨56, _⟩ => ⟨S1x256, .f32⟩
  | .hbm, ⟨57, _⟩ => ⟨S4096x256, .f32⟩
  | .hbm, ⟨58, _⟩ => ⟨S4096x256, .f32⟩
  | .hbm, ⟨59, _⟩ => ⟨S_, .f32⟩
  | .hbm, ⟨60, _⟩ => ⟨S4096x256, .f32⟩
  | .hbm, ⟨61, _⟩ => ⟨S4096x256, .i1⟩
  | .hbm, ⟨62, _⟩ => ⟨S_, .f32⟩
  | .hbm, ⟨63, _⟩ => ⟨S4096x256, .f32⟩
  | .hbm, ⟨64, _⟩ => ⟨S4096x256, .f32⟩
  | .hbm, ⟨65, _⟩ => ⟨S4096x256, .f32⟩
  | .hbm, ⟨66, _⟩ => ⟨S4096x512, .f32⟩
  | .hbm, ⟨67, _⟩ => ⟨S512x256, .f32⟩
  | .hbm, ⟨68, _⟩ => ⟨S4096x256, .f32⟩
  | .hbm, ⟨69, _⟩ => ⟨S1x256, .f32⟩
  | .hbm, ⟨70, _⟩ => ⟨S4096x256, .f32⟩
  | .hbm, ⟨71, _⟩ => ⟨S4096x256, .f32⟩
  | .hbm, ⟨72, _⟩ => ⟨S4096x512, .f32⟩
  | .hbm, ⟨73, _⟩ => ⟨S512x256, .f32⟩
  | .hbm, ⟨74, _⟩ => ⟨S4096x256, .f32⟩
  | .hbm, ⟨75, _⟩ => ⟨S1x256, .f32⟩
  | .hbm, ⟨76, _⟩ => ⟨S4096x256, .f32⟩
  | .hbm, ⟨77, _⟩ => ⟨S4096x256, .f32⟩
  | .hbm, ⟨78, _⟩ => ⟨S_, .f32⟩
  | .hbm, ⟨79, _⟩ => ⟨S4096x256, .f32⟩
  | .hbm, ⟨80, _⟩ => ⟨S4096x256, .f32⟩
  | .hbm, ⟨81, _⟩ => ⟨S_, .f32⟩
  | .hbm, ⟨82, _⟩ => ⟨S4096x256, .f32⟩
  | .hbm, ⟨83, _⟩ => ⟨S4096x256, .f32⟩
  | .hbm, ⟨84, _⟩ => ⟨S_, .f32⟩
  | .hbm, ⟨85, _⟩ => ⟨S4096x256, .f32⟩
  | .hbm, ⟨86, _⟩ => ⟨S4096x256, .f32⟩
  | .hbm, ⟨87, _⟩ => ⟨S_, .f32⟩
  | .hbm, ⟨88, _⟩ => ⟨S4096x256, .f32⟩
  | .hbm, ⟨89, _⟩ => ⟨S4096x256, .f32⟩
  | .hbm, ⟨90, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_5 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call4_cst : Ref sig .tc := ⟨.hbm, 78, rfl⟩
abbrev main_call4_v0 : Ref sig .tc := ⟨.hbm, 79, rfl⟩
abbrev main_v52 : Ref sig .tc := ⟨.hbm, 80, rfl⟩
abbrev main_cst_7 : Ref sig .tc := ⟨.hbm, 81, rfl⟩
abbrev main_v53 : Ref sig .tc := ⟨.hbm, 82, rfl⟩
abbrev main_v54 : Ref sig .tc := ⟨.hbm, 83, rfl⟩
abbrev main_call5_cst : Ref sig .tc := ⟨.hbm, 84, rfl⟩
abbrev main_call5_v0 : Ref sig .tc := ⟨.hbm, 85, rfl⟩
abbrev main_v55 : Ref sig .tc := ⟨.hbm, 86, rfl⟩
abbrev main_cst_8 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  concatenates_S4096x256_S4096x256_S4096x512_d1 : Shape.Concatenates [S4096x256, S4096x256] S4096x512 1
  transposes_S256x512_S512x256_1_0 : S256x512.Transposes [1, 0] S512x256
  dot_S4096x256_S256x256_S4096x256_1_0_0_1_n_n_wf : DotDims.WF S4096x256 S256x256 S4096x256 [1] [0] [0] [1] [] []
  dot_S4096x4096_S4096x256_S4096x256_1_0_0_1_n_n_wf : DotDims.WF S4096x4096 S4096x256 S4096x256 [1] [0] [0] [1] [] []
  dot_S4096x512_S512x256_S4096x256_1_0_0_1_n_n_wf : DotDims.WF S4096x512 S512x256 S4096x256 [1] [0] [0] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

class Facts : Prop extends Facts₀ where

variable [Facts]
-- ==== Proof.KStage1Body.lean ====
import proofs.«116847_g8323646620422_cont_9to1_m_1182_26_alg».proof.Proof.Gen.Kernel.Launch
import proofs.«116847_g8323646620422_cont_9to1_m_1182_26_alg».proof.Proof.Gen.Kernel.Skeleton
import proofs.«116847_g8323646620422_cont_9to1_m_1182_26_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Stage1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's body, run once

The body of the first kernel reads one block of 256 rows of each of the two adjacency matrices, both feature matrices
and both weights whole, and the two bias rows; it keeps the two products features · weight in two buffers of its own.
At the first grid point it computes those two products and stores them; at every point it multiplies each adjacency
block by the stored product, adds the bias row, applies the leaky rectifier and stores the result block. So a run of
the body from stored products s1, s2 leaves them in place, and a run at the first point leaves the freshly computed
ones; either way each result block is the rectified (block · product + bias) of the products it ends with. -/

/-- The offset of every access of this body: the zero function. -/
theorem hz2 : (![0, 0] : Fin 2 → Nat) = fun _ => 0 := funext fun a => by fin_cases a <;> rfl

/-- The body's one branch condition: the grid coordinate is zero. -/
abbrev first (i : grid0.Coords) : Prop :=
  (Scalar.cmpi .ne (Scalar.extui (Scalar.cmpi .eq (BitVec.ofNat 32 (i 0).val) 0#32)) 0#32) = 1#1

/-- It holds at the first of the sixteen points and at no other. -/
theorem first_iff : ∀ t : Fin cfg0.N, first (grid0.coords t) ↔ t.val = 0 :=
  (by decide +kernel : ∀ t : Fin grid0.N, first (grid0.coords t) ↔ t.val = 0)

set_option maxHeartbeats 4000000 in
/-- At a point that is not the first: from the stored products s1, s2 the body leaves every input and both products as
    they were and each result block at the rectified (block · product + bias). -/
theorem run_later (c : Dev nD) (E : Set ℕ) (i : grid0.Coords) (hi : ¬ first i)
    (arg1 : Memref sig .tc .vmem S256x4096 .f32) (harg1 : arg1.IsWhole) (arg2 : Memref sig .tc .vmem S256x4096 .f32) (harg2 : arg2.IsWhole)
    (arg3 : Memref sig .tc .vmem S4096x256 .f32) (harg3 : arg3.IsWhole) (arg4 : Memref sig .tc .vmem S4096x256 .f32) (harg4 : arg4.IsWhole)
    (arg5 : Memref sig .tc .vmem S256x256 .f32) (harg5 : arg5.IsWhole) (arg6 : Memref sig .tc .vmem S1x256 .f32) (harg6 : arg6.IsWhole)
    (arg7 : Memref sig .tc .vmem S256x256 .f32) (harg7 : arg7.IsWhole) (arg8 : Memref sig .tc .vmem S1x256 .f32) (harg8 : arg8.IsWhole)
    (arg9 : Memref sig .tc .vmem S256x256 .bf16) (harg9 : arg9.IsWhole) (arg10 : Memref sig .tc .vmem S256x256 .bf16) (harg10 : arg10.IsWhole)
    (arg11 : Memref sig .tc .vmem S4096x256 .bf16) (harg11 : arg11.IsWhole) (arg12 : Memref sig .tc .vmem S4096x256 .bf16) (harg12 : arg12.IsWhole)
    (x1 : Vec F S256x4096 .f32) (x2 : Vec F S256x4096 .f32) (x3 : Vec F S4096x256 .f32) (x4 : Vec F S4096x256 .f32)
    (x5 : Vec F S256x256 .f32) (x6 : Vec F S1x256 .f32) (x7 : Vec F S256x256 .f32) (x8 : Vec F S1x256 .f32)
    (s1 : Vec F S4096x256 .bf16) (s2 : Vec F S4096x256 .bf16) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
        ∗ (∃ d, owns (c : Thread nD τ) arg9 fullShare d) ∗ (∃ d, owns (c : Thread nD τ) arg10 fullShare d)
        ∗ owns (c : Thread nD τ) arg11 fullShare s1 ∗ owns (c : Thread nD τ) arg12 fullShare s2
        ∗ (iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
            ∗ owns (c : Thread nD τ) arg9 fullShare (k0_pay3 x1 s1 x6) ∗ owns (c : Thread nD τ) arg10 fullShare (k0_pay4 x2 s2 x8)
            ∗ owns (c : Thread nD τ) arg11 fullShare s1 ∗ owns (c : Thread nD τ) arg12 fullShare s2) -∗ K ⟨⟩))
      ⊢ wp frame (wpE (defs₀ (F := F)) Variants.none c none) E
          (cc0__stage1_body i arg1 harg1 arg2 harg2 arg3 harg3 arg4 harg4 arg5 harg5 arg6 harg6 arg7 harg7 arg8 harg8 arg9 harg9 arg10 harg10 arg11 harg11 arg12 harg12) K := by
  simp only [cc0__stage1_body_eq_skeleton]; unfold cc0__stage1_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg11.eq_unread hf11; obtain rfl := harg12.eq_unread hf12
  sl_exec (disch := first | exact hi)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    rw [View.read_writes_eq_canon _ _ _ (View.cover_of_tiled _ S256x256.size (by rfl)), View.canon_unit_zero hz2]
    simp only [View.readAt_eq_ld, harg1.read_unread, harg11.read_unread, harg6.read_unread, View.ld_unit_zero (S := S256x4096) hz2, View.ld_unit_zero (S := S4096x256) hz2, View.ld_unit_zero (S := S1x256) hz2, View.ld_unit_zero (S := S256x256) hz2]
  isplitl [H10]
  · iexists _; isplitr
    swap; · iexact H10
    ipureintro
    rw [View.read_writes_eq_canon _ _ _ (View.cover_of_tiled _ S256x256.size (by rfl)), View.canon_unit_zero hz2]
    simp only [View.readAt_eq_ld, harg2.read_unread, harg12.read_unread, harg8.read_unread, View.ld_unit_zero (S := S256x4096) hz2, View.ld_unit_zero (S := S4096x256) hz2, View.ld_unit_zero (S := S1x256) hz2, View.ld_unit_zero (S := S256x256) hz2]
  isplitl [H11]
  · iexists _; isplitr; · ipureintro; exact harg11.read_unread _
    iexact H11
  iexists _; isplitr; · ipureintro; exact harg12.read_unread _
  iexact H12

set_option maxHeartbeats 4000000 in
/-- At the first point: whatever the two buffers held, the body stores the two products features · weight into them and
    leaves each result block at the rectified (block · product + bias) of those. -/
theorem run_first (c : Dev nD) (E : Set ℕ) (i : grid0.Coords) (hi : first i)
    (arg1 : Memref sig .tc .vmem S256x4096 .f32) (harg1 : arg1.IsWhole) (arg2 : Memref sig .tc .vmem S256x4096 .f32) (harg2 : arg2.IsWhole)
    (arg3 : Memref sig .tc .vmem S4096x256 .f32) (harg3 : arg3.IsWhole) (arg4 : Memref sig .tc .vmem S4096x256 .f32) (harg4 : arg4.IsWhole)
    (arg5 : Memref sig .tc .vmem S256x256 .f32) (harg5 : arg5.IsWhole) (arg6 : Memref sig .tc .vmem S1x256 .f32) (harg6 : arg6.IsWhole)
    (arg7 : Memref sig .tc .vmem S256x256 .f32) (harg7 : arg7.IsWhole) (arg8 : Memref sig .tc .vmem S1x256 .f32) (harg8 : arg8.IsWhole)
    (arg9 : Memref sig .tc .vmem S256x256 .bf16) (harg9 : arg9.IsWhole) (arg10 : Memref sig .tc .vmem S256x256 .bf16) (harg10 : arg10.IsWhole)
    (arg11 : Memref sig .tc .vmem S4096x256 .bf16) (harg11 : arg11.IsWhole) (arg12 : Memref sig .tc .vmem S4096x256 .bf16) (harg12 : arg12.IsWhole)
    (x1 : Vec F S256x4096 .f32) (x2 : Vec F S256x4096 .f32) (x3 : Vec F S4096x256 .f32) (x4 : Vec F S4096x256 .f32)
    (x5 : Vec F S256x256 .f32) (x6 : Vec F S1x256 .f32) (x7 : Vec F S256x256 .f32) (x8 : Vec F S1x256 .f32)
    (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
        ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
            ∗ owns (c : Thread nD τ) arg9 fullShare (k0_pay3 x1 (k0_pay1 x3 x5) x6) ∗ owns (c : Thread nD τ) arg10 fullShare (k0_pay4 x2 (k0_pay2 x4 x7) x8)
            ∗ owns (c : Thread nD τ) arg11 fullShare (k0_pay1 x3 x5) ∗ owns (c : Thread nD τ) arg12 fullShare (k0_pay2 x4 x7)) -∗ K ⟨⟩))
      ⊢ wp frame (wpE (defs₀ (F := F)) Variants.none c none) E
          (cc0__stage1_body i arg1 harg1 arg2 harg2 arg3 harg3 arg4 harg4 arg5 harg5 arg6 harg6 arg7 harg7 arg8 harg8 arg9 harg9 arg10 harg10 arg11 harg11 arg12 harg12) K := by
  simp only [cc0__stage1_body_eq_skeleton]; unfold cc0__stage1_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hi)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    rw [View.read_writes_eq_canon _ _ _ (View.cover_of_tiled _ S256x256.size (by rfl)), View.canon_unit_zero hz2]
    unfold run_first.sl.v5 run_first.sl.H11_1
    rw [View.readCov_unit_zero _ hz2]
    simp only [View.readAt_eq_ld, harg1.read_unread, harg3.read_unread, harg5.read_unread, harg6.read_unread, View.ld_unit_zero (S := S256x4096) hz2, View.ld_unit_zero (S := S4096x256) hz2, View.ld_unit_zero (S := S1x256) hz2, View.ld_unit_zero (S := S256x256) hz2]
  isplitl [H10]
  · iexists _; isplitr
    swap; · iexact H10
    ipureintro
    rw [View.read_writes_eq_canon _ _ _ (View.cover_of_tiled _ S256x256.size (by rfl)), View.canon_unit_zero hz2]
    unfold run_first.sl.v20 run_first.sl.H12_1
    rw [View.readCov_unit_zero _ hz2]
    simp only [View.readAt_eq_ld, harg2.read_unread, harg4.read_unread, harg7.read_unread, harg8.read_unread, View.ld_unit_zero (S := S256x4096) hz2, View.ld_unit_zero (S := S4096x256) hz2, View.ld_unit_zero (S := S1x256) hz2, View.ld_unit_zero (S := S256x256) hz2]
  isplitl [H11]
  · iexists _; isplitr
    swap; · iexact H11
    ipureintro
    unfold run_first.sl.H11_1
    rw [View.read_writes_eq_canon _ _ _ (View.cover_of_tiled _ S4096x256.size (by rfl)), View.canon_unit_zero hz2]
    simp only [View.readAt_eq_ld, harg3.read_unread, harg5.read_unread, View.ld_unit_zero (S := S256x4096) hz2, View.ld_unit_zero (S := S4096x256) hz2, View.ld_unit_zero (S := S1x256) hz2, View.ld_unit_zero (S := S256x256) hz2]
  iexists _; isplitr
  swap; · iexact H12
  ipureintro
  unfold run_first.sl.H12_1
  rw [View.read_writes_eq_canon _ _ _ (View.cover_of_tiled _ S4096x256.size (by rfl)), View.canon_unit_zero hz2]
  simp only [View.readAt_eq_ld, harg4.read_unread, harg7.read_unread, View.ld_unit_zero (S := S256x4096) hz2, View.ld_unit_zero (S := S4096x256) hz2, View.ld_unit_zero (S := S1x256) hz2, View.ld_unit_zero (S := S256x256) hz2]

end Cert.Kernel.Stage1

end
-- ==== Proof.KStage1Data.lean ====
import proofs.«116847_g8323646620422_cont_9to1_m_1182_26_alg».proof.Proof.Gen.Kernel.Launch
import proofs.«116847_g8323646620422_cont_9to1_m_1182_26_alg».proof.Proof.Gen.Kernel.Skeleton
import proofs.«116847_g8323646620422_cont_9to1_m_1182_26_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«116847_g8323646620422_cont_9to1_m_1182_26_alg».proof.Proof.KStage1Body
import Idealize.ShloMosaic.Lib.Pipeline.Value

set_option maxRecDepth 16384

noncomputable section

namespace Cert.Kernel.Stage1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel over its sixteen points

At point t the pipeline hands the body block t (256 rows) of each adjacency matrix and the whole feature matrices,
weights and bias rows. The two buffers the kernel keeps hold anything before the first point and, from then on, the two
products features · weight, which never change. So the result block written back at point t is the rectified
(adjacency block t · product + bias), with the product computed once from the whole arrays. -/

section Data

variable (V : (c : Dev nD) → (b : Ref sig .tc) → Buf (Elt F) ((c : Thread nD τ).loc b))

/-- Window w's block at point t, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- The two stored products: source features · W1 and target features · W2, from the arrays read whole at the first point. -/
def sup1 (c : Dev nD) : Vec F S4096x256 .bf16 := k0_pay1 (iblk V c 2 t0_0) (iblk V c 4 t0_0)
def sup2 (c : Dev nD) : Vec F S4096x256 .bf16 := k0_pay2 (iblk V c 3 t0_0) (iblk V c 6 t0_0)

/-- What the kernel's invariant is before position n: before the first point its two buffers hold anything; afterwards
    they hold the two products. The other scoped buffers and the generator register ride along untouched. -/
def Phi (c : Dev nD) : ℕ → sProp 𝕄
  | 0 => Pipeline.ΦA spec0 c
  | _ + 1 => iprop(iprop(owns (c : Thread nD τ) (Memref.whole cc0_scratch0) fullShare (sup1 V c) ∗ owns (c : Thread nD τ) (Memref.whole cc0_scratch1) fullShare (sup2 V c))
      ∗ Pipeline.scopedRestBut (Ix := Unit) (Name := ℕ) (U := UR sig nD τ) (Lvl := ℕ) (Val := Elt F) spec0 c [cc0_scratch0, cc0_scratch1] ∗ (∃ r, prngReg c r))

theorem Phi_pos (c : Dev nD) (n : ℕ) (hn : n ≠ 0) :
    Phi V c n = iprop(iprop(owns (c : Thread nD τ) (Memref.whole cc0_scratch0) fullShare (sup1 V c) ∗ owns (c : Thread nD τ) (Memref.whole cc0_scratch1) fullShare (sup2 V c))
      ∗ Pipeline.scopedRestBut (Ix := Unit) (Name := ℕ) (U := UR sig nD τ) (Lvl := ℕ) (Val := Elt F) spec0 c [cc0_scratch0, cc0_scratch1] ∗ (∃ r, prngReg c r)) := by
  cases n with
  | zero => exact absurd rfl hn
  | succ n => rfl

/-- Before the first point: the two buffers at some contents each, split off the scoped buffers. -/
theorem PhiA_eq (c : Dev nD) :
    (Pipeline.ΦA spec0 c : sProp 𝕄)
      = iprop(iprop(iprop((∃ d, owns (c : Thread nD τ) (Memref.whole cc0_scratch0) fullShare d) ∗ (∃ d, owns (c : Thread nD τ) (Memref.whole cc0_scratch1) fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [owns_whole]; try rfl

/-- The proof data of the first kernel on core c. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => k0_pay3 (iblk V c 0 t) (sup1 V c) (iblk V c 5 t)
    | ⟨9, _⟩ => k0_pay4 (iblk V c 1 t) (sup2 V c) (iblk V c 7 t)
  Φ t := Phi V c t.val
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = k0_pay3 (iblk V c 0 t) (sup1 V c) (iblk V c 5 t) := by dsimp only [dat]
theorem after_9 (c : Dev nD) (t : Fin cfg0.N) : (dat V c).after 9 t = k0_pay4 (iblk V c 1 t) (sup2 V c) (iblk V c 7 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d
theorem before_5 (c : Dev nD) (t : Fin cfg0.N) (d) : (dat V c).before 5 t d = iblk V c 5 t :=
  before_5_of V (dat V c) (A_eq V c 5) (after_5 V c) t d
theorem before_6 (c : Dev nD) (t : Fin cfg0.N) (d) : (dat V c).before 6 t d = iblk V c 6 t :=
  before_6_of V (dat V c) (A_eq V c 6) (after_6 V c) t d
theorem before_7 (c : Dev nD) (t : Fin cfg0.N) (d) : (dat V c).before 7 t d = iblk V c 7 t :=
  before_7_of V (dat V c) (A_eq V c 7) (after_7 V c) t d

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t))

set_option maxHeartbeats 4000000 in
/-- The body at any point: at the first it finds its two buffers at anything and fills them; at a later one it finds them
    at the two products and leaves them. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7]
  rw [show (dat V c).Φ t.succ = Phi V c (t.val + 1) from rfl,
    show (dat V c).Φ t.castSucc = Phi V c t.val from rfl,
    show (dat V c).owesAt () t.succ = (dat V c).owesAt () t.castSucc from rfl,
    after_0, after_1, after_2, after_3, after_4, after_5, after_6, after_7, after_8, after_9]
  by_cases hz : t.val = 0
  · obtain rfl : t = t0_0 := Fin.ext hz
    rw [show Phi V c (t0_0 : Fin cfg0.N).val = Pipeline.ΦA spec0 c from rfl, PhiA_eq,
      Phi_pos V c ((t0_0 : Fin cfg0.N).val + 1) (Nat.succ_ne_zero _)]
    iintro ⟨⟨⟨⟨⟨%e0, HS0⟩, ⟨%e1, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_first c Set.univ _ ((first_iff t0_0).2 rfl) _ _ _ _ _ _ _ _ _ _ _ _ _ _ _ _ _ _ _ _ _ _ _ _
      (iblk V c 0 t0_0) (iblk V c 1 t0_0) (iblk V c 2 t0_0) (iblk V c 3 t0_0) (iblk V c 4 t0_0) (iblk V c 5 t0_0) (iblk V c 6 t0_0) (iblk V c 7 t0_0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexists _; iexact HS0
    isplitl [HS1]; · iexists _; iexact HS1
    iintro ⟨H0, H1, H2, H3, H4, H5, H6, H7, H8, H9, HS0, HS1⟩
    isplitl [HS0 HS1 Hrest Hg]
    · isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [Phi_pos V c t.val hz, show Phi V c (t.val + 1) = Phi V c t.val from by rw [Phi_pos V c t.val hz]; rfl, Phi_pos V c t.val hz]
    iintro ⟨⟨⟨HS0, HS1⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_later c Set.univ _ (fun h => hz ((first_iff t).1 h)) _ _ _ _ _ _ _ _ _ _ _ _ _ _ _ _ _ _ _ _ _ _ _ _
      (iblk V c 0 t) (iblk V c 1 t) (iblk V c 2 t) (iblk V c 3 t) (iblk V c 4 t) (iblk V c 5 t) (iblk V c 6 t) (iblk V c 7 t) (sup1 V c) (sup2 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hrest Hg]
    · isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The library's body obligation, at every point. -/
theorem body_obligation (c : Dev nD) : BodyObligation (dat (F := F) V c) (defs₀ (F := F)) Variants.none () Set.univ := fun t => by
  rw [bigSep_W0, bigSep_W0]
  exact sound_body V c t

/-- After the last point the invariant gives back the scoped buffers at some contents each: the stored products' names are
    forgotten. -/
theorem Phi_last (c : Dev nD) : (dat V c).Φ (Fin.last cfg0.N) ⊢ Pipeline.ΦA spec0 c := by
  rw [show (dat V c).Φ (Fin.last cfg0.N) = Phi V c (Fin.last cfg0.N).val from rfl,
    Phi_pos V c _ (by rw [Fin.val_last]; have : cfg0.N = 16 := N_0; omega), PhiA_eq]
  iintro ⟨⟨HS0, HS1⟩, Hrest, Hg⟩
  isplitl [HS0 HS1 Hrest]
  · isplitl [HS0 HS1]
    · isplitl [HS0]; · iexists _; iexact HS0
      iexists _; iexact HS1
    iexact Hrest
  iexact Hg

end Data

end Cert.Kernel.Stage1

end
-- ==== Proof.KStage2Body.lean ====
import proofs.«116847_g8323646620422_cont_9to1_m_1182_26_alg».proof.Proof.Gen.Kernel.Launch
import proofs.«116847_g8323646620422_cont_9to1_m_1182_26_alg».proof.Proof.Gen.Kernel.Skeleton
import proofs.«116847_g8323646620422_cont_9to1_m_1182_26_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Stage2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's body, run once

The body of the second kernel reads one block of 256 rows of each of the two other adjacency matrices, both first-layer
results whole, the matching blocks of the two feature matrices, both second-layer weights and bias rows, and the four
halves of the two head weights with the two head bias rows; it keeps the two products first-layer result · weight in two
buffers of its own. At the first grid point it computes and stores those two products; at every point it forms, per path,
the rectified (adjacency block · stored product + bias), the head of that and of the feature block, and stores half the
positive part of one head plus half the positive part of the other. -/

theorem hz2 : (![0, 0] : Fin 2 → Nat) = fun _ => 0 := funext fun a => by fin_cases a <;> rfl

/-- The body's one branch condition: the grid coordinate is zero. -/
abbrev first (i : grid1.Coords) : Prop :=
  (Scalar.cmpi .ne (Scalar.extui (Scalar.cmpi .eq (BitVec.ofNat 32 (i 0).val) 0#32)) 0#32) = 1#1

/-- It holds at the first of the sixteen points and at no other. -/
theorem first_iff : ∀ t : Fin cfg1.N, first (grid1.coords t) ↔ t.val = 0 :=
  (by decide +kernel : ∀ t : Fin grid1.N, first (grid1.coords t) ↔ t.val = 0)

set_option maxHeartbeats 8000000 in
/-- At a point that is not the first: from the stored products s1, s2 the body leaves every input and both products as
    they were and the result block at the combination of the two heads. -/
theorem run_later (c : Dev nD) (E : Set ℕ) (i : grid1.Coords) (hi : ¬ first i)
    (arg1 : Memref sig .tc .vmem S256x4096 .f32) (harg1 : arg1.IsWhole) (arg2 : Memref sig .tc .vmem S256x4096 .f32) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S256x256 .bf16) (harg14 : arg14.IsWhole) (arg15 : Memref sig .tc .vmem S256x256 .bf16) (harg15 : arg15.IsWhole) (arg16 : Memref sig .tc .vmem S1x256 .f32) (harg16 : arg16.IsWhole) (arg17 : Memref sig .tc .vmem S256x256 .f32) (harg17 : arg17.IsWhole) (arg18 : Memref sig .tc .vmem S4096x256 .bf16) (harg18 : arg18.IsWhole) (arg19 : Memref sig .tc .vmem S4096x256 .bf16) (harg19 : arg19.IsWhole)
    (x1 : Vec F S256x4096 .f32) (x2 : Vec F S256x4096 .f32) (x3 : Vec F S4096x256 .bf16) (x4 : Vec F S4096x256 .bf16) (x5 : Vec F S256x256 .f32) (x6 : Vec F S256x256 .f32) (x7 : Vec F S256x256 .f32) (x8 : Vec F S1x256 .f32) (x9 : Vec F S256x256 .f32) (x10 : Vec F S1x256 .f32) (x11 : Vec F S256x256 .bf16) (x12 : Vec F S256x256 .bf16) (x13 : Vec F S1x256 .f32) (x14 : Vec F S256x256 .bf16) (x15 : Vec F S256x256 .bf16) (x16 : Vec F S1x256 .f32)
    (s1 : Vec F S4096x256 .bf16) (s2 : Vec F S4096x256 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16
        ∗ (∃ d, owns (c : Thread nD τ) arg17 fullShare d)
        ∗ owns (c : Thread nD τ) arg18 fullShare s1 ∗ owns (c : Thread nD τ) arg19 fullShare s2
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16
            ∗ owns (c : Thread nD τ) arg17 fullShare (k1_pay1 (k1_pay4 x2 s2 x10) (k1_pay5 x1 s1 x8 x11) x5 x12 x13 x14 x6 x15 x16)
            ∗ owns (c : Thread nD τ) arg18 fullShare s1 ∗ owns (c : Thread nD τ) arg19 fullShare s2) -∗ K ⟨⟩))
      ⊢ wp frame (wpE (defs₀ (F := F)) Variants.none c none) E
          (cc1__stage2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1__stage2_body_eq_skeleton]; unfold cc1__stage2_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%f18, %hf18, H18⟩, ⟨%f19, %hf19, H19⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  obtain rfl := harg18.eq_unread hf18; obtain rfl := harg19.eq_unread hf19
  sl_exec (disch := first | exact hi)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr
    swap; · iexact H17
    ipureintro
    rw [View.read_writes_eq_canon _ _ _ (View.cover_of_tiled _ S256x256.size (by rfl)), View.canon_unit_zero hz2]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg18.read_unread, harg19.read_unread, View.ld_unit_zero (S := S256x4096) hz2, View.ld_unit_zero (S := S4096x256) hz2, View.ld_unit_zero (S := S1x256) hz2, View.ld_unit_zero (S := S256x256) hz2]
  isplitl [H18]
  · iexists _; isplitr; · ipureintro; exact harg18.read_unread _
    iexact H18
  iexists _; isplitr; · ipureintro; exact harg19.read_unread _
  iexact H19

set_option maxHeartbeats 8000000 in
/-- At the first point: whatever the two buffers held, the body stores the two products first-layer result · weight into
    them and leaves the result block at the combination of the two heads over those. -/
theorem run_first (c : Dev nD) (E : Set ℕ) (i : grid1.Coords) (hi : first i)
    (arg1 : Memref sig .tc .vmem S256x4096 .f32) (harg1 : arg1.IsWhole) (arg2 : Memref sig .tc .vmem S256x4096 .f32) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S256x256 .bf16) (harg14 : arg14.IsWhole) (arg15 : Memref sig .tc .vmem S256x256 .bf16) (harg15 : arg15.IsWhole) (arg16 : Memref sig .tc .vmem S1x256 .f32) (harg16 : arg16.IsWhole) (arg17 : Memref sig .tc .vmem S256x256 .f32) (harg17 : arg17.IsWhole) (arg18 : Memref sig .tc .vmem S4096x256 .bf16) (harg18 : arg18.IsWhole) (arg19 : Memref sig .tc .vmem S4096x256 .bf16) (harg19 : arg19.IsWhole)
    (x1 : Vec F S256x4096 .f32) (x2 : Vec F S256x4096 .f32) (x3 : Vec F S4096x256 .bf16) (x4 : Vec F S4096x256 .bf16) (x5 : Vec F S256x256 .f32) (x6 : Vec F S256x256 .f32) (x7 : Vec F S256x256 .f32) (x8 : Vec F S1x256 .f32) (x9 : Vec F S256x256 .f32) (x10 : Vec F S1x256 .f32) (x11 : Vec F S256x256 .bf16) (x12 : Vec F S256x256 .bf16) (x13 : Vec F S1x256 .f32) (x14 : Vec F S256x256 .bf16) (x15 : Vec F S256x256 .bf16) (x16 : Vec F S1x256 .f32)
    (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16
        ∗ (∃ d, owns (c : Thread nD τ) arg17 fullShare d)
        ∗ (∃ d, owns (c : Thread nD τ) arg18 fullShare d) ∗ (∃ d, owns (c : Thread nD τ) arg19 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16
            ∗ owns (c : Thread nD τ) arg17 fullShare (k1_pay1 (k1_pay4 x2 (k1_pay3 x4 x9) x10) (k1_pay5 x1 (k1_pay2 x3 x7) x8 x11) x5 x12 x13 x14 x6 x15 x16)
            ∗ owns (c : Thread nD τ) arg18 fullShare (k1_pay2 x3 x7) ∗ owns (c : Thread nD τ) arg19 fullShare (k1_pay3 x4 x9)) -∗ K ⟨⟩))
      ⊢ wp frame (wpE (defs₀ (F := F)) Variants.none c none) E
          (cc1__stage2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1__stage2_body_eq_skeleton]; unfold cc1__stage2_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  sl_exec (disch := first | exact hi)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr
    swap; · iexact H17
    ipureintro
    rw [View.read_writes_eq_canon _ _ _ (View.cover_of_tiled _ S256x256.size (by rfl)), View.canon_unit_zero hz2]
    unfold run_first.sl.v5 run_first.sl.v18 run_first.sl.H18_1 run_first.sl.H19_1
    rw [View.readCov_unit_zero _ hz2, View.readCov_unit_zero _ hz2]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x4096) hz2, View.ld_unit_zero (S := S4096x256) hz2, View.ld_unit_zero (S := S1x256) hz2, View.ld_unit_zero (S := S256x256) hz2]
  isplitl [H18]
  · iexists _; isplitr
    swap; · iexact H18
    ipureintro
    unfold run_first.sl.H18_1
    rw [View.read_writes_eq_canon _ _ _ (View.cover_of_tiled _ S4096x256.size (by rfl)), View.canon_unit_zero hz2]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x4096) hz2, View.ld_unit_zero (S := S4096x256) hz2, View.ld_unit_zero (S := S1x256) hz2, View.ld_unit_zero (S := S256x256) hz2]
  iexists _; isplitr
  swap; · iexact H19
  ipureintro
  unfold run_first.sl.H19_1
  rw [View.read_writes_eq_canon _ _ _ (View.cover_of_tiled _ S4096x256.size (by rfl)), View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x4096) hz2, View.ld_unit_zero (S := S4096x256) hz2, View.ld_unit_zero (S := S1x256) hz2, View.ld_unit_zero (S := S256x256) hz2]

end Cert.Kernel.Stage2

end
-- ==== Proof.KStage2Data.lean ====
import proofs.«116847_g8323646620422_cont_9to1_m_1182_26_alg».proof.Proof.Gen.Kernel.Launch
import proofs.«116847_g8323646620422_cont_9to1_m_1182_26_alg».proof.Proof.Gen.Kernel.Skeleton
import proofs.«116847_g8323646620422_cont_9to1_m_1182_26_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«116847_g8323646620422_cont_9to1_m_1182_26_alg».proof.Proof.KStage2Body
import Idealize.ShloMosaic.Lib.Pipeline.Value

set_option maxRecDepth 16384

noncomputable section

namespace Cert.Kernel.Stage2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel over its sixteen points

At point t the pipeline hands the body block t (256 rows) of each of the two adjacency matrices and of each feature
matrix, and the first-layer results, weights, bias rows and head-weight halves whole. The two buffers the kernel keeps
hold anything before the first point and, from then on, the two products first-layer result · weight. So the result block
written back at point t is the combination of the two heads over the rectified (adjacency block t · product + bias) and
the feature block t, with the products computed once from the whole arrays. -/

section Data

variable (V : (c : Dev nD) → (b : Ref sig .tc) → Buf (Elt F) ((c : Thread nD τ).loc b))

/-- Window w's block at point t, read off its array as the kernel finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg1 c) (hA : dat.A 8 = V c (Pipeline.arrRef spec1 8))
    (hafter : ∀ t, dat.after 8 t = iblk V c 8 t) (t : Fin cfg1.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg1 c) (hA : dat.A 9 = V c (Pipeline.arrRef spec1 9))
    (hafter : ∀ t, dat.after 9 t = iblk V c 9 t) (t : Fin cfg1.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg1 c) (hA : dat.A 10 = V c (Pipeline.arrRef spec1 10))
    (hafter : ∀ t, dat.after 10 t = iblk V c 10 t) (t : Fin cfg1.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) Unit ℕ (UR sig nD τ) ℕ cfg1 c) (hA : dat.A 11 = V c (Pipeline.arrRef spec1 11))
    (hafter : ∀ t, dat.after 11 t = iblk V c 11 t) (t : Fin cfg1.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_12_of {c : Dev nD} (dat : Dat τ (Elt F) Unit ℕ (UR sig nD τ) ℕ cfg1 c) (hA : dat.A 12 = V c (Pipeline.arrRef spec1 12))
    (hafter : ∀ t, dat.after 12 t = iblk V c 12 t) (t : Fin cfg1.N) (d) : dat.before 12 t d = iblk V c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before_13_of {c : Dev nD} (dat : Dat τ (Elt F) Unit ℕ (UR sig nD τ) ℕ cfg1 c) (hA : dat.A 13 = V c (Pipeline.arrRef spec1 13))
    (hafter : ∀ t, dat.after 13 t = iblk V c 13 t) (t : Fin cfg1.N) (d) : dat.before 13 t d = iblk V c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before_14_of {c : Dev nD} (dat : Dat τ (Elt F) Unit ℕ (UR sig nD τ) ℕ cfg1 c) (hA : dat.A 14 = V c (Pipeline.arrRef spec1 14))
    (hafter : ∀ t, dat.after 14 t = iblk V c 14 t) (t : Fin cfg1.N) (d) : dat.before 14 t d = iblk V c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before_15_of {c : Dev nD} (dat : Dat τ (Elt F) Unit ℕ (UR sig nD τ) ℕ cfg1 c) (hA : dat.A 15 = V c (Pipeline.arrRef spec1 15))
    (hafter : ∀ t, dat.after 15 t = iblk V c 15 t) (t : Fin cfg1.N) (d) : dat.before 15 t d = iblk V c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-- The two stored products: source first-layer result · W3 and target first-layer result · W4, from the arrays read whole
    at the first point. -/
def sup1 (c : Dev nD) : Vec F S4096x256 .bf16 := k1_pay2 (iblk V c 2 t1_0) (iblk V c 6 t1_0)
def sup2 (c : Dev nD) : Vec F S4096x256 .bf16 := k1_pay3 (iblk V c 3 t1_0) (iblk V c 8 t1_0)

/-- The core's scoped buffers that this kernel stages nothing in, split at its own two buffers. -/
theorem scopedRest_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))
          ∗ Pipeline.scopedRestBut (Ix := Unit) (Name := ℕ) (U := UR sig nD τ) (Lvl := ℕ) (Val := Elt F) spec1 c [cc1_scratch0, cc1_scratch1]) :=
  Pipeline.scopedRest_split_of_list spec1 c [cc1_scratch0, cc1_scratch1] (by decide) (by decide)

/-- The kernel's invariant before position n: before the first point its two buffers hold anything; afterwards they hold
    the two products. The other scoped buffers and the generator register ride along untouched. -/
def Phi (c : Dev nD) : ℕ → sProp 𝕄
  | 0 => Pipeline.ΦA spec1 c
  | _ + 1 => iprop(iprop(owns (c : Thread nD τ) (Memref.whole cc1_scratch0) fullShare (sup1 V c) ∗ owns (c : Thread nD τ) (Memref.whole cc1_scratch1) fullShare (sup2 V c))
      ∗ Pipeline.scopedRestBut (Ix := Unit) (Name := ℕ) (U := UR sig nD τ) (Lvl := ℕ) (Val := Elt F) spec1 c [cc1_scratch0, cc1_scratch1] ∗ (∃ r, prngReg c r))

theorem Phi_pos (c : Dev nD) (n : ℕ) (hn : n ≠ 0) :
    Phi V c n = iprop(iprop(owns (c : Thread nD τ) (Memref.whole cc1_scratch0) fullShare (sup1 V c) ∗ owns (c : Thread nD τ) (Memref.whole cc1_scratch1) fullShare (sup2 V c))
      ∗ Pipeline.scopedRestBut (Ix := Unit) (Name := ℕ) (U := UR sig nD τ) (Lvl := ℕ) (Val := Elt F) spec1 c [cc1_scratch0, cc1_scratch1] ∗ (∃ r, prngReg c r)) := by
  cases n with
  | zero => exact absurd rfl hn
  | succ n => rfl

/-- Before the first point: the two buffers at some contents each, split off the scoped buffers. -/
theorem PhiA_eq (c : Dev nD) :
    (Pipeline.ΦA spec1 c : sProp 𝕄)
      = iprop(iprop(iprop((∃ d, owns (c : Thread nD τ) (Memref.whole cc1_scratch0) fullShare d) ∗ (∃ d, owns (c : Thread nD τ) (Memref.whole cc1_scratch1) fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest_split]; simp only [owns_whole]; try rfl

/-- The proof data of the second kernel on core c. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => iblk V c 15 t
    | ⟨16, _⟩ => k1_pay1 (k1_pay4 (iblk V c 1 t) (sup2 V c) (iblk V c 9 t)) (k1_pay5 (iblk V c 0 t) (sup1 V c) (iblk V c 7 t) (iblk V c 10 t)) (iblk V c 4 t) (iblk V c 11 t) (iblk V c 12 t) (iblk V c 13 t) (iblk V c 5 t) (iblk V c 14 t) (iblk V c 15 t)
    | ⟨_ + 17, h⟩ => absurd h (Nat.not_lt.2 (Nat.le_add_left _ _))
  Φ t := Phi V c t.val
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = iblk V c 8 t := by dsimp only [dat]
theorem after_9 (c : Dev nD) (t : Fin cfg1.N) : (dat V c).after 9 t = iblk V c 9 t := by dsimp only [dat]
theorem after_10 (c : Dev nD) (t : Fin cfg1.N) : (dat V c).after 10 t = iblk V c 10 t := by dsimp only [dat]
theorem after_11 (c : Dev nD) (t : Fin cfg1.N) : (dat V c).after 11 t = iblk V c 11 t := by dsimp only [dat]
theorem after_12 (c : Dev nD) (t : Fin cfg1.N) : (dat V c).after 12 t = iblk V c 12 t := by dsimp only [dat]
theorem after_13 (c : Dev nD) (t : Fin cfg1.N) : (dat V c).after 13 t = iblk V c 13 t := by dsimp only [dat]
theorem after_14 (c : Dev nD) (t : Fin cfg1.N) : (dat V c).after 14 t = iblk V c 14 t := by dsimp only [dat]
theorem after_15 (c : Dev nD) (t : Fin cfg1.N) : (dat V c).after 15 t = iblk V c 15 t := by dsimp only [dat]
theorem after_16 (c : Dev nD) (t : Fin cfg1.N) : (dat V c).after 16 t = k1_pay1 (k1_pay4 (iblk V c 1 t) (sup2 V c) (iblk V c 9 t)) (k1_pay5 (iblk V c 0 t) (sup1 V c) (iblk V c 7 t) (iblk V c 10 t)) (iblk V c 4 t) (iblk V c 11 t) (iblk V c 12 t) (iblk V c 13 t) (iblk V c 5 t) (iblk V c 14 t) (iblk V c 15 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d
theorem before_6 (c : Dev nD) (t : Fin cfg1.N) (d) : (dat V c).before 6 t d = iblk V c 6 t :=
  before_6_of V (dat V c) (A_eq V c 6) (after_6 V c) t d
theorem before_7 (c : Dev nD) (t : Fin cfg1.N) (d) : (dat V c).before 7 t d = iblk V c 7 t :=
  before_7_of V (dat V c) (A_eq V c 7) (after_7 V c) t d
theorem before_8 (c : Dev nD) (t : Fin cfg1.N) (d) : (dat V c).before 8 t d = iblk V c 8 t :=
  before_8_of V (dat V c) (A_eq V c 8) (after_8 V c) t d
theorem before_9 (c : Dev nD) (t : Fin cfg1.N) (d) : (dat V c).before 9 t d = iblk V c 9 t :=
  before_9_of V (dat V c) (A_eq V c 9) (after_9 V c) t d
theorem before_10 (c : Dev nD) (t : Fin cfg1.N) (d) : (dat V c).before 10 t d = iblk V c 10 t :=
  before_10_of V (dat V c) (A_eq V c 10) (after_10 V c) t d
theorem before_11 (c : Dev nD) (t : Fin cfg1.N) (d) : (dat V c).before 11 t d = iblk V c 11 t :=
  before_11_of V (dat V c) (A_eq V c 11) (after_11 V c) t d
theorem before_12 (c : Dev nD) (t : Fin cfg1.N) (d) : (dat V c).before 12 t d = iblk V c 12 t :=
  before_12_of V (dat V c) (A_eq V c 12) (after_12 V c) t d
theorem before_13 (c : Dev nD) (t : Fin cfg1.N) (d) : (dat V c).before 13 t d = iblk V c 13 t :=
  before_13_of V (dat V c) (A_eq V c 13) (after_13 V c) t d
theorem before_14 (c : Dev nD) (t : Fin cfg1.N) (d) : (dat V c).before 14 t d = iblk V c 14 t :=
  before_14_of V (dat V c) (A_eq V c 14) (after_14 V c) t d
theorem before_15 (c : Dev nD) (t : Fin cfg1.N) (d) : (dat V c).before 15 t d = iblk V c 15 t :=
  before_15_of V (dat V c) (A_eq V c 15) (after_15 V c) t d

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d))
    ∗ (∃ d, owns (c : Thread nD τ) (st1_13 t) fullShare ((dat V c).before 13 t d))
    ∗ (∃ d, owns (c : Thread nD τ) (st1_14 t) fullShare ((dat V c).before 14 t d))
    ∗ (∃ d, owns (c : Thread nD τ) (st1_15 t) fullShare ((dat V c).before 15 t d))
    ∗ (∃ d, owns (c : Thread nD τ) (st1_16 t) fullShare ((dat V c).before 16 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t)
    ∗ owns (c : Thread nD τ) (st1_11 t) fullShare ((dat V c).after 11 t)
    ∗ owns (c : Thread nD τ) (st1_12 t) fullShare ((dat V c).after 12 t)
    ∗ owns (c : Thread nD τ) (st1_13 t) fullShare ((dat V c).after 13 t)
    ∗ owns (c : Thread nD τ) (st1_14 t) fullShare ((dat V c).after 14 t)
    ∗ owns (c : Thread nD τ) (st1_15 t) fullShare ((dat V c).after 15 t)
    ∗ owns (c : Thread nD τ) (st1_16 t) fullShare ((dat V c).after 16 t))

set_option maxHeartbeats 8000000 in
/-- The body at any point: at the first it finds its two buffers at anything and fills them; at a later one it finds them
    at the two products and leaves them. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7, before_8, before_9, before_10, before_11, before_12, before_13, before_14, before_15]
  rw [show (dat V c).Φ t.succ = Phi V c (t.val + 1) from rfl,
    show (dat V c).Φ t.castSucc = Phi V c t.val from rfl,
    show (dat V c).owesAt () t.succ = (dat V c).owesAt () t.castSucc from rfl,
    after_0, after_1, after_2, after_3, after_4, after_5, after_6, after_7, after_8, after_9, after_10, after_11, after_12, after_13, after_14, after_15, after_16]
  by_cases hz : t.val = 0
  · obtain rfl : t = t1_0 := Fin.ext hz
    rw [show Phi V c (t1_0 : Fin cfg1.N).val = Pipeline.ΦA spec1 c from rfl, PhiA_eq,
      Phi_pos V c ((t1_0 : Fin cfg1.N).val + 1) (Nat.succ_ne_zero _)]
    iintro ⟨⟨⟨⟨⟨%e0, HS0⟩, ⟨%e1, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (run_first c Set.univ _ ((first_iff t1_0).2 rfl) _ _ _ _ _ _ _ _ _ _ _ _ _ _ _ _ _ _ _ _ _ _ _ _ _ _ _ _ _ _ _ _ _ _ _ _ _ _
      (iblk V c 0 t1_0) (iblk V c 1 t1_0) (iblk V c 2 t1_0) (iblk V c 3 t1_0) (iblk V c 4 t1_0) (iblk V c 5 t1_0) (iblk V c 6 t1_0) (iblk V c 7 t1_0) (iblk V c 8 t1_0) (iblk V c 9 t1_0) (iblk V c 10 t1_0) (iblk V c 11 t1_0) (iblk V c 12 t1_0) (iblk V c 13 t1_0) (iblk V c 14 t1_0) (iblk V c 15 t1_0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [HS0]; · iexists _; iexact HS0
    isplitl [HS1]; · iexists _; iexact HS1
    iintro ⟨H0, H1, H2, H3, H4, H5, H6, H7, H8, H9, H10, H11, H12, H13, H14, H15, H16, HS0, HS1⟩
    isplitl [HS0 HS1 Hrest Hg]
    · isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · rw [Phi_pos V c t.val hz, show Phi V c (t.val + 1) = Phi V c t.val from by rw [Phi_pos V c t.val hz]; rfl, Phi_pos V c t.val hz]
    iintro ⟨⟨⟨HS0, HS1⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (run_later c Set.univ _ (fun h => hz ((first_iff t).1 h)) _ _ _ _ _ _ _ _ _ _ _ _ _ _ _ _ _ _ _ _ _ _ _ _ _ _ _ _ _ _ _ _ _ _ _ _ _ _
      (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (sup1 V c) (sup2 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [HS0]; · iexact HS0
    isplitl [HS1]; · iexact HS1
    iintro ⟨H0, H1, H2, H3, H4, H5, H6, H7, H8, H9, H10, H11, H12, H13, H14, H15, H16, HS0, HS1⟩
    isplitl [HS0 HS1 Hrest Hg]
    · isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

/-- The library's body obligation, at every point. -/
theorem body_obligation (c : Dev nD) : BodyObligation (dat (F := F) V c) (defs₀ (F := F)) Variants.none () Set.univ := fun t => by
  rw [bigSep_W1, bigSep_W1]
  exact sound_body V c t

/-- After the last point the invariant gives back the scoped buffers at some contents each: the stored products' names are
    forgotten. -/
theorem Phi_last (c : Dev nD) : (dat V c).Φ (Fin.last cfg1.N) ⊢ Pipeline.ΦA spec1 c := by
  rw [show (dat V c).Φ (Fin.last cfg1.N) = Phi V c (Fin.last cfg1.N).val from rfl,
    Phi_pos V c _ (by rw [Fin.val_last]; have : cfg1.N = 16 := N_1; omega), PhiA_eq]
  iintro ⟨⟨HS0, HS1⟩, Hrest, Hg⟩
  isplitl [HS0 HS1 Hrest]
  · isplitl [HS0 HS1]
    · isplitl [HS0]; · iexists _; iexact HS0
      iexists _; iexact HS1
    iexact Hrest
  iexact Hg

end Data

end Cert.Kernel.Stage2

end
-- ==== Proof.KSegments.lean ====
import proofs.«116847_g8323646620422_cont_9to1_m_1182_26_alg».proof.Proof.Gen.Kernel.Launch
import proofs.«116847_g8323646620422_cont_9to1_m_1182_26_alg».proof.Proof.Gen.Kernel.Skeleton
import proofs.«116847_g8323646620422_cont_9to1_m_1182_26_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«116847_g8323646620422_cont_9to1_m_1182_26_alg».proof.Proof.Gen.Kernel.Regions
import proofs.«116847_g8323646620422_cont_9to1_m_1182_26_alg».proof.Proof.KStage1Data
import proofs.«116847_g8323646620422_cont_9to1_m_1182_26_alg».proof.Proof.KStage2Data
import Idealize.ShloMosaic.Lib.Pipeline.Value

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole program: host lines, first kernel, second kernel

The program runs eighteen host lines (reshapes of the biases, the four transposed halves of the head weights), then the
first kernel, then the second. Between two of these every unscoped buffer of a core holds known contents: the launch
memory, then that memory after the host lines, then the same with the first kernel's arrays at what its write-backs leave,
then the same with the second kernel's. No step writes an argument array, so the arguments end as launched, and the result
buffer ends at what the second kernel's write-backs leave. -/

variable (m : (ℓ : Loc nD τ sig) → Buf (Elt F) ℓ) (ρ : Dev nD → PrngReg)

/-- Core c's buffers at launch, -/
abbrev W0 : Dev nD → Valuation τ sig (Elt F) := fun c => V0 m c
/-- after the host lines, -/
abbrev W1 : Dev nD → Valuation τ sig (Elt F) := fun c => V1 m c
abbrev C1 : (c : Dev nD) → (b : Ref sig .tc) → Buf (Elt F) ((c : Thread nD τ).loc b) := fun c b => W1 m c b
/-- after the first kernel: its arrays at what the pipeline leaves, every other buffer as it was, -/
def W2 (c : Dev nD) : Valuation τ sig (Elt F) :=
  Pipeline.withArrays spec0 c (W1 m c) fun w => (Stage1.dat (C1 m) c).arrAt w cfg0.N
theorem W2_arr (c : Dev nD) (w : Fin cfg0.W) :
    W2 m c (Proc.devRef .tc (Pipeline.arrRef spec0 w)) = (Stage1.dat (C1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev C2 : (c : Dev nD) → (b : Ref sig .tc) → Buf (Elt F) ((c : Thread nD τ).loc b) := fun c b => W2 m c b
theorem hF0 (c : Dev nD) (w : Fin cfg0.W) : (Stage1.dat (C1 m) c).arrAt w cfg0.N = C2 m c (Pipeline.arrRef spec0 w) :=
  (W2_arr m c w).symm
theorem hrest0 (c : Dev nD) : ∀ b, b ∉ Finset.univ.image (Pipeline.arrRef spec0) → C2 m c b = C1 m c b :=
  fun b hb => W2_of_ne m c b fun w e => hb (Finset.mem_image.mpr ⟨w, Finset.mem_univ _, e⟩)
/-- and after the second kernel. -/
def W3 (c : Dev nD) : Valuation τ sig (Elt F) :=
  Pipeline.withArrays spec1 c (W2 m c) fun w => (Stage2.dat (C2 m) c).arrAt w cfg1.N
theorem W3_arr (c : Dev nD) (w : Fin cfg1.W) :
    W3 m c (Proc.devRef .tc (Pipeline.arrRef spec1 w)) = (Stage2.dat (C2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev C3 : (c : Dev nD) → (b : Ref sig .tc) → Buf (Elt F) ((c : Thread nD τ).loc b) := fun c b => W3 m c b
theorem hF1 (c : Dev nD) (w : Fin cfg1.W) : (Stage2.dat (C2 m) c).arrAt w cfg1.N = C3 m c (Pipeline.arrRef spec1 w) :=
  (W3_arr m c w).symm
theorem hrest1 (c : Dev nD) : ∀ b, b ∉ Finset.univ.image (Pipeline.arrRef spec1) → C3 m c b = C2 m c b :=
  fun b hb => W3_of_ne m c b fun w e => hb (Finset.mem_image.mpr ⟨w, Finset.mem_univ _, e⟩)

/-! ## No step writes an argument array -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 4).trans (((Stage2.dat (C2 m) c).arrAt_in 4 rfl _).trans (Stage2.A_eq (C2 m) c 4))
    _ = W1 m c (Proc.devRef .tc main_arg0) := (W2_arr m c 2).trans (((Stage1.dat (C1 m) c).arrAt_in 2 rfl _).trans (Stage1.A_eq (C1 m) c 2))
    _ = W0 m c (Proc.devRef .tc main_arg0) := V1_of m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 5).trans (((Stage2.dat (C2 m) c).arrAt_in 5 rfl _).trans (Stage2.A_eq (C2 m) c 5))
    _ = W1 m c (Proc.devRef .tc main_arg1) := (W2_arr m c 3).trans (((Stage1.dat (C1 m) c).arrAt_in 3 rfl _).trans (Stage1.A_eq (C1 m) c 3))
    _ = W0 m c (Proc.devRef .tc main_arg1) := V1_of m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := (W3_arr m c 0).trans (((Stage2.dat (C2 m) c).arrAt_in 0 rfl _).trans (Stage2.A_eq (C2 m) c 0))
    _ = W1 m c (Proc.devRef .tc main_arg2) := W2_of_ne m c main_arg2 (by decide)
    _ = W0 m c (Proc.devRef .tc main_arg2) := V1_of m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := (W2_arr m c 0).trans (((Stage1.dat (C1 m) c).arrAt_in 0 rfl _).trans (Stage1.A_eq (C1 m) c 0))
    _ = W0 m c (Proc.devRef .tc main_arg3) := V1_of m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := (W3_arr m c 1).trans (((Stage2.dat (C2 m) c).arrAt_in 1 rfl _).trans (Stage2.A_eq (C2 m) c 1))
    _ = W1 m c (Proc.devRef .tc main_arg4) := W2_of_ne m c main_arg4 (by decide)
    _ = W0 m c (Proc.devRef .tc main_arg4) := V1_of m c main_arg4 (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := (W2_arr m c 1).trans (((Stage1.dat (C1 m) c).arrAt_in 1 rfl _).trans (Stage1.A_eq (C1 m) c 1))
    _ = W0 m c (Proc.devRef .tc main_arg5) := V1_of m c main_arg5 (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := (W2_arr m c 4).trans (((Stage1.dat (C1 m) c).arrAt_in 4 rfl _).trans (Stage1.A_eq (C1 m) c 4))
    _ = W0 m c (Proc.devRef .tc main_arg6) := V1_of m c main_arg6 (by decide)
    _ = m ((c : Thread nD τ).loc main_arg6) := rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of_ne m c main_arg7 (by decide)
    _ = W1 m c (Proc.devRef .tc main_arg7) := W2_of_ne m c main_arg7 (by decide)
    _ = W0 m c (Proc.devRef .tc main_arg7) := V1_of m c main_arg7 (by decide)
    _ = m ((c : Thread nD τ).loc main_arg7) := rfl
theorem W3_main_arg8 (c : Dev nD) : W3 m c (Proc.devRef .tc main_arg8) = m ((c : Thread nD τ).loc main_arg8) :=
  calc W3 m c (Proc.devRef .tc main_arg8)
    _ = W2 m c (Proc.devRef .tc main_arg8) := W3_of_ne m c main_arg8 (by decide)
    _ = W1 m c (Proc.devRef .tc main_arg8) := (W2_arr m c 6).trans (((Stage1.dat (C1 m) c).arrAt_in 6 rfl _).trans (Stage1.A_eq (C1 m) c 6))
    _ = W0 m c (Proc.devRef .tc main_arg8) := V1_of m c main_arg8 (by decide)
    _ = m ((c : Thread nD τ).loc main_arg8) := rfl
theorem W3_main_arg9 (c : Dev nD) : W3 m c (Proc.devRef .tc main_arg9) = m ((c : Thread nD τ).loc main_arg9) :=
  calc W3 m c (Proc.devRef .tc main_arg9)
    _ = W2 m c (Proc.devRef .tc main_arg9) := W3_of_ne m c main_arg9 (by decide)
    _ = W1 m c (Proc.devRef .tc main_arg9) := W2_of_ne m c main_arg9 (by decide)
    _ = W0 m c (Proc.devRef .tc main_arg9) := V1_of m c main_arg9 (by decide)
    _ = m ((c : Thread nD τ).loc main_arg9) := rfl
theorem W3_main_arg10 (c : Dev nD) : W3 m c (Proc.devRef .tc main_arg10) = m ((c : Thread nD τ).loc main_arg10) :=
  calc W3 m c (Proc.devRef .tc main_arg10)
    _ = W2 m c (Proc.devRef .tc main_arg10) := (W3_arr m c 6).trans (((Stage2.dat (C2 m) c).arrAt_in 6 rfl _).trans (Stage2.A_eq (C2 m) c 6))
    _ = W1 m c (Proc.devRef .tc main_arg10) := W2_of_ne m c main_arg10 (by decide)
    _ = W0 m c (Proc.devRef .tc main_arg10) := V1_of m c main_arg10 (by decide)
    _ = m ((c : Thread nD τ).loc main_arg10) := rfl
theorem W3_main_arg11 (c : Dev nD) : W3 m c (Proc.devRef .tc main_arg11) = m ((c : Thread nD τ).loc main_arg11) :=
  calc W3 m c (Proc.devRef .tc main_arg11)
    _ = W2 m c (Proc.devRef .tc main_arg11) := W3_of_ne m c main_arg11 (by decide)
    _ = W1 m c (Proc.devRef .tc main_arg11) := W2_of_ne m c main_arg11 (by decide)
    _ = W0 m c (Proc.devRef .tc main_arg11) := V1_of m c main_arg11 (by decide)
    _ = m ((c : Thread nD τ).loc main_arg11) := rfl
theorem W3_main_arg12 (c : Dev nD) : W3 m c (Proc.devRef .tc main_arg12) = m ((c : Thread nD τ).loc main_arg12) :=
  calc W3 m c (Proc.devRef .tc main_arg12)
    _ = W2 m c (Proc.devRef .tc main_arg12) := (W3_arr m c 8).trans (((Stage2.dat (C2 m) c).arrAt_in 8 rfl _).trans (Stage2.A_eq (C2 m) c 8))
    _ = W1 m c (Proc.devRef .tc main_arg12) := W2_of_ne m c main_arg12 (by decide)
    _ = W0 m c (Proc.devRef .tc main_arg12) := V1_of m c main_arg12 (by decide)
    _ = m ((c : Thread nD τ).loc main_arg12) := rfl
theorem W3_main_arg13 (c : Dev nD) : W3 m c (Proc.devRef .tc main_arg13) = m ((c : Thread nD τ).loc main_arg13) :=
  calc W3 m c (Proc.devRef .tc main_arg13)
    _ = W2 m c (Proc.devRef .tc main_arg13) := W3_of_ne m c main_arg13 (by decide)
    _ = W1 m c (Proc.devRef .tc main_arg13) := W2_of_ne m c main_arg13 (by decide)
    _ = W0 m c (Proc.devRef .tc main_arg13) := V1_of m c main_arg13 (by decide)
    _ = m ((c : Thread nD τ).loc main_arg13) := rfl
theorem W3_main_arg14 (c : Dev nD) : W3 m c (Proc.devRef .tc main_arg14) = m ((c : Thread nD τ).loc main_arg14) :=
  calc W3 m c (Proc.devRef .tc main_arg14)
    _ = W2 m c (Proc.devRef .tc main_arg14) := W3_of_ne m c main_arg14 (by decide)
    _ = W1 m c (Proc.devRef .tc main_arg14) := W2_of_ne m c main_arg14 (by decide)
    _ = W0 m c (Proc.devRef .tc main_arg14) := V1_of m c main_arg14 (by decide)
    _ = m ((c : Thread nD τ).loc main_arg14) := rfl
theorem W3_main_arg15 (c : Dev nD) : W3 m c (Proc.devRef .tc main_arg15) = m ((c : Thread nD τ).loc main_arg15) :=
  calc W3 m c (Proc.devRef .tc main_arg15)
    _ = W2 m c (Proc.devRef .tc main_arg15) := W3_of_ne m c main_arg15 (by decide)
    _ = W1 m c (Proc.devRef .tc main_arg15) := W2_of_ne m c main_arg15 (by decide)
    _ = W0 m c (Proc.devRef .tc main_arg15) := V1_of m c main_arg15 (by decide)
    _ = m ((c : Thread nD τ).loc main_arg15) := rfl
theorem W3_main_arg16 (c : Dev nD) : W3 m c (Proc.devRef .tc main_arg16) = m ((c : Thread nD τ).loc main_arg16) :=
  calc W3 m c (Proc.devRef .tc main_arg16)
    _ = W2 m c (Proc.devRef .tc main_arg16) := W3_of_ne m c main_arg16 (by decide)
    _ = W1 m c (Proc.devRef .tc main_arg16) := W2_of_ne m c main_arg16 (by decide)
    _ = W0 m c (Proc.devRef .tc main_arg16) := V1_of m c main_arg16 (by decide)
    _ = m ((c : Thread nD τ).loc main_arg16) := rfl
theorem W3_main_arg17 (c : Dev nD) : W3 m c (Proc.devRef .tc main_arg17) = m ((c : Thread nD τ).loc main_arg17) :=
  calc W3 m c (Proc.devRef .tc main_arg17)
    _ = W2 m c (Proc.devRef .tc main_arg17) := W3_of_ne m c main_arg17 (by decide)
    _ = W1 m c (Proc.devRef .tc main_arg17) := W2_of_ne m c main_arg17 (by decide)
    _ = W0 m c (Proc.devRef .tc main_arg17) := V1_of m c main_arg17 (by decide)
    _ = m ((c : Thread nD τ).loc main_arg17) := rfl

/-- The result buffer ends at what the second kernel's write-backs leave. -/
theorem W3_main_v19 (c : Dev nD) : W3 m c (Proc.devRef .tc main_v19) = (Stage2.dat (C2 m) c).arrAt 16 cfg1.N :=
  W3_arr m c 16

/-! ## The proof data family and the thread state -/

abbrev adm : (p : Fin 2) → (pcfgs (F := F) p).Adm := fun p => (cfgs p).toPCfg_adm
/-- Both kernels' proof data, each at the contents its kernel is entered from. -/
def pdats : (p : Fin 2) → (c : Dev nD) → Dat τ (Elt F) Unit ℕ (UR sig nD τ) ℕ (Pipeline.pin (pcfgs (F := F)) adm p) c
  | ⟨0, _⟩ => fun c => Stage1.dat (C1 m) c
  | ⟨1, _⟩ => fun c => Stage2.dat (C2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The kernels as segments -/

set_option backward.isDefEq.respectTransparency.types false in
/-- Kernel 0 as a segment: entered from every unscoped buffer at the contents before it, left at the contents after it.
    Its arrays are split out of the unscoped buffers and put back at what the pipeline leaves; the generator register and
    the kernel's two buffers go into its invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Stage1.body_obligation (C1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (C1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (C1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Stage1.Phi_last (C1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (C1 m c) (C2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1 as a segment: entered from every unscoped buffer at the contents before it, left at the contents after it.
    Its arrays are split out of the unscoped buffers and put back at what the pipeline leaves; the generator register and
    the kernel's two buffers go into its invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Stage2.body_obligation (C2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (C2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (C2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Stage2.Phi_last (C2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (C2 m c) (C3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: every weakly fair execution of the program from memory m with zero counters terminates, nothing faulting,
    and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c),
    (h c _ (mem_uc main_arg7 (by decide))).trans (W3_main_arg7 m c),
    (h c _ (mem_uc main_arg8 (by decide))).trans (W3_main_arg8 m c),
    (h c _ (mem_uc main_arg9 (by decide))).trans (W3_main_arg9 m c),
    (h c _ (mem_uc main_arg10 (by decide))).trans (W3_main_arg10 m c),
    (h c _ (mem_uc main_arg11 (by decide))).trans (W3_main_arg11 m c),
    (h c _ (mem_uc main_arg12 (by decide))).trans (W3_main_arg12 m c),
    (h c _ (mem_uc main_arg13 (by decide))).trans (W3_main_arg13 m c),
    (h c _ (mem_uc main_arg14 (by decide))).trans (W3_main_arg14 m c),
    (h c _ (mem_uc main_arg15 (by decide))).trans (W3_main_arg15 m c),
    (h c _ (mem_uc main_arg16 (by decide))).trans (W3_main_arg16 m c),
    (h c _ (mem_uc main_arg17 (by decide))).trans (W3_main_arg17 m c)⟩) (run_all m ρ)

/-- The run with its result named: the result buffer ends at what the second kernel's write-backs leave, and every
    argument array as launched. -/
theorem run_value : θ_run defs (onTc (τ := τ) (main (F := F))) ⟨m, fun _ => 0, ρ⟩ (fun r => ∀ c : Dev nD,
      r.2.mem ((c.tc : Thread nD τ).loc main_v19) = (Stage2.dat (C2 m) c).arrAt 16 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c _ (mem_uc main_v19 (by decide))).trans (W3_main_v19 m c),
    (h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c),
    (h c _ (mem_uc main_arg7 (by decide))).trans (W3_main_arg7 m c),
    (h c _ (mem_uc main_arg8 (by decide))).trans (W3_main_arg8 m c),
    (h c _ (mem_uc main_arg9 (by decide))).trans (W3_main_arg9 m c),
    (h c _ (mem_uc main_arg10 (by decide))).trans (W3_main_arg10 m c),
    (h c _ (mem_uc main_arg11 (by decide))).trans (W3_main_arg11 m c),
    (h c _ (mem_uc main_arg12 (by decide))).trans (W3_main_arg12 m c),
    (h c _ (mem_uc main_arg13 (by decide))).trans (W3_main_arg13 m c),
    (h c _ (mem_uc main_arg14 (by decide))).trans (W3_main_arg14 m c),
    (h c _ (mem_uc main_arg15 (by decide))).trans (W3_main_arg15 m c),
    (h c _ (mem_uc main_arg16 (by decide))).trans (W3_main_arg16 m c),
    (h c _ (mem_uc main_arg17 (by decide))).trans (W3_main_arg17 m c)⟩) (run_all m ρ)

end Cert.Kernel.Run

end
-- ==== Proof.Stage1Body.lean ====
import proofs.«116847_g8323646620422_cont_9to1_m_1182_26_alg».proof.Proof.Gen.KernelIdeal.Launch
import proofs.«116847_g8323646620422_cont_9to1_m_1182_26_alg».proof.Proof.Gen.KernelIdeal.Skeleton
import proofs.«116847_g8323646620422_cont_9to1_m_1182_26_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Stage1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's body, run once

The body of the first kernel reads one block of 256 rows of each of the two adjacency matrices, both feature matrices
and both weights whole, and the two bias rows; it keeps the two products features · weight in two buffers of its own.
At the first grid point it computes those two products and stores them; at every point it multiplies each adjacency
block by the stored product, adds the bias row, applies the leaky rectifier and stores the result block. So a run of
the body from stored products s1, s2 leaves them in place, and a run at the first point leaves the freshly computed
ones; either way each result block is the rectified (block · product + bias) of the products it ends with. -/

/-- The offset of every access of this body: the zero function. -/
theorem hz2 : (![0, 0] : Fin 2 → Nat) = fun _ => 0 := funext fun a => by fin_cases a <;> rfl

/-- The body's one branch condition: the grid coordinate is zero. -/
abbrev first (i : grid0.Coords) : Prop :=
  (Scalar.cmpi .ne (Scalar.extui (Scalar.cmpi .eq (BitVec.ofNat 32 (i 0).val) 0#32)) 0#32) = 1#1

/-- It holds at the first of the sixteen points and at no other. -/
theorem first_iff : ∀ t : Fin cfg0.N, first (grid0.coords t) ↔ t.val = 0 :=
  (by decide +kernel : ∀ t : Fin grid0.N, first (grid0.coords t) ↔ t.val = 0)

set_option maxHeartbeats 4000000 in
/-- At a point that is not the first: from the stored products s1, s2 the body leaves every input and both products as
    they were and each result block at the rectified (block · product + bias). -/
theorem run_later (c : Dev nD) (E : Set ℕ) (i : grid0.Coords) (hi : ¬ first i)
    (arg1 : Memref sig .tc .vmem S256x4096 .f32) (harg1 : arg1.IsWhole) (arg2 : Memref sig .tc .vmem S256x4096 .f32) (harg2 : arg2.IsWhole)
    (arg3 : Memref sig .tc .vmem S4096x256 .f32) (harg3 : arg3.IsWhole) (arg4 : Memref sig .tc .vmem S4096x256 .f32) (harg4 : arg4.IsWhole)
    (arg5 : Memref sig .tc .vmem S256x256 .f32) (harg5 : arg5.IsWhole) (arg6 : Memref sig .tc .vmem S1x256 .f32) (harg6 : arg6.IsWhole)
    (arg7 : Memref sig .tc .vmem S256x256 .f32) (harg7 : arg7.IsWhole) (arg8 : Memref sig .tc .vmem S1x256 .f32) (harg8 : arg8.IsWhole)
    (arg9 : Memref sig .tc .vmem S256x256 .bf16) (harg9 : arg9.IsWhole) (arg10 : Memref sig .tc .vmem S256x256 .bf16) (harg10 : arg10.IsWhole)
    (arg11 : Memref sig .tc .vmem S4096x256 .bf16) (harg11 : arg11.IsWhole) (arg12 : Memref sig .tc .vmem S4096x256 .bf16) (harg12 : arg12.IsWhole)
    (x1 : Vec F S256x4096 .f32) (x2 : Vec F S256x4096 .f32) (x3 : Vec F S4096x256 .f32) (x4 : Vec F S4096x256 .f32)
    (x5 : Vec F S256x256 .f32) (x6 : Vec F S1x256 .f32) (x7 : Vec F S256x256 .f32) (x8 : Vec F S1x256 .f32)
    (s1 : Vec F S4096x256 .bf16) (s2 : Vec F S4096x256 .bf16) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
        ∗ (∃ d, owns (c : Thread nD τ) arg9 fullShare d) ∗ (∃ d, owns (c : Thread nD τ) arg10 fullShare d)
        ∗ owns (c : Thread nD τ) arg11 fullShare s1 ∗ owns (c : Thread nD τ) arg12 fullShare s2
        ∗ (iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
            ∗ owns (c : Thread nD τ) arg9 fullShare (k0_pay3 x1 s1 x6) ∗ owns (c : Thread nD τ) arg10 fullShare (k0_pay4 x2 s2 x8)
            ∗ owns (c : Thread nD τ) arg11 fullShare s1 ∗ owns (c : Thread nD τ) arg12 fullShare s2) -∗ K ⟨⟩))
      ⊢ wp frame (wpE (defs₀ (F := F)) Variants.none c none) E
          (cc0__stage1_body i arg1 harg1 arg2 harg2 arg3 harg3 arg4 harg4 arg5 harg5 arg6 harg6 arg7 harg7 arg8 harg8 arg9 harg9 arg10 harg10 arg11 harg11 arg12 harg12) K := by
  simp only [cc0__stage1_body_eq_skeleton]; unfold cc0__stage1_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg11.eq_unread hf11; obtain rfl := harg12.eq_unread hf12
  sl_exec (disch := first | exact hi)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    rw [View.read_writes_eq_canon _ _ _ (View.cover_of_tiled _ S256x256.size (by rfl)), View.canon_unit_zero hz2]
    simp only [View.readAt_eq_ld, harg1.read_unread, harg11.read_unread, harg6.read_unread, View.ld_unit_zero (S := S256x4096) hz2, View.ld_unit_zero (S := S4096x256) hz2, View.ld_unit_zero (S := S1x256) hz2, View.ld_unit_zero (S := S256x256) hz2]
  isplitl [H10]
  · iexists _; isplitr
    swap; · iexact H10
    ipureintro
    rw [View.read_writes_eq_canon _ _ _ (View.cover_of_tiled _ S256x256.size (by rfl)), View.canon_unit_zero hz2]
    simp only [View.readAt_eq_ld, harg2.read_unread, harg12.read_unread, harg8.read_unread, View.ld_unit_zero (S := S256x4096) hz2, View.ld_unit_zero (S := S4096x256) hz2, View.ld_unit_zero (S := S1x256) hz2, View.ld_unit_zero (S := S256x256) hz2]
  isplitl [H11]
  · iexists _; isplitr; · ipureintro; exact harg11.read_unread _
    iexact H11
  iexists _; isplitr; · ipureintro; exact harg12.read_unread _
  iexact H12

set_option maxHeartbeats 4000000 in
/-- At the first point: whatever the two buffers held, the body stores the two products features · weight into them and
    leaves each result block at the rectified (block · product + bias) of those. -/
theorem run_first (c : Dev nD) (E : Set ℕ) (i : grid0.Coords) (hi : first i)
    (arg1 : Memref sig .tc .vmem S256x4096 .f32) (harg1 : arg1.IsWhole) (arg2 : Memref sig .tc .vmem S256x4096 .f32) (harg2 : arg2.IsWhole)
    (arg3 : Memref sig .tc .vmem S4096x256 .f32) (harg3 : arg3.IsWhole) (arg4 : Memref sig .tc .vmem S4096x256 .f32) (harg4 : arg4.IsWhole)
    (arg5 : Memref sig .tc .vmem S256x256 .f32) (harg5 : arg5.IsWhole) (arg6 : Memref sig .tc .vmem S1x256 .f32) (harg6 : arg6.IsWhole)
    (arg7 : Memref sig .tc .vmem S256x256 .f32) (harg7 : arg7.IsWhole) (arg8 : Memref sig .tc .vmem S1x256 .f32) (harg8 : arg8.IsWhole)
    (arg9 : Memref sig .tc .vmem S256x256 .bf16) (harg9 : arg9.IsWhole) (arg10 : Memref sig .tc .vmem S256x256 .bf16) (harg10 : arg10.IsWhole)
    (arg11 : Memref sig .tc .vmem S4096x256 .bf16) (harg11 : arg11.IsWhole) (arg12 : Memref sig .tc .vmem S4096x256 .bf16) (harg12 : arg12.IsWhole)
    (x1 : Vec F S256x4096 .f32) (x2 : Vec F S256x4096 .f32) (x3 : Vec F S4096x256 .f32) (x4 : Vec F S4096x256 .f32)
    (x5 : Vec F S256x256 .f32) (x6 : Vec F S1x256 .f32) (x7 : Vec F S256x256 .f32) (x8 : Vec F S1x256 .f32)
    (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
        ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
            ∗ owns (c : Thread nD τ) arg9 fullShare (k0_pay3 x1 (k0_pay1 x3 x5) x6) ∗ owns (c : Thread nD τ) arg10 fullShare (k0_pay4 x2 (k0_pay2 x4 x7) x8)
            ∗ owns (c : Thread nD τ) arg11 fullShare (k0_pay1 x3 x5) ∗ owns (c : Thread nD τ) arg12 fullShare (k0_pay2 x4 x7)) -∗ K ⟨⟩))
      ⊢ wp frame (wpE (defs₀ (F := F)) Variants.none c none) E
          (cc0__stage1_body i arg1 harg1 arg2 harg2 arg3 harg3 arg4 harg4 arg5 harg5 arg6 harg6 arg7 harg7 arg8 harg8 arg9 harg9 arg10 harg10 arg11 harg11 arg12 harg12) K := by
  simp only [cc0__stage1_body_eq_skeleton]; unfold cc0__stage1_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hi)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    rw [View.read_writes_eq_canon _ _ _ (View.cover_of_tiled _ S256x256.size (by rfl)), View.canon_unit_zero hz2]
    unfold run_first.sl.v5 run_first.sl.H11_1
    rw [View.readCov_unit_zero _ hz2]
    simp only [View.readAt_eq_ld, harg1.read_unread, harg3.read_unread, harg5.read_unread, harg6.read_unread, View.ld_unit_zero (S := S256x4096) hz2, View.ld_unit_zero (S := S4096x256) hz2, View.ld_unit_zero (S := S1x256) hz2, View.ld_unit_zero (S := S256x256) hz2]
  isplitl [H10]
  · iexists _; isplitr
    swap; · iexact H10
    ipureintro
    rw [View.read_writes_eq_canon _ _ _ (View.cover_of_tiled _ S256x256.size (by rfl)), View.canon_unit_zero hz2]
    unfold run_first.sl.v20 run_first.sl.H12_1
    rw [View.readCov_unit_zero _ hz2]
    simp only [View.readAt_eq_ld, harg2.read_unread, harg4.read_unread, harg7.read_unread, harg8.read_unread, View.ld_unit_zero (S := S256x4096) hz2, View.ld_unit_zero (S := S4096x256) hz2, View.ld_unit_zero (S := S1x256) hz2, View.ld_unit_zero (S := S256x256) hz2]
  isplitl [H11]
  · iexists _; isplitr
    swap; · iexact H11
    ipureintro
    unfold run_first.sl.H11_1
    rw [View.read_writes_eq_canon _ _ _ (View.cover_of_tiled _ S4096x256.size (by rfl)), View.canon_unit_zero hz2]
    simp only [View.readAt_eq_ld, harg3.read_unread, harg5.read_unread, View.ld_unit_zero (S := S256x4096) hz2, View.ld_unit_zero (S := S4096x256) hz2, View.ld_unit_zero (S := S1x256) hz2, View.ld_unit_zero (S := S256x256) hz2]
  iexists _; isplitr
  swap; · iexact H12
  ipureintro
  unfold run_first.sl.H12_1
  rw [View.read_writes_eq_canon _ _ _ (View.cover_of_tiled _ S4096x256.size (by rfl)), View.canon_unit_zero hz2]
  simp only [View.readAt_eq_ld, harg4.read_unread, harg7.read_unread, View.ld_unit_zero (S := S256x4096) hz2, View.ld_unit_zero (S := S4096x256) hz2, View.ld_unit_zero (S := S1x256) hz2, View.ld_unit_zero (S := S256x256) hz2]

end Cert.KernelIdeal.Stage1

end
-- ==== Proof.Stage1Data.lean ====
import proofs.«116847_g8323646620422_cont_9to1_m_1182_26_alg».proof.Proof.Gen.KernelIdeal.Launch
import proofs.«116847_g8323646620422_cont_9to1_m_1182_26_alg».proof.Proof.Gen.KernelIdeal.Skeleton
import proofs.«116847_g8323646620422_cont_9to1_m_1182_26_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«116847_g8323646620422_cont_9to1_m_1182_26_alg».proof.Proof.Stage1Body
import Idealize.ShloMosaic.Lib.Pipeline.Value

set_option maxRecDepth 16384

noncomputable section

namespace Cert.KernelIdeal.Stage1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel over its sixteen points

At point t the pipeline hands the body block t (256 rows) of each adjacency matrix and the whole feature matrices,
weights and bias rows. The two buffers the kernel keeps hold anything before the first point and, from then on, the two
products features · weight, which never change. So the result block written back at point t is the rectified
(adjacency block t · product + bias), with the product computed once from the whole arrays. -/

section Data

variable (V : (c : Dev nD) → (b : Ref sig .tc) → Buf (Elt F) ((c : Thread nD τ).loc b))

/-- Window w's block at point t, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- The two stored products: source features · W1 and target features · W2, from the arrays read whole at the first point. -/
def sup1 (c : Dev nD) : Vec F S4096x256 .bf16 := k0_pay1 (iblk V c 2 t0_0) (iblk V c 4 t0_0)
def sup2 (c : Dev nD) : Vec F S4096x256 .bf16 := k0_pay2 (iblk V c 3 t0_0) (iblk V c 6 t0_0)

/-- What the kernel's invariant is before position n: before the first point its two buffers hold anything; afterwards
    they hold the two products. The other scoped buffers and the generator register ride along untouched. -/
def Phi (c : Dev nD) : ℕ → sProp 𝕄
  | 0 => Pipeline.ΦA spec0 c
  | _ + 1 => iprop(iprop(owns (c : Thread nD τ) (Memref.whole cc0_scratch0) fullShare (sup1 V c) ∗ owns (c : Thread nD τ) (Memref.whole cc0_scratch1) fullShare (sup2 V c))
      ∗ Pipeline.scopedRestBut (Ix := Unit) (Name := ℕ) (U := UR sig nD τ) (Lvl := ℕ) (Val := Elt F) spec0 c [cc0_scratch0, cc0_scratch1] ∗ (∃ r, prngReg c r))

theorem Phi_pos (c : Dev nD) (n : ℕ) (hn : n ≠ 0) :
    Phi V c n = iprop(iprop(owns (c : Thread nD τ) (Memref.whole cc0_scratch0) fullShare (sup1 V c) ∗ owns (c : Thread nD τ) (Memref.whole cc0_scratch1) fullShare (sup2 V c))
      ∗ Pipeline.scopedRestBut (Ix := Unit) (Name := ℕ) (U := UR sig nD τ) (Lvl := ℕ) (Val := Elt F) spec0 c [cc0_scratch0, cc0_scratch1] ∗ (∃ r, prngReg c r)) := by
  cases n with
  | zero => exact absurd rfl hn
  | succ n => rfl

/-- Before the first point: the two buffers at some contents each, split off the scoped buffers. -/
theorem PhiA_eq (c : Dev nD) :
    (Pipeline.ΦA spec0 c : sProp 𝕄)
      = iprop(iprop(iprop((∃ d, owns (c : Thread nD τ) (Memref.whole cc0_scratch0) fullShare d) ∗ (∃ d, owns (c : Thread nD τ) (Memref.whole cc0_scratch1) fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [owns_whole]; try rfl

/-- The proof data of the first kernel on core c. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => k0_pay3 (iblk V c 0 t) (sup1 V c) (iblk V c 5 t)
    | ⟨9, _⟩ => k0_pay4 (iblk V c 1 t) (sup2 V c) (iblk V c 7 t)
  Φ t := Phi V c t.val
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = k0_pay3 (iblk V c 0 t) (sup1 V c) (iblk V c 5 t) := by dsimp only [dat]
theorem after_9 (c : Dev nD) (t : Fin cfg0.N) : (dat V c).after 9 t = k0_pay4 (iblk V c 1 t) (sup2 V c) (iblk V c 7 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d
theorem before_5 (c : Dev nD) (t : Fin cfg0.N) (d) : (dat V c).before 5 t d = iblk V c 5 t :=
  before_5_of V (dat V c) (A_eq V c 5) (after_5 V c) t d
theorem before_6 (c : Dev nD) (t : Fin cfg0.N) (d) : (dat V c).before 6 t d = iblk V c 6 t :=
  before_6_of V (dat V c) (A_eq V c 6) (after_6 V c) t d
theorem before_7 (c : Dev nD) (t : Fin cfg0.N) (d) : (dat V c).before 7 t d = iblk V c 7 t :=
  before_7_of V (dat V c) (A_eq V c 7) (after_7 V c) t d

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t))

set_option maxHeartbeats 4000000 in
/-- The body at any point: at the first it finds its two buffers at anything and fills them; at a later one it finds them
    at the two products and leaves them. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7]
  rw [show (dat V c).Φ t.succ = Phi V c (t.val + 1) from rfl,
    show (dat V c).Φ t.castSucc = Phi V c t.val from rfl,
    show (dat V c).owesAt () t.succ = (dat V c).owesAt () t.castSucc from rfl,
    after_0, after_1, after_2, after_3, after_4, after_5, after_6, after_7, after_8, after_9]
  by_cases hz : t.val = 0
  · obtain rfl : t = t0_0 := Fin.ext hz
    rw [show Phi V c (t0_0 : Fin cfg0.N).val = Pipeline.ΦA spec0 c from rfl, PhiA_eq,
      Phi_pos V c ((t0_0 : Fin cfg0.N).val + 1) (Nat.succ_ne_zero _)]
    iintro ⟨⟨⟨⟨⟨%e0, HS0⟩, ⟨%e1, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_first c Set.univ _ ((first_iff t0_0).2 rfl) _ _ _ _ _ _ _ _ _ _ _ _ _ _ _ _ _ _ _ _ _ _ _ _
      (iblk V c 0 t0_0) (iblk V c 1 t0_0) (iblk V c 2 t0_0) (iblk V c 3 t0_0) (iblk V c 4 t0_0) (iblk V c 5 t0_0) (iblk V c 6 t0_0) (iblk V c 7 t0_0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexists _; iexact HS0
    isplitl [HS1]; · iexists _; iexact HS1
    iintro ⟨H0, H1, H2, H3, H4, H5, H6, H7, H8, H9, HS0, HS1⟩
    isplitl [HS0 HS1 Hrest Hg]
    · isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [Phi_pos V c t.val hz, show Phi V c (t.val + 1) = Phi V c t.val from by rw [Phi_pos V c t.val hz]; rfl, Phi_pos V c t.val hz]
    iintro ⟨⟨⟨HS0, HS1⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_later c Set.univ _ (fun h => hz ((first_iff t).1 h)) _ _ _ _ _ _ _ _ _ _ _ _ _ _ _ _ _ _ _ _ _ _ _ _
      (iblk V c 0 t) (iblk V c 1 t) (iblk V c 2 t) (iblk V c 3 t) (iblk V c 4 t) (iblk V c 5 t) (iblk V c 6 t) (iblk V c 7 t) (sup1 V c) (sup2 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hrest Hg]
    · isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The library's body obligation, at every point. -/
theorem body_obligation (c : Dev nD) : BodyObligation (dat (F := F) V c) (defs₀ (F := F)) Variants.none () Set.univ := fun t => by
  rw [bigSep_W0, bigSep_W0]
  exact sound_body V c t

/-- After the last point the invariant gives back the scoped buffers at some contents each: the stored products' names are
    forgotten. -/
theorem Phi_last (c : Dev nD) : (dat V c).Φ (Fin.last cfg0.N) ⊢ Pipeline.ΦA spec0 c := by
  rw [show (dat V c).Φ (Fin.last cfg0.N) = Phi V c (Fin.last cfg0.N).val from rfl,
    Phi_pos V c _ (by rw [Fin.val_last]; have : cfg0.N = 16 := N_0; omega), PhiA_eq]
  iintro ⟨⟨HS0, HS1⟩, Hrest, Hg⟩
  isplitl [HS0 HS1 Hrest]
  · isplitl [HS0 HS1]
    · isplitl [HS0]; · iexists _; iexact HS0
      iexists _; iexact HS1
    iexact Hrest
  iexact Hg

end Data

end Cert.KernelIdeal.Stage1

end
-- ==== Proof.Stage2Body.lean ====
import proofs.«116847_g8323646620422_cont_9to1_m_1182_26_alg».proof.Proof.Gen.KernelIdeal.Launch
import proofs.«116847_g8323646620422_cont_9to1_m_1182_26_alg».proof.Proof.Gen.KernelIdeal.Skeleton
import proofs.«116847_g8323646620422_cont_9to1_m_1182_26_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Stage2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's body, run once

The body of the second kernel reads one block of 256 rows of each of the two other adjacency matrices, both first-layer
results whole, the matching blocks of the two feature matrices, both second-layer weights and bias rows, and the four
halves of the two head weights with the two head bias rows; it keeps the two products first-layer result · weight in two
buffers of its own. At the first grid point it computes and stores those two products; at every point it forms, per path,
the rectified (adjacency block · stored product + bias), the head of that and of the feature block, and stores half the
positive part of one head plus half the positive part of the other. -/

theorem hz2 : (![0, 0] : Fin 2 → Nat) = fun _ => 0 := funext fun a => by fin_cases a <;> rfl

/-- The body's one branch condition: the grid coordinate is zero. -/
abbrev first (i : grid1.Coords) : Prop :=
  (Scalar.cmpi .ne (Scalar.extui (Scalar.cmpi .eq (BitVec.ofNat 32 (i 0).val) 0#32)) 0#32) = 1#1

/-- It holds at the first of the sixteen points and at no other. -/
theorem first_iff : ∀ t : Fin cfg1.N, first (grid1.coords t) ↔ t.val = 0 :=
  (by decide +kernel : ∀ t : Fin grid1.N, first (grid1.coords t) ↔ t.val = 0)

set_option maxHeartbeats 8000000 in
/-- At a point that is not the first: from the stored products s1, s2 the body leaves every input and both products as
    they were and the result block at the combination of the two heads. -/
theorem run_later (c : Dev nD) (E : Set ℕ) (i : grid1.Coords) (hi : ¬ first i)
    (arg1 : Memref sig .tc .vmem S256x4096 .f32) (harg1 : arg1.IsWhole) (arg2 : Memref sig .tc .vmem S256x4096 .f32) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S256x256 .bf16) (harg14 : arg14.IsWhole) (arg15 : Memref sig .tc .vmem S256x256 .bf16) (harg15 : arg15.IsWhole) (arg16 : Memref sig .tc .vmem S1x256 .f32) (harg16 : arg16.IsWhole) (arg17 : Memref sig .tc .vmem S256x256 .f32) (harg17 : arg17.IsWhole) (arg18 : Memref sig .tc .vmem S4096x256 .bf16) (harg18 : arg18.IsWhole) (arg19 : Memref sig .tc .vmem S4096x256 .bf16) (harg19 : arg19.IsWhole)
    (x1 : Vec F S256x4096 .f32) (x2 : Vec F S256x4096 .f32) (x3 : Vec F S4096x256 .bf16) (x4 : Vec F S4096x256 .bf16) (x5 : Vec F S256x256 .f32) (x6 : Vec F S256x256 .f32) (x7 : Vec F S256x256 .f32) (x8 : Vec F S1x256 .f32) (x9 : Vec F S256x256 .f32) (x10 : Vec F S1x256 .f32) (x11 : Vec F S256x256 .bf16) (x12 : Vec F S256x256 .bf16) (x13 : Vec F S1x256 .f32) (x14 : Vec F S256x256 .bf16) (x15 : Vec F S256x256 .bf16) (x16 : Vec F S1x256 .f32)
    (s1 : Vec F S4096x256 .bf16) (s2 : Vec F S4096x256 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16
        ∗ (∃ d, owns (c : Thread nD τ) arg17 fullShare d)
        ∗ owns (c : Thread nD τ) arg18 fullShare s1 ∗ owns (c : Thread nD τ) arg19 fullShare s2
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16
            ∗ owns (c : Thread nD τ) arg17 fullShare (k1_pay1 (k1_pay4 x2 s2 x10) (k1_pay5 x1 s1 x8 x11) x5 x12 x13 x14 x6 x15 x16)
            ∗ owns (c : Thread nD τ) arg18 fullShare s1 ∗ owns (c : Thread nD τ) arg19 fullShare s2) -∗ K ⟨⟩))
      ⊢ wp frame (wpE (defs₀ (F := F)) Variants.none c none) E
          (cc1__stage2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1__stage2_body_eq_skeleton]; unfold cc1__stage2_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%f18, %hf18, H18⟩, ⟨%f19, %hf19, H19⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  obtain rfl := harg18.eq_unread hf18; obtain rfl := harg19.eq_unread hf19
  sl_exec (disch := first | exact hi)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr
    swap; · iexact H17
    ipureintro
    rw [View.read_writes_eq_canon _ _ _ (View.cover_of_tiled _ S256x256.size (by rfl)), View.canon_unit_zero hz2]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg18.read_unread, harg19.read_unread, View.ld_unit_zero (S := S256x4096) hz2, View.ld_unit_zero (S := S4096x256) hz2, View.ld_unit_zero (S := S1x256) hz2, View.ld_unit_zero (S := S256x256) hz2]
  isplitl [H18]
  · iexists _; isplitr; · ipureintro; exact harg18.read_unread _
    iexact H18
  iexists _; isplitr; · ipureintro; exact harg19.read_unread _
  iexact H19

set_option maxHeartbeats 8000000 in
/-- At the first point: whatever the two buffers held, the body stores the two products first-layer result · weight into
    them and leaves the result block at the combination of the two heads over those. -/
theorem run_first (c : Dev nD) (E : Set ℕ) (i : grid1.Coords) (hi : first i)
    (arg1 : Memref sig .tc .vmem S256x4096 .f32) (harg1 : arg1.IsWhole) (arg2 : Memref sig .tc .vmem S256x4096 .f32) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S1x256 .f32) (harg13 : arg13.IsWhole) (arg14 : Memref sig .tc .vmem S256x256 .bf16) (harg14 : arg14.IsWhole) (arg15 : Memref sig .tc .vmem S256x256 .bf16) (harg15 : arg15.IsWhole) (arg16 : Memref sig .tc .vmem S1x256 .f32) (harg16 : arg16.IsWhole) (arg17 : Memref sig .tc .vmem S256x256 .f32) (harg17 : arg17.IsWhole) (arg18 : Memref sig .tc .vmem S4096x256 .bf16) (harg18 : arg18.IsWhole) (arg19 : Memref sig .tc .vmem S4096x256 .bf16) (harg19 : arg19.IsWhole)
    (x1 : Vec F S256x4096 .f32) (x2 : Vec F S256x4096 .f32) (x3 : Vec F S4096x256 .bf16) (x4 : Vec F S4096x256 .bf16) (x5 : Vec F S256x256 .f32) (x6 : Vec F S256x256 .f32) (x7 : Vec F S256x256 .f32) (x8 : Vec F S1x256 .f32) (x9 : Vec F S256x256 .f32) (x10 : Vec F S1x256 .f32) (x11 : Vec F S256x256 .bf16) (x12 : Vec F S256x256 .bf16) (x13 : Vec F S1x256 .f32) (x14 : Vec F S256x256 .bf16) (x15 : Vec F S256x256 .bf16) (x16 : Vec F S1x256 .f32)
    (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16
        ∗ (∃ d, owns (c : Thread nD τ) arg17 fullShare d)
        ∗ (∃ d, owns (c : Thread nD τ) arg18 fullShare d) ∗ (∃ d, owns (c : Thread nD τ) arg19 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16
            ∗ owns (c : Thread nD τ) arg17 fullShare (k1_pay1 (k1_pay4 x2 (k1_pay3 x4 x9) x10) (k1_pay5 x1 (k1_pay2 x3 x7) x8 x11) x5 x12 x13 x14 x6 x15 x16)
            ∗ owns (c : Thread nD τ) arg18 fullShare (k1_pay2 x3 x7) ∗ owns (c : Thread nD τ) arg19 fullShare (k1_pay3 x4 x9)) -∗ K ⟨⟩))
      ⊢ wp frame (wpE (defs₀ (F := F)) Variants.none c none) E
          (cc1__stage2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1__stage2_body_eq_skeleton]; unfold cc1__stage2_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  sl_exec (disch := first | exact hi)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr
    swap; · iexact H17
    ipureintro
    rw [View.read_writes_eq_canon _ _ _ (View.cover_of_tiled _ S256x256.size (by rfl)), View.canon_unit_zero hz2]
    unfold run_first.sl.v5 run_first.sl.v18 run_first.sl.H18_1 run_first.sl.H19_1
    rw [View.readCov_unit_zero _ hz2, View.readCov_unit_zero _ hz2]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x4096) hz2, View.ld_unit_zero (S := S4096x256) hz2, View.ld_unit_zero (S := S1x256) hz2, View.ld_unit_zero (S := S256x256) hz2]
  isplitl [H18]
  · iexists _; isplitr
    swap; · iexact H18
    ipureintro
    unfold run_first.sl.H18_1
    rw [View.read_writes_eq_canon _ _ _ (View.cover_of_tiled _ S4096x256.size (by rfl)), View.canon_unit_zero hz2]
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x4096) hz2, View.ld_unit_zero (S := S4096x256) hz2, View.ld_unit_zero (S := S1x256) hz2, View.ld_unit_zero (S := S256x256) hz2]
  iexists _; isplitr
  swap; · iexact H19
  ipureintro
  unfold run_first.sl.H19_1
  rw [View.read_writes_eq_canon _ _ _ (View.cover_of_tiled _ S4096x256.size (by rfl)), View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S256x4096) hz2, View.ld_unit_zero (S := S4096x256) hz2, View.ld_unit_zero (S := S1x256) hz2, View.ld_unit_zero (S := S256x256) hz2]

end Cert.KernelIdeal.Stage2

end
-- ==== Proof.Stage2Data.lean ====
import proofs.«116847_g8323646620422_cont_9to1_m_1182_26_alg».proof.Proof.Gen.KernelIdeal.Launch
import proofs.«116847_g8323646620422_cont_9to1_m_1182_26_alg».proof.Proof.Gen.KernelIdeal.Skeleton
import proofs.«116847_g8323646620422_cont_9to1_m_1182_26_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«116847_g8323646620422_cont_9to1_m_1182_26_alg».proof.Proof.Stage2Body
import Idealize.ShloMosaic.Lib.Pipeline.Value

set_option maxRecDepth 16384

noncomputable section

namespace Cert.KernelIdeal.Stage2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel over its sixteen points

At point t the pipeline hands the body block t (256 rows) of each of the two adjacency matrices and of each feature
matrix, and the first-layer results, weights, bias rows and head-weight halves whole. The two buffers the kernel keeps
hold anything before the first point and, from then on, the two products first-layer result · weight. So the result block
written back at point t is the combination of the two heads over the rectified (adjacency block t · product + bias) and
the feature block t, with the products computed once from the whole arrays. -/

section Data

variable (V : (c : Dev nD) → (b : Ref sig .tc) → Buf (Elt F) ((c : Thread nD τ).loc b))

/-- Window w's block at point t, read off its array as the kernel finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg1 c) (hA : dat.A 8 = V c (Pipeline.arrRef spec1 8))
    (hafter : ∀ t, dat.after 8 t = iblk V c 8 t) (t : Fin cfg1.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg1 c) (hA : dat.A 9 = V c (Pipeline.arrRef spec1 9))
    (hafter : ∀ t, dat.after 9 t = iblk V c 9 t) (t : Fin cfg1.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg1 c) (hA : dat.A 10 = V c (Pipeline.arrRef spec1 10))
    (hafter : ∀ t, dat.after 10 t = iblk V c 10 t) (t : Fin cfg1.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) Unit ℕ (UR sig nD τ) ℕ cfg1 c) (hA : dat.A 11 = V c (Pipeline.arrRef spec1 11))
    (hafter : ∀ t, dat.after 11 t = iblk V c 11 t) (t : Fin cfg1.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_12_of {c : Dev nD} (dat : Dat τ (Elt F) Unit ℕ (UR sig nD τ) ℕ cfg1 c) (hA : dat.A 12 = V c (Pipeline.arrRef spec1 12))
    (hafter : ∀ t, dat.after 12 t = iblk V c 12 t) (t : Fin cfg1.N) (d) : dat.before 12 t d = iblk V c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before_13_of {c : Dev nD} (dat : Dat τ (Elt F) Unit ℕ (UR sig nD τ) ℕ cfg1 c) (hA : dat.A 13 = V c (Pipeline.arrRef spec1 13))
    (hafter : ∀ t, dat.after 13 t = iblk V c 13 t) (t : Fin cfg1.N) (d) : dat.before 13 t d = iblk V c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before_14_of {c : Dev nD} (dat : Dat τ (Elt F) Unit ℕ (UR sig nD τ) ℕ cfg1 c) (hA : dat.A 14 = V c (Pipeline.arrRef spec1 14))
    (hafter : ∀ t, dat.after 14 t = iblk V c 14 t) (t : Fin cfg1.N) (d) : dat.before 14 t d = iblk V c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before_15_of {c : Dev nD} (dat : Dat τ (Elt F) Unit ℕ (UR sig nD τ) ℕ cfg1 c) (hA : dat.A 15 = V c (Pipeline.arrRef spec1 15))
    (hafter : ∀ t, dat.after 15 t = iblk V c 15 t) (t : Fin cfg1.N) (d) : dat.before 15 t d = iblk V c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-- The two stored products: source first-layer result · W3 and target first-layer result · W4, from the arrays read whole
    at the first point. -/
def sup1 (c : Dev nD) : Vec F S4096x256 .bf16 := k1_pay2 (iblk V c 2 t1_0) (iblk V c 6 t1_0)
def sup2 (c : Dev nD) : Vec F S4096x256 .bf16 := k1_pay3 (iblk V c 3 t1_0) (iblk V c 8 t1_0)

/-- The core's scoped buffers that this kernel stages nothing in, split at its own two buffers. -/
theorem scopedRest_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))
          ∗ Pipeline.scopedRestBut (Ix := Unit) (Name := ℕ) (U := UR sig nD τ) (Lvl := ℕ) (Val := Elt F) spec1 c [cc1_scratch0, cc1_scratch1]) :=
  Pipeline.scopedRest_split_of_list spec1 c [cc1_scratch0, cc1_scratch1] (by decide) (by decide)

/-- The kernel's invariant before position n: before the first point its two buffers hold anything; afterwards they hold
    the two products. The other scoped buffers and the generator register ride along untouched. -/
def Phi (c : Dev nD) : ℕ → sProp 𝕄
  | 0 => Pipeline.ΦA spec1 c
  | _ + 1 => iprop(iprop(owns (c : Thread nD τ) (Memref.whole cc1_scratch0) fullShare (sup1 V c) ∗ owns (c : Thread nD τ) (Memref.whole cc1_scratch1) fullShare (sup2 V c))
      ∗ Pipeline.scopedRestBut (Ix := Unit) (Name := ℕ) (U := UR sig nD τ) (Lvl := ℕ) (Val := Elt F) spec1 c [cc1_scratch0, cc1_scratch1] ∗ (∃ r, prngReg c r))

theorem Phi_pos (c : Dev nD) (n : ℕ) (hn : n ≠ 0) :
    Phi V c n = iprop(iprop(owns (c : Thread nD τ) (Memref.whole cc1_scratch0) fullShare (sup1 V c) ∗ owns (c : Thread nD τ) (Memref.whole cc1_scratch1) fullShare (sup2 V c))
      ∗ Pipeline.scopedRestBut (Ix := Unit) (Name := ℕ) (U := UR sig nD τ) (Lvl := ℕ) (Val := Elt F) spec1 c [cc1_scratch0, cc1_scratch1] ∗ (∃ r, prngReg c r)) := by
  cases n with
  | zero => exact absurd rfl hn
  | succ n => rfl

/-- Before the first point: the two buffers at some contents each, split off the scoped buffers. -/
theorem PhiA_eq (c : Dev nD) :
    (Pipeline.ΦA spec1 c : sProp 𝕄)
      = iprop(iprop(iprop((∃ d, owns (c : Thread nD τ) (Memref.whole cc1_scratch0) fullShare d) ∗ (∃ d, owns (c : Thread nD τ) (Memref.whole cc1_scratch1) fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest_split]; simp only [owns_whole]; try rfl

/-- The proof data of the second kernel on core c. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => iblk V c 15 t
    | ⟨16, _⟩ => k1_pay1 (k1_pay4 (iblk V c 1 t) (sup2 V c) (iblk V c 9 t)) (k1_pay5 (iblk V c 0 t) (sup1 V c) (iblk V c 7 t) (iblk V c 10 t)) (iblk V c 4 t) (iblk V c 11 t) (iblk V c 12 t) (iblk V c 13 t) (iblk V c 5 t) (iblk V c 14 t) (iblk V c 15 t)
    | ⟨_ + 17, h⟩ => absurd h (Nat.not_lt.2 (Nat.le_add_left _ _))
  Φ t := Phi V c t.val
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = iblk V c 8 t := by dsimp only [dat]
theorem after_9 (c : Dev nD) (t : Fin cfg1.N) : (dat V c).after 9 t = iblk V c 9 t := by dsimp only [dat]
theorem after_10 (c : Dev nD) (t : Fin cfg1.N) : (dat V c).after 10 t = iblk V c 10 t := by dsimp only [dat]
theorem after_11 (c : Dev nD) (t : Fin cfg1.N) : (dat V c).after 11 t = iblk V c 11 t := by dsimp only [dat]
theorem after_12 (c : Dev nD) (t : Fin cfg1.N) : (dat V c).after 12 t = iblk V c 12 t := by dsimp only [dat]
theorem after_13 (c : Dev nD) (t : Fin cfg1.N) : (dat V c).after 13 t = iblk V c 13 t := by dsimp only [dat]
theorem after_14 (c : Dev nD) (t : Fin cfg1.N) : (dat V c).after 14 t = iblk V c 14 t := by dsimp only [dat]
theorem after_15 (c : Dev nD) (t : Fin cfg1.N) : (dat V c).after 15 t = iblk V c 15 t := by dsimp only [dat]
theorem after_16 (c : Dev nD) (t : Fin cfg1.N) : (dat V c).after 16 t = k1_pay1 (k1_pay4 (iblk V c 1 t) (sup2 V c) (iblk V c 9 t)) (k1_pay5 (iblk V c 0 t) (sup1 V c) (iblk V c 7 t) (iblk V c 10 t)) (iblk V c 4 t) (iblk V c 11 t) (iblk V c 12 t) (iblk V c 13 t) (iblk V c 5 t) (iblk V c 14 t) (iblk V c 15 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d
theorem before_6 (c : Dev nD) (t : Fin cfg1.N) (d) : (dat V c).before 6 t d = iblk V c 6 t :=
  before_6_of V (dat V c) (A_eq V c 6) (after_6 V c) t d
theorem before_7 (c : Dev nD) (t : Fin cfg1.N) (d) : (dat V c).before 7 t d = iblk V c 7 t :=
  before_7_of V (dat V c) (A_eq V c 7) (after_7 V c) t d
theorem before_8 (c : Dev nD) (t : Fin cfg1.N) (d) : (dat V c).before 8 t d = iblk V c 8 t :=
  before_8_of V (dat V c) (A_eq V c 8) (after_8 V c) t d
theorem before_9 (c : Dev nD) (t : Fin cfg1.N) (d) : (dat V c).before 9 t d = iblk V c 9 t :=
  before_9_of V (dat V c) (A_eq V c 9) (after_9 V c) t d
theorem before_10 (c : Dev nD) (t : Fin cfg1.N) (d) : (dat V c).before 10 t d = iblk V c 10 t :=
  before_10_of V (dat V c) (A_eq V c 10) (after_10 V c) t d
theorem before_11 (c : Dev nD) (t : Fin cfg1.N) (d) : (dat V c).before 11 t d = iblk V c 11 t :=
  before_11_of V (dat V c) (A_eq V c 11) (after_11 V c) t d
theorem before_12 (c : Dev nD) (t : Fin cfg1.N) (d) : (dat V c).before 12 t d = iblk V c 12 t :=
  before_12_of V (dat V c) (A_eq V c 12) (after_12 V c) t d
theorem before_13 (c : Dev nD) (t : Fin cfg1.N) (d) : (dat V c).before 13 t d = iblk V c 13 t :=
  before_13_of V (dat V c) (A_eq V c 13) (after_13 V c) t d
theorem before_14 (c : Dev nD) (t : Fin cfg1.N) (d) : (dat V c).before 14 t d = iblk V c 14 t :=
  before_14_of V (dat V c) (A_eq V c 14) (after_14 V c) t d
theorem before_15 (c : Dev nD) (t : Fin cfg1.N) (d) : (dat V c).before 15 t d = iblk V c 15 t :=
  before_15_of V (dat V c) (A_eq V c 15) (after_15 V c) t d

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d))
    ∗ (∃ d, owns (c : Thread nD τ) (st1_13 t) fullShare ((dat V c).before 13 t d))
    ∗ (∃ d, owns (c : Thread nD τ) (st1_14 t) fullShare ((dat V c).before 14 t d))
    ∗ (∃ d, owns (c : Thread nD τ) (st1_15 t) fullShare ((dat V c).before 15 t d))
    ∗ (∃ d, owns (c : Thread nD τ) (st1_16 t) fullShare ((dat V c).before 16 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t)
    ∗ owns (c : Thread nD τ) (st1_11 t) fullShare ((dat V c).after 11 t)
    ∗ owns (c : Thread nD τ) (st1_12 t) fullShare ((dat V c).after 12 t)
    ∗ owns (c : Thread nD τ) (st1_13 t) fullShare ((dat V c).after 13 t)
    ∗ owns (c : Thread nD τ) (st1_14 t) fullShare ((dat V c).after 14 t)
    ∗ owns (c : Thread nD τ) (st1_15 t) fullShare ((dat V c).after 15 t)
    ∗ owns (c : Thread nD τ) (st1_16 t) fullShare ((dat V c).after 16 t))

set_option maxHeartbeats 8000000 in
/-- The body at any point: at the first it finds its two buffers at anything and fills them; at a later one it finds them
    at the two products and leaves them. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7, before_8, before_9, before_10, before_11, before_12, before_13, before_14, before_15]
  rw [show (dat V c).Φ t.succ = Phi V c (t.val + 1) from rfl,
    show (dat V c).Φ t.castSucc = Phi V c t.val from rfl,
    show (dat V c).owesAt () t.succ = (dat V c).owesAt () t.castSucc from rfl,
    after_0, after_1, after_2, after_3, after_4, after_5, after_6, after_7, after_8, after_9, after_10, after_11, after_12, after_13, after_14, after_15, after_16]
  by_cases hz : t.val = 0
  · obtain rfl : t = t1_0 := Fin.ext hz
    rw [show Phi V c (t1_0 : Fin cfg1.N).val = Pipeline.ΦA spec1 c from rfl, PhiA_eq,
      Phi_pos V c ((t1_0 : Fin cfg1.N).val + 1) (Nat.succ_ne_zero _)]
    iintro ⟨⟨⟨⟨⟨%e0, HS0⟩, ⟨%e1, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (run_first c Set.univ _ ((first_iff t1_0).2 rfl) _ _ _ _ _ _ _ _ _ _ _ _ _ _ _ _ _ _ _ _ _ _ _ _ _ _ _ _ _ _ _ _ _ _ _ _ _ _
      (iblk V c 0 t1_0) (iblk V c 1 t1_0) (iblk V c 2 t1_0) (iblk V c 3 t1_0) (iblk V c 4 t1_0) (iblk V c 5 t1_0) (iblk V c 6 t1_0) (iblk V c 7 t1_0) (iblk V c 8 t1_0) (iblk V c 9 t1_0) (iblk V c 10 t1_0) (iblk V c 11 t1_0) (iblk V c 12 t1_0) (iblk V c 13 t1_0) (iblk V c 14 t1_0) (iblk V c 15 t1_0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [HS0]; · iexists _; iexact HS0
    isplitl [HS1]; · iexists _; iexact HS1
    iintro ⟨H0, H1, H2, H3, H4, H5, H6, H7, H8, H9, H10, H11, H12, H13, H14, H15, H16, HS0, HS1⟩
    isplitl [HS0 HS1 Hrest Hg]
    · isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · rw [Phi_pos V c t.val hz, show Phi V c (t.val + 1) = Phi V c t.val from by rw [Phi_pos V c t.val hz]; rfl, Phi_pos V c t.val hz]
    iintro ⟨⟨⟨HS0, HS1⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (run_later c Set.univ _ (fun h => hz ((first_iff t).1 h)) _ _ _ _ _ _ _ _ _ _ _ _ _ _ _ _ _ _ _ _ _ _ _ _ _ _ _ _ _ _ _ _ _ _ _ _ _ _
      (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (sup1 V c) (sup2 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [HS0]; · iexact HS0
    isplitl [HS1]; · iexact HS1
    iintro ⟨H0, H1, H2, H3, H4, H5, H6, H7, H8, H9, H10, H11, H12, H13, H14, H15, H16, HS0, HS1⟩
    isplitl [HS0 HS1 Hrest Hg]
    · isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

/-- The library's body obligation, at every point. -/
theorem body_obligation (c : Dev nD) : BodyObligation (dat (F := F) V c) (defs₀ (F := F)) Variants.none () Set.univ := fun t => by
  rw [bigSep_W1, bigSep_W1]
  exact sound_body V c t

/-- After the last point the invariant gives back the scoped buffers at some contents each: the stored products' names are
    forgotten. -/
theorem Phi_last (c : Dev nD) : (dat V c).Φ (Fin.last cfg1.N) ⊢ Pipeline.ΦA spec1 c := by
  rw [show (dat V c).Φ (Fin.last cfg1.N) = Phi V c (Fin.last cfg1.N).val from rfl,
    Phi_pos V c _ (by rw [Fin.val_last]; have : cfg1.N = 16 := N_1; omega), PhiA_eq]
  iintro ⟨⟨HS0, HS1⟩, Hrest, Hg⟩
  isplitl [HS0 HS1 Hrest]
  · isplitl [HS0 HS1]
    · isplitl [HS0]; · iexists _; iexact HS0
      iexists _; iexact HS1
    iexact Hrest
  iexact Hg

end Data

end Cert.KernelIdeal.Stage2

end
-- ==== Proof.Segments.lean ====
import proofs.«116847_g8323646620422_cont_9to1_m_1182_26_alg».proof.Proof.Gen.KernelIdeal.Launch
import proofs.«116847_g8323646620422_cont_9to1_m_1182_26_alg».proof.Proof.Gen.KernelIdeal.Skeleton
import proofs.«116847_g8323646620422_cont_9to1_m_1182_26_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«116847_g8323646620422_cont_9to1_m_1182_26_alg».proof.Proof.Gen.KernelIdeal.Regions
import proofs.«116847_g8323646620422_cont_9to1_m_1182_26_alg».proof.Proof.Stage1Data
import proofs.«116847_g8323646620422_cont_9to1_m_1182_26_alg».proof.Proof.Stage2Data
import Idealize.ShloMosaic.Lib.Pipeline.Value

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole program: host lines, first kernel, second kernel

The program runs eighteen host lines (reshapes of the biases, the four transposed halves of the head weights), then the
first kernel, then the second. Between two of these every unscoped buffer of a core holds known contents: the launch
memory, then that memory after the host lines, then the same with the first kernel's arrays at what its write-backs leave,
then the same with the second kernel's. No step writes an argument array, so the arguments end as launched, and the result
buffer ends at what the second kernel's write-backs leave. -/

variable (m : (ℓ : Loc nD τ sig) → Buf (Elt F) ℓ) (ρ : Dev nD → PrngReg)

/-- Core c's buffers at launch, -/
abbrev W0 : Dev nD → Valuation τ sig (Elt F) := fun c => V0 m c
/-- after the host lines, -/
abbrev W1 : Dev nD → Valuation τ sig (Elt F) := fun c => V1 m c
abbrev C1 : (c : Dev nD) → (b : Ref sig .tc) → Buf (Elt F) ((c : Thread nD τ).loc b) := fun c b => W1 m c b
/-- after the first kernel: its arrays at what the pipeline leaves, every other buffer as it was, -/
def W2 (c : Dev nD) : Valuation τ sig (Elt F) :=
  Pipeline.withArrays spec0 c (W1 m c) fun w => (Stage1.dat (C1 m) c).arrAt w cfg0.N
theorem W2_arr (c : Dev nD) (w : Fin cfg0.W) :
    W2 m c (Proc.devRef .tc (Pipeline.arrRef spec0 w)) = (Stage1.dat (C1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev C2 : (c : Dev nD) → (b : Ref sig .tc) → Buf (Elt F) ((c : Thread nD τ).loc b) := fun c b => W2 m c b
theorem hF0 (c : Dev nD) (w : Fin cfg0.W) : (Stage1.dat (C1 m) c).arrAt w cfg0.N = C2 m c (Pipeline.arrRef spec0 w) :=
  (W2_arr m c w).symm
theorem hrest0 (c : Dev nD) : ∀ b, b ∉ Finset.univ.image (Pipeline.arrRef spec0) → C2 m c b = C1 m c b :=
  fun b hb => W2_of_ne m c b fun w e => hb (Finset.mem_image.mpr ⟨w, Finset.mem_univ _, e⟩)
/-- and after the second kernel. -/
def W3 (c : Dev nD) : Valuation τ sig (Elt F) :=
  Pipeline.withArrays spec1 c (W2 m c) fun w => (Stage2.dat (C2 m) c).arrAt w cfg1.N
theorem W3_arr (c : Dev nD) (w : Fin cfg1.W) :
    W3 m c (Proc.devRef .tc (Pipeline.arrRef spec1 w)) = (Stage2.dat (C2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev C3 : (c : Dev nD) → (b : Ref sig .tc) → Buf (Elt F) ((c : Thread nD τ).loc b) := fun c b => W3 m c b
theorem hF1 (c : Dev nD) (w : Fin cfg1.W) : (Stage2.dat (C2 m) c).arrAt w cfg1.N = C3 m c (Pipeline.arrRef spec1 w) :=
  (W3_arr m c w).symm
theorem hrest1 (c : Dev nD) : ∀ b, b ∉ Finset.univ.image (Pipeline.arrRef spec1) → C3 m c b = C2 m c b :=
  fun b hb => W3_of_ne m c b fun w e => hb (Finset.mem_image.mpr ⟨w, Finset.mem_univ _, e⟩)

/-! ## No step writes an argument array -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 4).trans (((Stage2.dat (C2 m) c).arrAt_in 4 rfl _).trans (Stage2.A_eq (C2 m) c 4))
    _ = W1 m c (Proc.devRef .tc main_arg0) := (W2_arr m c 2).trans (((Stage1.dat (C1 m) c).arrAt_in 2 rfl _).trans (Stage1.A_eq (C1 m) c 2))
    _ = W0 m c (Proc.devRef .tc main_arg0) := V1_of m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 5).trans (((Stage2.dat (C2 m) c).arrAt_in 5 rfl _).trans (Stage2.A_eq (C2 m) c 5))
    _ = W1 m c (Proc.devRef .tc main_arg1) := (W2_arr m c 3).trans (((Stage1.dat (C1 m) c).arrAt_in 3 rfl _).trans (Stage1.A_eq (C1 m) c 3))
    _ = W0 m c (Proc.devRef .tc main_arg1) := V1_of m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := (W3_arr m c 0).trans (((Stage2.dat (C2 m) c).arrAt_in 0 rfl _).trans (Stage2.A_eq (C2 m) c 0))
    _ = W1 m c (Proc.devRef .tc main_arg2) := W2_of_ne m c main_arg2 (by decide)
    _ = W0 m c (Proc.devRef .tc main_arg2) := V1_of m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := (W2_arr m c 0).trans (((Stage1.dat (C1 m) c).arrAt_in 0 rfl _).trans (Stage1.A_eq (C1 m) c 0))
    _ = W0 m c (Proc.devRef .tc main_arg3) := V1_of m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := (W3_arr m c 1).trans (((Stage2.dat (C2 m) c).arrAt_in 1 rfl _).trans (Stage2.A_eq (C2 m) c 1))
    _ = W1 m c (Proc.devRef .tc main_arg4) := W2_of_ne m c main_arg4 (by decide)
    _ = W0 m c (Proc.devRef .tc main_arg4) := V1_of m c main_arg4 (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := (W2_arr m c 1).trans (((Stage1.dat (C1 m) c).arrAt_in 1 rfl _).trans (Stage1.A_eq (C1 m) c 1))
    _ = W0 m c (Proc.devRef .tc main_arg5) := V1_of m c main_arg5 (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := (W2_arr m c 4).trans (((Stage1.dat (C1 m) c).arrAt_in 4 rfl _).trans (Stage1.A_eq (C1 m) c 4))
    _ = W0 m c (Proc.devRef .tc main_arg6) := V1_of m c main_arg6 (by decide)
    _ = m ((c : Thread nD τ).loc main_arg6) := rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of_ne m c main_arg7 (by decide)
    _ = W1 m c (Proc.devRef .tc main_arg7) := W2_of_ne m c main_arg7 (by decide)
    _ = W0 m c (Proc.devRef .tc main_arg7) := V1_of m c main_arg7 (by decide)
    _ = m ((c : Thread nD τ).loc main_arg7) := rfl
theorem W3_main_arg8 (c : Dev nD) : W3 m c (Proc.devRef .tc main_arg8) = m ((c : Thread nD τ).loc main_arg8) :=
  calc W3 m c (Proc.devRef .tc main_arg8)
    _ = W2 m c (Proc.devRef .tc main_arg8) := W3_of_ne m c main_arg8 (by decide)
    _ = W1 m c (Proc.devRef .tc main_arg8) := (W2_arr m c 6).trans (((Stage1.dat (C1 m) c).arrAt_in 6 rfl _).trans (Stage1.A_eq (C1 m) c 6))
    _ = W0 m c (Proc.devRef .tc main_arg8) := V1_of m c main_arg8 (by decide)
    _ = m ((c : Thread nD τ).loc main_arg8) := rfl
theorem W3_main_arg9 (c : Dev nD) : W3 m c (Proc.devRef .tc main_arg9) = m ((c : Thread nD τ).loc main_arg9) :=
  calc W3 m c (Proc.devRef .tc main_arg9)
    _ = W2 m c (Proc.devRef .tc main_arg9) := W3_of_ne m c main_arg9 (by decide)
    _ = W1 m c (Proc.devRef .tc main_arg9) := W2_of_ne m c main_arg9 (by decide)
    _ = W0 m c (Proc.devRef .tc main_arg9) := V1_of m c main_arg9 (by decide)
    _ = m ((c : Thread nD τ).loc main_arg9) := rfl
theorem W3_main_arg10 (c : Dev nD) : W3 m c (Proc.devRef .tc main_arg10) = m ((c : Thread nD τ).loc main_arg10) :=
  calc W3 m c (Proc.devRef .tc main_arg10)
    _ = W2 m c (Proc.devRef .tc main_arg10) := (W3_arr m c 6).trans (((Stage2.dat (C2 m) c).arrAt_in 6 rfl _).trans (Stage2.A_eq (C2 m) c 6))
    _ = W1 m c (Proc.devRef .tc main_arg10) := W2_of_ne m c main_arg10 (by decide)
    _ = W0 m c (Proc.devRef .tc main_arg10) := V1_of m c main_arg10 (by decide)
    _ = m ((c : Thread nD τ).loc main_arg10) := rfl
theorem W3_main_arg11 (c : Dev nD) : W3 m c (Proc.devRef .tc main_arg11) = m ((c : Thread nD τ).loc main_arg11) :=
  calc W3 m c (Proc.devRef .tc main_arg11)
    _ = W2 m c (Proc.devRef .tc main_arg11) := W3_of_ne m c main_arg11 (by decide)
    _ = W1 m c (Proc.devRef .tc main_arg11) := W2_of_ne m c main_arg11 (by decide)
    _ = W0 m c (Proc.devRef .tc main_arg11) := V1_of m c main_arg11 (by decide)
    _ = m ((c : Thread nD τ).loc main_arg11) := rfl
theorem W3_main_arg12 (c : Dev nD) : W3 m c (Proc.devRef .tc main_arg12) = m ((c : Thread nD τ).loc main_arg12) :=
  calc W3 m c (Proc.devRef .tc main_arg12)
    _ = W2 m c (Proc.devRef .tc main_arg12) := (W3_arr m c 8).trans (((Stage2.dat (C2 m) c).arrAt_in 8 rfl _).trans (Stage2.A_eq (C2 m) c 8))
    _ = W1 m c (Proc.devRef .tc main_arg12) := W2_of_ne m c main_arg12 (by decide)
    _ = W0 m c (Proc.devRef .tc main_arg12) := V1_of m c main_arg12 (by decide)
    _ = m ((c : Thread nD τ).loc main_arg12) := rfl
theorem W3_main_arg13 (c : Dev nD) : W3 m c (Proc.devRef .tc main_arg13) = m ((c : Thread nD τ).loc main_arg13) :=
  calc W3 m c (Proc.devRef .tc main_arg13)
    _ = W2 m c (Proc.devRef .tc main_arg13) := W3_of_ne m c main_arg13 (by decide)
    _ = W1 m c (Proc.devRef .tc main_arg13) := W2_of_ne m c main_arg13 (by decide)
    _ = W0 m c (Proc.devRef .tc main_arg13) := V1_of m c main_arg13 (by decide)
    _ = m ((c : Thread nD τ).loc main_arg13) := rfl
theorem W3_main_arg14 (c : Dev nD) : W3 m c (Proc.devRef .tc main_arg14) = m ((c : Thread nD τ).loc main_arg14) :=
  calc W3 m c (Proc.devRef .tc main_arg14)
    _ = W2 m c (Proc.devRef .tc main_arg14) := W3_of_ne m c main_arg14 (by decide)
    _ = W1 m c (Proc.devRef .tc main_arg14) := W2_of_ne m c main_arg14 (by decide)
    _ = W0 m c (Proc.devRef .tc main_arg14) := V1_of m c main_arg14 (by decide)
    _ = m ((c : Thread nD τ).loc main_arg14) := rfl
theorem W3_main_arg15 (c : Dev nD) : W3 m c (Proc.devRef .tc main_arg15) = m ((c : Thread nD τ).loc main_arg15) :=
  calc W3 m c (Proc.devRef .tc main_arg15)
    _ = W2 m c (Proc.devRef .tc main_arg15) := W3_of_ne m c main_arg15 (by decide)
    _ = W1 m c (Proc.devRef .tc main_arg15) := W2_of_ne m c main_arg15 (by decide)
    _ = W0 m c (Proc.devRef .tc main_arg15) := V1_of m c main_arg15 (by decide)
    _ = m ((c : Thread nD τ).loc main_arg15) := rfl
theorem W3_main_arg16 (c : Dev nD) : W3 m c (Proc.devRef .tc main_arg16) = m ((c : Thread nD τ).loc main_arg16) :=
  calc W3 m c (Proc.devRef .tc main_arg16)
    _ = W2 m c (Proc.devRef .tc main_arg16) := W3_of_ne m c main_arg16 (by decide)
    _ = W1 m c (Proc.devRef .tc main_arg16) := W2_of_ne m c main_arg16 (by decide)
    _ = W0 m c (Proc.devRef .tc main_arg16) := V1_of m c main_arg16 (by decide)
    _ = m ((c : Thread nD τ).loc main_arg16) := rfl
theorem W3_main_arg17 (c : Dev nD) : W3 m c (Proc.devRef .tc main_arg17) = m ((c : Thread nD τ).loc main_arg17) :=
  calc W3 m c (Proc.devRef .tc main_arg17)
    _ = W2 m c (Proc.devRef .tc main_arg17) := W3_of_ne m c main_arg17 (by decide)
    _ = W1 m c (Proc.devRef .tc main_arg17) := W2_of_ne m c main_arg17 (by decide)
    _ = W0 m c (Proc.devRef .tc main_arg17) := V1_of m c main_arg17 (by decide)
    _ = m ((c : Thread nD τ).loc main_arg17) := rfl

/-- The result buffer ends at what the second kernel's write-backs leave. -/
theorem W3_main_v19 (c : Dev nD) : W3 m c (Proc.devRef .tc main_v19) = (Stage2.dat (C2 m) c).arrAt 16 cfg1.N :=
  W3_arr m c 16

/-! ## The proof data family and the thread state -/

abbrev adm : (p : Fin 2) → (pcfgs (F := F) p).Adm := fun p => (cfgs p).toPCfg_adm
/-- Both kernels' proof data, each at the contents its kernel is entered from. -/
def pdats : (p : Fin 2) → (c : Dev nD) → Dat τ (Elt F) Unit ℕ (UR sig nD τ) ℕ (Pipeline.pin (pcfgs (F := F)) adm p) c
  | ⟨0, _⟩ => fun c => Stage1.dat (C1 m) c
  | ⟨1, _⟩ => fun c => Stage2.dat (C2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The kernels as segments -/

set_option backward.isDefEq.respectTransparency.types false in
/-- Kernel 0 as a segment: entered from every unscoped buffer at the contents before it, left at the contents after it.
    Its arrays are split out of the unscoped buffers and put back at what the pipeline leaves; the generator register and
    the kernel's two buffers go into its invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Stage1.body_obligation (C1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (C1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (C1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Stage1.Phi_last (C1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (C1 m c) (C2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1 as a segment: entered from every unscoped buffer at the contents before it, left at the contents after it.
    Its arrays are split out of the unscoped buffers and put back at what the pipeline leaves; the generator register and
    the kernel's two buffers go into its invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Stage2.body_obligation (C2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (C2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (C2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Stage2.Phi_last (C2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (C2 m c) (C3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: every weakly fair execution of the program from memory m with zero counters terminates, nothing faulting,
    and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c),
    (h c _ (mem_uc main_arg7 (by decide))).trans (W3_main_arg7 m c),
    (h c _ (mem_uc main_arg8 (by decide))).trans (W3_main_arg8 m c),
    (h c _ (mem_uc main_arg9 (by decide))).trans (W3_main_arg9 m c),
    (h c _ (mem_uc main_arg10 (by decide))).trans (W3_main_arg10 m c),
    (h c _ (mem_uc main_arg11 (by decide))).trans (W3_main_arg11 m c),
    (h c _ (mem_uc main_arg12 (by decide))).trans (W3_main_arg12 m c),
    (h c _ (mem_uc main_arg13 (by decide))).trans (W3_main_arg13 m c),
    (h c _ (mem_uc main_arg14 (by decide))).trans (W3_main_arg14 m c),
    (h c _ (mem_uc main_arg15 (by decide))).trans (W3_main_arg15 m c),
    (h c _ (mem_uc main_arg16 (by decide))).trans (W3_main_arg16 m c),
    (h c _ (mem_uc main_arg17 (by decide))).trans (W3_main_arg17 m c)⟩) (run_all m ρ)

/-- The run with its result named: the result buffer ends at what the second kernel's write-backs leave, and every
    argument array as launched. -/
theorem run_value : θ_run defs (onTc (τ := τ) (main (F := F))) ⟨m, fun _ => 0, ρ⟩ (fun r => ∀ c : Dev nD,
      r.2.mem ((c.tc : Thread nD τ).loc main_v19) = (Stage2.dat (C2 m) c).arrAt 16 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c _ (mem_uc main_v19 (by decide))).trans (W3_main_v19 m c),
    (h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c),
    (h c _ (mem_uc main_arg7 (by decide))).trans (W3_main_arg7 m c),
    (h c _ (mem_uc main_arg8 (by decide))).trans (W3_main_arg8 m c),
    (h c _ (mem_uc main_arg9 (by decide))).trans (W3_main_arg9 m c),
    (h c _ (mem_uc main_arg10 (by decide))).trans (W3_main_arg10 m c),
    (h c _ (mem_uc main_arg11 (by decide))).trans (W3_main_arg11 m c),
    (h c _ (mem_uc main_arg12 (by decide))).trans (W3_main_arg12 m c),
    (h c _ (mem_uc main_arg13 (by decide))).trans (W3_main_arg13 m c),
    (h c _ (mem_uc main_arg14 (by decide))).trans (W3_main_arg14 m c),
    (h c _ (mem_uc main_arg15 (by decide))).trans (W3_main_arg15 m c),
    (h c _ (mem_uc main_arg16 (by decide))).trans (W3_main_arg16 m c),
    (h c _ (mem_uc main_arg17 (by decide))).trans (W3_main_arg17 m c)⟩) (run_all m ρ)

end Cert.KernelIdeal.Run

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.LibMatProd.lean ====
/-
  The product of two matrices on the extended reals as ONE whole-array function, and the two operations that compute it
  (any extents).

  For A : [a, k] and B : [k, b] the entry (p, q) of A·B is the sum over j of A (p, j) · B (j, q). At the exact instance
  the matrix unit's product into a zero accumulator and the host's dot product, both with the plain dimension numbers
  (contract the left operand's second axis against the right operand's first, no batch axis), are this function of their
  operands; a narrowing of the operands' float format beforehand changes nothing, being the identity on extended reals.
-/
import proofs.«116847_g8323646620422_cont_9to1_m_1182_26_alg».proof.Proof.LibMatmul
import Idealize.ShloMosaic.Lib.Pipeline.Value

noncomputable section

open scoped BigOperators

namespace Cert.Products

open Idealize.ShloMosaic Idealize.ShloMosaic.ValueIdx

/-- Entry (p, q) of A·B: the sum over j of A (p, j) · B (j, q). -/
def matProd {a k b : ℕ} (A : (⟨2, ![a, k]⟩ : Shape).Idx → EReal) (B : (⟨2, ![k, b]⟩ : Shape).Idx → EReal) :
    (⟨2, ![a, b]⟩ : Shape).Idx → EReal :=
  fun i => ∑ j : Fin k, A (ix2 (i 0) j) * B (ix2 j (i 1))

theorem matProd_ix2 {a k b : ℕ} (A : (⟨2, ![a, k]⟩ : Shape).Idx → EReal) (B : (⟨2, ![k, b]⟩ : Shape).Idx → EReal)
    (p : Fin a) (q : Fin b) : matProd A B (ix2 p q) = ∑ j : Fin k, A (ix2 p j) * B (ix2 j q) := rfl

section Plain

variable {a k b : ℕ} (d : DotDims ⟨2, ![a, k]⟩ ⟨2, ![k, b]⟩ ⟨2, ![a, b]⟩)
variable (hl : d.lhsContracting = [1]) (hr : d.rhsContracting = [0]) (hln : d.lhsNonContracting = [0])
variable (hrn : d.rhsNonContracting = [1]) (hlb : d.lhsBatch = []) (hrb : d.rhsBatch = [])
variable {φ₁ φ₂ : FTy}

include hl hr hln hrn hlb hrb in
/-- The matrix unit's product into the zero accumulator is the product. -/
theorem matmul_zero_eq (prec : Option ContractPrecision) (lhs : FVec Ideal ⟨2, ![a, k]⟩ φ₁) (rhs : FVec Ideal ⟨2, ![k, b]⟩ φ₂) :
    FloatOps.matmul d prec lhs rhs (constant ⟨2, ![a, b]⟩ .f32 0x00000000#32) = matProd lhs rhs := by
  funext i
  obtain ⟨p, q, rfl⟩ : ∃ (p : Fin a) (q : Fin b), i = ix2 p q := ⟨i 0, i 1, eq_ix2 i⟩
  exact matmul_zero_ix2 d hl hr hln hrn hlb hrb prec lhs rhs p q

include hl hr hln hrn hlb hrb in
/-- The host's dot product is the product. -/
theorem dotGeneral_eq (prec : Option ContractPrecision) (sched : HostSchedule) (lhs : FVec Ideal ⟨2, ![a, k]⟩ φ₁)
    (rhs : FVec Ideal ⟨2, ![k, b]⟩ φ₂) :
    FloatOps.dotGeneral d prec sched lhs rhs = matProd lhs rhs := by
  funext i
  obtain ⟨p, q, rfl⟩ : ∃ (p : Fin a) (q : Fin b), i = ix2 p q := ⟨i 0, i 1, eq_ix2 i⟩
  exact dotGeneral_ix2 d hl hr hln hrn hlb hrb prec sched lhs rhs p q

end Plain

/-- Narrowing both operands to bf16 first changes nothing: on extended reals the narrowing is the identity. -/
theorem matProd_narrowed {a k b : ℕ} (A : FVec Ideal ⟨2, ![a, k]⟩ .f32) (B : FVec Ideal ⟨2, ![k, b]⟩ .f32)
    (hA hB : FTy.bf16.bits < FTy.f32.bits) :
    matProd (truncf .bf16 A hA) (truncf .bf16 B hB) = matProd A B := rfl

/-- A product depends on its left operand only through the rows it reads: if A' (p', ·) is row p of A, the entries
    (p', q) of A'·B and (p, q) of A·B agree. -/
theorem matProd_row {a a' k b : ℕ} (A : (⟨2, ![a, k]⟩ : Shape).Idx → EReal) (A' : (⟨2, ![a', k]⟩ : Shape).Idx → EReal)
    (B : (⟨2, ![k, b]⟩ : Shape).Idx → EReal) (p : Fin a) (p' : Fin a') (q : Fin b)
    (h : ∀ j : Fin k, A' (ix2 p' j) = A (ix2 p j)) : matProd A' B (ix2 p' q) = matProd A B (ix2 p q) := by
  rw [matProd_ix2, matProd_ix2]
  exact Finset.sum_congr rfl fun j _ => by rw [h j]

end Cert.Products

end
-- ==== Proof.Spec.lean ====
/-
  What the two programs compute, as whole-array functions on the extended reals.

  For a node-feature matrix x : [n, d], a dense adjacency adj : [n, n], a weight W : [d, h] and a bias b : [h], one
  graph-convolution layer is  leaky (adj · (x · W) + b)  with the rectifier  leaky z = z  for z > 0 and  z / 10
  (the float nearest one tenth, times z) otherwise. Each of the two paths (source, target) stacks two layers, the
  second over the other adjacency; the head of a path joins the second layer's result with the path's own features
  along the columns and multiplies by the transposed head weight Wu : [o, h + d], which is the sum of the two half
  products  ho · Wu[:, :h]ᵀ + x · Wu[:, h:]ᵀ,  plus the head bias; the result is half the positive part of the source
  head plus half the positive part of the target head.
-/
import proofs.«116847_g8323646620422_cont_9to1_m_1182_26_alg».proof.Proof.LibMatProd
import Idealize.ShloMosaic.Lib.ValueIdx
import Idealize.ShloMosaic.PureOps.Ideal.Laws

noncomputable section

open scoped BigOperators

namespace Cert.TwoLayer

open Idealize.ShloMosaic Idealize.ShloMosaic.ValueIdx Cert.Products

/-- A matrix of extended reals, indexed as the library indexes a rank-2 array. -/
abbrev Mx (a b : ℕ) : Type := (⟨2, ![a, b]⟩ : Shape).Idx → EReal
/-- A vector of extended reals. -/
abbrev Vx (a : ℕ) : Type := (⟨1, ![a]⟩ : Shape).Idx → EReal

/-- The three float constants of the programs, as the extended reals their words denote. -/
def zero : EReal := Ideal.ofBits .f32 0x00000000#32
def tenth : EReal := Ideal.ofBits .f32 0x3DCCCCCD#32
def half : EReal := Ideal.ofBits .f32 0x3F000000#32

/-- The leaky rectifier of one value: z when z > 0, else a tenth of z. -/
def leaky (z : EReal) : EReal :=
  Scalar.select (FloatOps.cmpf (F := Ideal) (φ := .f32) .ogt z zero) z (tenth * z)

/-- The positive part of one value. -/
def pos (z : EReal) : EReal := max z zero

/-- A bias vector added to every row of a matrix. -/
def addBias {a b : ℕ} (M : Mx a b) (v : Vx b) : Mx a b := fun i => M i + v (ix1 (i 1))

/-- One graph-convolution layer  leaky (adj · (x · W) + b),  for any extents. -/
def layer {n d h : ℕ} (adj : Mx n n) (x : Mx n d) (W : Mx d h) (b : Vx h) : Mx n h :=
  fun i => leaky (addBias (matProd adj (matProd x W)) b i)

/-- The left half  Wu[:, :256]ᵀ : [256, 256]  of a head weight Wu : [256, 512], -/
def headL (Wu : Mx 256 512) : Mx 256 256 := fun i =>
  let j : Fin 256 := i 0
  Wu (ix2 (i 1) (Fin.castAdd 256 j : Fin 512))
/-- and its right half  Wu[:, 256:]ᵀ. -/
def headR (Wu : Mx 256 512) : Mx 256 256 := fun i =>
  let j : Fin 256 := i 0
  Wu (ix2 (i 1) (Fin.natAdd 256 j : Fin 512))

/-- The head of one path:  ho · Wu[:, :256]ᵀ + x · Wu[:, 256:]ᵀ + bu. -/
def head {n : ℕ} (ho x : Mx n 256) (Wu : Mx 256 512) (bu : Vx 256) : Mx n 256 :=
  fun i => (matProd ho (headL Wu) i + matProd x (headR Wu) i) + bu (ix1 (i 1))

/-- Half the positive part of one head plus half the positive part of the other. -/
def combine {n : ℕ} (hs ht : Mx n 256) : Mx n 256 := fun i => half * pos (hs i) + half * pos (ht i)

/-- THE RESULT of both programs: for the source path (features xs, adjacencies uvs and vus, weights W1, b1 then W3, b3,
    head Wsu, bsu) and the target path (xt, uvt, vut, W2, b2 then W4, b4, head Wtu, btu). -/
def result (xs xt : Mx 4096 256) (uvs vus uvt vut : Mx 4096 4096) (W1 : Mx 256 256) (b1 : Vx 256) (W2 : Mx 256 256)
    (b2 : Vx 256) (W3 : Mx 256 256) (b3 : Vx 256) (W4 : Mx 256 256) (b4 : Vx 256) (Wsu : Mx 256 512) (bsu : Vx 256)
    (Wtu : Mx 256 512) (btu : Vx 256) : Mx 4096 256 :=
  combine (head (layer uvs (layer vus xs W1 b1) W3 b3) xs Wsu bsu)
          (head (layer uvt (layer vut xt W2 b2) W4 b4) xt Wtu btu)

end Cert.TwoLayer

end
-- ==== Proof.Payloads.lean ====
/-
  The arithmetic of the kernel's bodies as whole-array functions on the extended reals.

  At the exact instance a change of float format and a cast to the same shape are identities, and the matrix unit's
  product into a zero accumulator is the matrix product. Each named value of a body is therefore a closed formula in the
  vectors it reads: a support  x · W;  a layer block  leaky (A · S + b),  the one bias row repeated down the rows;  the
  source path's layer block times the left half of the head weight;  and the joined output block, half the positive
  part of one head plus half the positive part of the other.
-/
import proofs.«116847_g8323646620422_cont_9to1_m_1182_26_alg».proof.Proof.Gen.KernelIdeal.Skeleton
import proofs.«116847_g8323646620422_cont_9to1_m_1182_26_alg».proof.Proof.Spec
import Idealize.ShloMosaic.Lib.ValueLayout

noncomputable section

open scoped BigOperators

namespace Cert.KernelIdeal.Arith

open Idealize.ShloMosaic Idealize.ShloMosaic.ValueIdx Cert.Products Cert.TwoLayer Cert.KernelIdeal Cert.KernelIdeal.Gen

/-- A block of a layer: the rectifier of  A · S  plus the single row `brow` added to every row. -/
def blockLayer {a k b : ℕ} (A : Mx a k) (S : Mx k b) (brow : Mx 1 b) : Mx a b :=
  fun i => leaky (matProd A S i + brow (ix2 (0 : Fin 1) (i 1)))

theorem blockLayer_ix2 {a k b : ℕ} (A : Mx a k) (S : Mx k b) (brow : Mx 1 b) (p : Fin a) (q : Fin b) :
    blockLayer A S brow (ix2 p q) = leaky (matProd A S (ix2 p q) + brow (ix2 (0 : Fin 1) q)) := rfl

/-- The joined block: half the positive part of  (P + xs · wr + bs)  plus half the positive part of
    (O · wtl + xt · wtr + bt),  the bias rows repeated down the rows. -/
def blockJoin {a : ℕ} (O P xs : Mx a 256) (wr : Mx 256 256) (bs : Mx 1 256) (wtl : Mx 256 256) (xt : Mx a 256)
    (wtr : Mx 256 256) (bt : Mx 1 256) : Mx a 256 :=
  fun i => half * pos ((P i + matProd xs wr i) + bs (ix2 (0 : Fin 1) (i 1)))
    + half * pos ((matProd O wtl i + matProd xt wtr i) + bt (ix2 (0 : Fin 1) (i 1)))

theorem blockJoin_ix2 {a : ℕ} (O P xs : Mx a 256) (wr : Mx 256 256) (bs : Mx 1 256) (wtl : Mx 256 256) (xt : Mx a 256)
    (wtr : Mx 256 256) (bt : Mx 1 256) (p : Fin a) (q : Fin 256) :
    blockJoin O P xs wr bs wtl xt wtr bt (ix2 p q)
      = half * pos ((P (ix2 p q) + matProd xs wr (ix2 p q)) + bs (ix2 (0 : Fin 1) q))
        + half * pos ((matProd O wtl (ix2 p q) + matProd xt wtr (ix2 p q)) + bt (ix2 (0 : Fin 1) q)) := rfl

/-! ## Stage 1 -/

/-- The source path's first support:  x · W. -/
theorem k0_pay1_eq (x : Vec Ideal S4096x256 .f32) (w : Vec Ideal S256x256 .f32) :
    k0_pay1 (F := Ideal) x w = matProd x w := by
  unfold k0_pay1
  dsimp only
  rw [shapeCast_self]
  exact matmul_zero_eq _ rfl rfl rfl rfl rfl rfl none _ _

/-- The target path's first support:  x · W. -/
theorem k0_pay2_eq (x : Vec Ideal S4096x256 .f32) (w : Vec Ideal S256x256 .f32) :
    k0_pay2 (F := Ideal) x w = matProd x w := by
  unfold k0_pay2
  dsimp only
  rw [shapeCast_self]
  exact matmul_zero_eq _ rfl rfl rfl rfl rfl rfl none _ _

/-- The source path's first layer on a row block:  leaky (A · S + b). -/
theorem k0_pay3_eq (A : Vec Ideal S256x4096 .f32) (S : Vec Ideal S4096x256 .bf16) (b : Vec Ideal S1x256 .f32) :
    k0_pay3 (F := Ideal) A S b = blockLayer A S b := by
  unfold k0_pay3
  dsimp only
  rw [shapeCast_self]
  funext i
  obtain ⟨p, q, rfl⟩ : ∃ (p q : Fin 256), i = ix2 p q := ⟨i 0, i 1, eq_ix2 i⟩
  rw [blockLayer_ix2, ← broadcastTo_1b_ab_apply b broadcasts_S1x256_S256x256 p q,
    ← matmul_zero_eq dot_S256x4096_S4096x256_S256x256_1_0_0_1_n_n rfl rfl rfl rfl rfl rfl none A S]
  rfl

/-- The target path's first layer on a row block. -/
theorem k0_pay4_eq (A : Vec Ideal S256x4096 .f32) (S : Vec Ideal S4096x256 .bf16) (b : Vec Ideal S1x256 .f32) :
    k0_pay4 (F := Ideal) A S b = blockLayer A S b := by
  unfold k0_pay4
  dsimp only
  rw [shapeCast_self]
  funext i
  obtain ⟨p, q, rfl⟩ : ∃ (p q : Fin 256), i = ix2 p q := ⟨i 0, i 1, eq_ix2 i⟩
  rw [blockLayer_ix2, ← broadcastTo_1b_ab_apply b broadcasts_S1x256_S256x256 p q,
    ← matmul_zero_eq dot_S256x4096_S4096x256_S256x256_1_0_0_1_n_n rfl rfl rfl rfl rfl rfl none A S]
  rfl

/-! ## Stage 2 -/

/-- The source path's second support:  h · W. -/
theorem k1_pay2_eq (h : Vec Ideal S4096x256 .bf16) (w : Vec Ideal S256x256 .f32) :
    k1_pay2 (F := Ideal) h w = matProd h w := by
  unfold k1_pay2
  dsimp only
  rw [shapeCast_self, shapeCast_self]
  exact matmul_zero_eq (φ₁ := .bf16) (φ₂ := .bf16) _ rfl rfl rfl rfl rfl rfl none _ _

/-- The target path's second support:  h · W. -/
theorem k1_pay3_eq (h : Vec Ideal S4096x256 .bf16) (w : Vec Ideal S256x256 .f32) :
    k1_pay3 (F := Ideal) h w = matProd h w := by
  unfold k1_pay3
  dsimp only
  rw [shapeCast_self, shapeCast_self]
  exact matmul_zero_eq (φ₁ := .bf16) (φ₂ := .bf16) _ rfl rfl rfl rfl rfl rfl none _ _

/-- The target path's second layer on a row block. -/
theorem k1_pay4_eq (A : Vec Ideal S256x4096 .f32) (S : Vec Ideal S4096x256 .bf16) (b : Vec Ideal S1x256 .f32) :
    k1_pay4 (F := Ideal) A S b = blockLayer A S b := by
  unfold k1_pay4
  dsimp only
  rw [shapeCast_self]
  funext i
  obtain ⟨p, q, rfl⟩ : ∃ (p q : Fin 256), i = ix2 p q := ⟨i 0, i 1, eq_ix2 i⟩
  rw [blockLayer_ix2, ← broadcastTo_1b_ab_apply b broadcasts_S1x256_S256x256 p q,
    ← matmul_zero_eq dot_S256x4096_S4096x256_S256x256_1_0_0_1_n_n rfl rfl rfl rfl rfl rfl none A S]
  rfl

/-- The source path's second layer on a row block, times the left half of the head weight. -/
theorem k1_pay5_eq (A : Vec Ideal S256x4096 .f32) (S : Vec Ideal S4096x256 .bf16) (b : Vec Ideal S1x256 .f32)
    (wl : Vec Ideal S256x256 .bf16) :
    k1_pay5 (F := Ideal) A S b wl = matProd (blockLayer A S b) wl := by
  have hin := k1_pay4_eq A S b
  unfold k1_pay4 at hin
  unfold k1_pay5
  dsimp only at hin ⊢
  rw [shapeCast_self wl]
  refine (matmul_zero_eq dot_S256x256_S256x256_S256x256_1_0_0_1_n_n rfl rfl rfl rfl rfl rfl none _ _).trans ?_
  exact congrArg (fun M => matProd M wl) hin

/-- The output block. -/
theorem k1_pay1_eq (O P : FVec Ideal S256x256 .f32) (xs : Vec Ideal S256x256 .f32) (wr : Vec Ideal S256x256 .bf16)
    (bs : Vec Ideal S1x256 .f32) (wtl : Vec Ideal S256x256 .bf16) (xt : Vec Ideal S256x256 .f32)
    (wtr : Vec Ideal S256x256 .bf16) (bt : Vec Ideal S1x256 .f32) :
    k1_pay1 (F := Ideal) O P xs wr bs wtl xt wtr bt = blockJoin O P xs wr bs wtl xt wtr bt := by
  unfold k1_pay1
  dsimp only
  rw [shapeCast_self wr, shapeCast_self wtl, shapeCast_self wtr, shapeCast_self bs, shapeCast_self bt]
  funext i
  obtain ⟨p, q, rfl⟩ : ∃ (p q : Fin 256), i = ix2 p q := ⟨i 0, i 1, eq_ix2 i⟩
  rw [blockJoin_ix2, ← broadcastTo_1b_ab_apply bs broadcasts_S1x256_S256x256 p q,
    ← broadcastTo_1b_ab_apply bt broadcasts_S1x256_S256x256 p q,
    ← matmul_zero_eq (φ₁ := .bf16) (φ₂ := .bf16) dot_S256x256_S256x256_S256x256_1_0_0_1_n_n rfl rfl rfl rfl rfl rfl none xs wr,
    ← matmul_zero_eq (φ₁ := .bf16) (φ₂ := .bf16) dot_S256x256_S256x256_S256x256_1_0_0_1_n_n rfl rfl rfl rfl rfl rfl none O wtl,
    ← matmul_zero_eq (φ₁ := .bf16) (φ₂ := .bf16) dot_S256x256_S256x256_S256x256_1_0_0_1_n_n rfl rfl rfl rfl rfl rfl none xt wtr]
  rfl

end Cert.KernelIdeal.Arith

end
-- ==== Proof.Blocks.lean ====
/-
  A row block of a result from row blocks of the inputs.

  An entry of a matrix product depends on the left operand only through one row. So if row y of a block A' is row r of
  the whole matrix A, then row y of every array computed row by row from A' — a layer  leaky (A' · S + b),  a head, the
  joined result — is row r of the same array computed from A. These are the laws that assemble the kernel's output,
  written one block of 256 rows at a time, into the whole-array result: every hypothesis is an equation between
  functions or a statement over coordinates, to be supplied from what each block read.
-/
import proofs.«116847_g8323646620422_cont_9to1_m_1182_26_alg».proof.Proof.Payloads

noncomputable section

open scoped BigOperators

namespace Cert.KernelIdeal.Arith

open Idealize.ShloMosaic Idealize.ShloMosaic.ValueIdx Cert.Products Cert.TwoLayer Cert.KernelIdeal Cert.KernelIdeal.Gen

/-! ## One layer -/

/-- Row y of a block layer is row r of the layer, when row y of the adjacency block is row r of the adjacency, the
    support is  x · W,  and the bias row holds the bias at the column read. -/
theorem blockLayer_eq_layer {n d h a : ℕ} (adj : Mx n n) (x : Mx n d) (W : Mx d h) (b : Vx h)
    (ablk : Mx a n) (S : Mx n h) (brow : Mx 1 h) (y : Fin a) (r : Fin n) (q : Fin h)
    (hA : ∀ j : Fin n, ablk (ix2 y j) = adj (ix2 r j)) (hS : S = matProd x W)
    (hb : brow (ix2 (0 : Fin 1) q) = b (ix1 q)) :
    blockLayer ablk S brow (ix2 y q) = layer adj x W b (ix2 r q) := by
  subst hS
  rw [blockLayer_ix2, matProd_row adj ablk (matProd x W) r y q hA, hb]
  rfl

/-! ## Stage 1: the two first layers, a block of rows at a time -/

/-- The source path's stored block at (y, q) is the first layer at (r, q). -/
theorem k0_pay3_block (adj : Mx 4096 4096) (x : Mx 4096 256) (W : Mx 256 256) (b : Vx 256)
    (ablk : Vec Ideal S256x4096 .f32) (S : Vec Ideal S4096x256 .bf16) (brow : Vec Ideal S1x256 .f32)
    (y : Fin 256) (r : Fin 4096) (q : Fin 256)
    (hA : ∀ j : Fin 4096, ablk (ix2 y j) = adj (ix2 r j)) (hS : S = matProd x W)
    (hb : brow (ix2 (0 : Fin 1) q) = b (ix1 q)) :
    k0_pay3 (F := Ideal) ablk S brow (ix2 y q) = layer adj x W b (ix2 r q) := by
  rw [k0_pay3_eq]
  exact blockLayer_eq_layer adj x W b ablk S brow y r q hA hS hb

/-- The target path's stored block at (y, q) is the first layer at (r, q). -/
theorem k0_pay4_block (adj : Mx 4096 4096) (x : Mx 4096 256) (W : Mx 256 256) (b : Vx 256)
    (ablk : Vec Ideal S256x4096 .f32) (S : Vec Ideal S4096x256 .bf16) (brow : Vec Ideal S1x256 .f32)
    (y : Fin 256) (r : Fin 4096) (q : Fin 256)
    (hA : ∀ j : Fin 4096, ablk (ix2 y j) = adj (ix2 r j)) (hS : S = matProd x W)
    (hb : brow (ix2 (0 : Fin 1) q) = b (ix1 q)) :
    k0_pay4 (F := Ideal) ablk S brow (ix2 y q) = layer adj x W b (ix2 r q) := by
  rw [k0_pay4_eq]
  exact blockLayer_eq_layer adj x W b ablk S brow y r q hA hS hb

/-! ## The joined block -/

/-- Row y of the joined block is row r of the combined heads: O and L are the two paths' second-layer blocks (row y of
    each is row r of the whole layers Lt, Ls), the feature blocks' row y is row r of the features, the four weight
    operands are the halves of the two head weights, and the bias rows hold the head biases at the column read. -/
theorem blockJoin_eq_combine {n a : ℕ} (Ls Lt xs xt : Mx n 256) (Wsu Wtu : Mx 256 512) (bsu btu : Vx 256)
    (O L xsblk xtblk : Mx a 256) (wsl wsr wtl wtr : Mx 256 256) (bsrow btrow : Mx 1 256)
    (y : Fin a) (r : Fin n) (q : Fin 256)
    (hL : ∀ j : Fin 256, L (ix2 y j) = Ls (ix2 r j)) (hO : ∀ j : Fin 256, O (ix2 y j) = Lt (ix2 r j))
    (hxs : ∀ j : Fin 256, xsblk (ix2 y j) = xs (ix2 r j)) (hxt : ∀ j : Fin 256, xtblk (ix2 y j) = xt (ix2 r j))
    (hwsl : wsl = headL Wsu) (hwsr : wsr = headR Wsu) (hwtl : wtl = headL Wtu) (hwtr : wtr = headR Wtu)
    (hbs : bsrow (ix2 (0 : Fin 1) q) = bsu (ix1 q)) (hbt : btrow (ix2 (0 : Fin 1) q) = btu (ix1 q)) :
    blockJoin O (matProd L wsl) xsblk wsr bsrow wtl xtblk wtr btrow (ix2 y q)
      = combine (head Ls xs Wsu bsu) (head Lt xt Wtu btu) (ix2 r q) := by
  subst hwsl hwsr hwtl hwtr
  rw [blockJoin_ix2, matProd_row Ls L (headL Wsu) r y q hL, matProd_row xs xsblk (headR Wsu) r y q hxs,
    matProd_row Lt O (headL Wtu) r y q hO, matProd_row xt xtblk (headR Wtu) r y q hxt, hbs, hbt]
  rfl

/-! ## Stage 2: the output, a block of rows at a time -/

/-- THE OUTPUT BLOCK at (y, q) is the result at (r, q). The adjacency blocks' row y is row r of the second
    adjacencies; the supports are the first layers (whole) times the second weights; the bias rows hold the biases
    (the second layers' at every column, the heads' at the column read); the feature blocks' row y is row r of the
    features; the four weight operands are the halves of the head weights. -/
theorem k1_pay1_block (xs xt : Mx 4096 256) (uvs uvt : Mx 4096 4096) (h1s h1t : Mx 4096 256)
    (W3 : Mx 256 256) (b3 : Vx 256) (W4 : Mx 256 256) (b4 : Vx 256) (Wsu : Mx 256 512) (bsu : Vx 256)
    (Wtu : Mx 256 512) (btu : Vx 256)
    (uvsblk uvtblk : Vec Ideal S256x4096 .f32) (S2s S2t : Vec Ideal S4096x256 .bf16)
    (b3row b4row bsrow btrow : Vec Ideal S1x256 .f32) (xsblk xtblk : Vec Ideal S256x256 .f32)
    (wsl wsr wtl wtr : Vec Ideal S256x256 .bf16)
    (y : Fin 256) (r : Fin 4096) (q : Fin 256)
    (huvs : ∀ j : Fin 4096, uvsblk (ix2 y j) = uvs (ix2 r j)) (huvt : ∀ j : Fin 4096, uvtblk (ix2 y j) = uvt (ix2 r j))
    (hS2s : S2s = matProd h1s W3) (hS2t : S2t = matProd h1t W4)
    (hb3 : ∀ j : Fin 256, b3row (ix2 (0 : Fin 1) j) = b3 (ix1 j))
    (hb4 : ∀ j : Fin 256, b4row (ix2 (0 : Fin 1) j) = b4 (ix1 j))
    (hxs : ∀ j : Fin 256, xsblk (ix2 y j) = xs (ix2 r j)) (hxt : ∀ j : Fin 256, xtblk (ix2 y j) = xt (ix2 r j))
    (hwsl : wsl = headL Wsu) (hwsr : wsr = headR Wsu) (hwtl : wtl = headL Wtu) (hwtr : wtr = headR Wtu)
    (hbs : bsrow (ix2 (0 : Fin 1) q) = bsu (ix1 q)) (hbt : btrow (ix2 (0 : Fin 1) q) = btu (ix1 q)) :
    k1_pay1 (F := Ideal) (k1_pay4 (F := Ideal) uvtblk S2t b4row) (k1_pay5 (F := Ideal) uvsblk S2s b3row wsl)
        xsblk wsr bsrow wtl xtblk wtr btrow (ix2 y q)
      = combine (head (layer uvs h1s W3 b3) xs Wsu bsu) (head (layer uvt h1t W4 b4) xt Wtu btu) (ix2 r q) := by
  rw [k1_pay1_eq, k1_pay4_eq, k1_pay5_eq]
  exact blockJoin_eq_combine (layer uvs h1s W3 b3) (layer uvt h1t W4 b4) xs xt Wsu Wtu bsu btu
    (blockLayer uvtblk S2t b4row) (blockLayer uvsblk S2s b3row) xsblk xtblk wsl wsr wtl wtr bsrow btrow y r q
    (fun j => blockLayer_eq_layer uvs h1s W3 b3 uvsblk S2s b3row y r j huvs hS2s (hb3 j))
    (fun j => blockLayer_eq_layer uvt h1t W4 b4 uvtblk S2t b4row y r j huvt hS2t (hb4 j))
    hxs hxt hwsl hwsr hwtl hwtr hbs hbt

/-- The same with the first layers written out: the output block at (y, q) is THE RESULT at (r, q). -/
theorem k1_pay1_block_result (xs xt : Mx 4096 256) (uvs vus uvt vut : Mx 4096 4096)
    (W1 : Mx 256 256) (b1 : Vx 256) (W2 : Mx 256 256) (b2 : Vx 256)
    (W3 : Mx 256 256) (b3 : Vx 256) (W4 : Mx 256 256) (b4 : Vx 256) (Wsu : Mx 256 512) (bsu : Vx 256)
    (Wtu : Mx 256 512) (btu : Vx 256)
    (uvsblk uvtblk : Vec Ideal S256x4096 .f32) (S2s S2t : Vec Ideal S4096x256 .bf16)
    (b3row b4row bsrow btrow : Vec Ideal S1x256 .f32) (xsblk xtblk : Vec Ideal S256x256 .f32)
    (wsl wsr wtl wtr : Vec Ideal S256x256 .bf16)
    (y : Fin 256) (r : Fin 4096) (q : Fin 256)
    (huvs : ∀ j : Fin 4096, uvsblk (ix2 y j) = uvs (ix2 r j)) (huvt : ∀ j : Fin 4096, uvtblk (ix2 y j) = uvt (ix2 r j))
    (hS2s : S2s = matProd (layer vus xs W1 b1) W3) (hS2t : S2t = matProd (layer vut xt W2 b2) W4)
    (hb3 : ∀ j : Fin 256, b3row (ix2 (0 : Fin 1) j) = b3 (ix1 j))
    (hb4 : ∀ j : Fin 256, b4row (ix2 (0 : Fin 1) j) = b4 (ix1 j))
    (hxs : ∀ j : Fin 256, xsblk (ix2 y j) = xs (ix2 r j)) (hxt : ∀ j : Fin 256, xtblk (ix2 y j) = xt (ix2 r j))
    (hwsl : wsl = headL Wsu) (hwsr : wsr = headR Wsu) (hwtl : wtl = headL Wtu) (hwtr : wtr = headR Wtu)
    (hbs : bsrow (ix2 (0 : Fin 1) q) = bsu (ix1 q)) (hbt : btrow (ix2 (0 : Fin 1) q) = btu (ix1 q)) :
    k1_pay1 (F := Ideal) (k1_pay4 (F := Ideal) uvtblk S2t b4row) (k1_pay5 (F := Ideal) uvsblk S2s b3row wsl)
        xsblk wsr bsrow wtl xtblk wtr btrow (ix2 y q)
      = result xs xt uvs vus uvt vut W1 b1 W2 b2 W3 b3 W4 b4 Wsu bsu Wtu btu (ix2 r q) :=
  k1_pay1_block xs xt uvs uvt (layer vus xs W1 b1) (layer vut xt W2 b2) W3 b3 W4 b4 Wsu bsu Wtu btu
    uvsblk uvtblk S2s S2t b3row b4row bsrow btrow xsblk xtblk wsl wsr wtl wtr y r q
    huvs huvt hS2s hS2t hb3 hb4 hxs hxt hwsl hwsr hwtl hwtr hbs hbt

/-! ## The two laws at a grid point

Block t of 16 holds rows 256·t … 256·t + 255: row y of the block is row 256·t + y of the array. The supports are the
stored products of the whole arrays. -/

/-- Stage 1, source path: the block stored at point t, read at (y, q), is the first layer at (256·t + y, q). -/
theorem stage1_source_block (adj : Mx 4096 4096) (x : Mx 4096 256) (W : Mx 256 256) (b : Vx 256)
    (ablk : Vec Ideal S256x4096 .f32) (brow : Vec Ideal S1x256 .f32) (t : Fin 16) (y q : Fin 256)
    (hA : ∀ j : Fin 4096, ablk (ix2 y j) = adj (ix2 (⟨256 * t.val + y.val, by omega⟩ : Fin 4096) j))
    (hb : brow (ix2 (0 : Fin 1) q) = b (ix1 q)) :
    k0_pay3 (F := Ideal) ablk (k0_pay1 (F := Ideal) x W) brow (ix2 y q)
      = layer adj x W b (ix2 (⟨256 * t.val + y.val, by omega⟩ : Fin 4096) q) :=
  k0_pay3_block adj x W b ablk _ brow y _ q hA (k0_pay1_eq x W) hb

/-- Stage 1, target path: the same for the other stored block and support. -/
theorem stage1_target_block (adj : Mx 4096 4096) (x : Mx 4096 256) (W : Mx 256 256) (b : Vx 256)
    (ablk : Vec Ideal S256x4096 .f32) (brow : Vec Ideal S1x256 .f32) (t : Fin 16) (y q : Fin 256)
    (hA : ∀ j : Fin 4096, ablk (ix2 y j) = adj (ix2 (⟨256 * t.val + y.val, by omega⟩ : Fin 4096) j))
    (hb : brow (ix2 (0 : Fin 1) q) = b (ix1 q)) :
    k0_pay4 (F := Ideal) ablk (k0_pay2 (F := Ideal) x W) brow (ix2 y q)
      = layer adj x W b (ix2 (⟨256 * t.val + y.val, by omega⟩ : Fin 4096) q) :=
  k0_pay4_block adj x W b ablk _ brow y _ q hA (k0_pay2_eq x W) hb

/-- Stage 2: the output block stored at point t, read at (y, q), is THE RESULT at (256·t + y, q). The arrays h1s, h1t
    are the whole first layers; the supports are their stored products with the second weights. -/
theorem stage2_block (xs xt : Mx 4096 256) (uvs vus uvt vut : Mx 4096 4096)
    (W1 : Mx 256 256) (b1 : Vx 256) (W2 : Mx 256 256) (b2 : Vx 256)
    (W3 : Mx 256 256) (b3 : Vx 256) (W4 : Mx 256 256) (b4 : Vx 256) (Wsu : Mx 256 512) (bsu : Vx 256)
    (Wtu : Mx 256 512) (btu : Vx 256)
    (uvsblk uvtblk : Vec Ideal S256x4096 .f32) (h1s h1t : Vec Ideal S4096x256 .bf16)
    (b3row b4row bsurow bturow : Vec Ideal S1x256 .f32) (xsblk xtblk : Vec Ideal S256x256 .f32)
    (wsua wsub wtua wtub : Vec Ideal S256x256 .bf16)
    (t : Fin 16) (y q : Fin 256)
    (huvs : ∀ j : Fin 4096, uvsblk (ix2 y j) = uvs (ix2 (⟨256 * t.val + y.val, by omega⟩ : Fin 4096) j))
    (huvt : ∀ j : Fin 4096, uvtblk (ix2 y j) = uvt (ix2 (⟨256 * t.val + y.val, by omega⟩ : Fin 4096) j))
    (hh1s : h1s = layer vus xs W1 b1) (hh1t : h1t = layer vut xt W2 b2)
    (hb3 : ∀ j : Fin 256, b3row (ix2 (0 : Fin 1) j) = b3 (ix1 j))
    (hb4 : ∀ j : Fin 256, b4row (ix2 (0 : Fin 1) j) = b4 (ix1 j))
    (hxs : ∀ j : Fin 256, xsblk (ix2 y j) = xs (ix2 (⟨256 * t.val + y.val, by omega⟩ : Fin 4096) j))
    (hxt : ∀ j : Fin 256, xtblk (ix2 y j) = xt (ix2 (⟨256 * t.val + y.val, by omega⟩ : Fin 4096) j))
    (hwsua : wsua = headL Wsu) (hwsub : wsub = headR Wsu) (hwtua : wtua = headL Wtu) (hwtub : wtub = headR Wtu)
    (hbs : bsurow (ix2 (0 : Fin 1) q) = bsu (ix1 q)) (hbt : bturow (ix2 (0 : Fin 1) q) = btu (ix1 q)) :
    k1_pay1 (F := Ideal) (k1_pay4 (F := Ideal) uvtblk (k1_pay3 (F := Ideal) h1t W4) b4row)
        (k1_pay5 (F := Ideal) uvsblk (k1_pay2 (F := Ideal) h1s W3) b3row wsua)
        xsblk wsub bsurow wtua xtblk wtub bturow (ix2 y q)
      = result xs xt uvs vus uvt vut W1 b1 W2 b2 W3 b3 W4 b4 Wsu bsu Wtu btu
          (ix2 (⟨256 * t.val + y.val, by omega⟩ : Fin 4096) q) := by
  subst hh1s hh1t
  exact k1_pay1_block_result xs xt uvs vus uvt vut W1 b1 W2 b2 W3 b3 W4 b4 Wsu bsu Wtu btu
    uvsblk uvtblk _ _ b3row b4row bsurow bturow xsblk xtblk wsua wsub wtua wtub y _ q
    huvs huvt (k1_pay2_eq _ W3) (k1_pay3_eq _ W4) hb3 hb4 hxs hxt hwsua hwsub hwtua hwtub hbs hbt

end Cert.KernelIdeal.Arith

end
-- ==== Proof.Cover.lean ====
/-
  Which part of an array a grid point's block holds.

  Either grid has sixteen points. A row-blocked window's block at point t is rows 256·t … 256·t + 255 of its array,
  every column: element (y₀, y₁) of the block sits at (256·t + y₀, y₁). A window whose block is its whole array holds
  the array itself at every point. The blocks of an output array cover it: row r is in the block of point r / 256.
-/
import proofs.«116847_g8323646620422_cont_9to1_m_1182_26_alg».proof.Proof.Gen.KernelIdeal.Points
import Idealize.ShloMosaic.Lib.Pipeline.Value
import Idealize.ShloMosaic.Lib.ValueIdx

noncomputable section

namespace Cert.KernelIdeal.Cover

open Idealize.ShloMosaic Idealize.ShloMosaic.TcCoe Idealize.SL.Sem Idealize.ShloMosaic.ValueIdx
open Cert.KernelIdeal Cert.KernelIdeal.Gen

/-! ## Stage 1 -/

/-- The grid has sixteen points. -/
theorem N0 : cfg0.N = 16 := by decide

theorem lt0 (t : Fin cfg0.N) : t.val < 16 := Nat.lt_of_lt_of_eq t.isLt N0

/-- The row of the array that row y of point t's block is. -/
abbrev row0 (t : Fin cfg0.N) (y : Fin 256) : Fin 4096 := ⟨256 * t.val + y.val, by have := lt0 t; omega⟩

/-- Window 0 moves one row block per point and stays at column block 0. -/
theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Element y of window 0's block at point t sits in the array at row 256·t + y₀, column y₁. -/
theorem emb0_0 (t : Fin cfg0.N) (y : S256x4096.Idx) :
    (((cfg0.win 0).blk t).view.emb y : S4096x4096.Idx) = ix2 (row0 t (y 0)) (y 1) := by
  obtain ⟨e0, e1⟩ := idx0_0 t
  funext a
  apply Fin.ext
  match a with
  | ⟨0, _⟩ =>
    show win0_0.index t (0 : Fin 2) * 256 + 1 * (y 0).val = 256 * t.val + (y 0).val
    omega
  | ⟨1, _⟩ =>
    show win0_0.index t (1 : Fin 2) * 4096 + 1 * (y 1).val = (y 1).val
    omega

/-- Window 1 moves one row block per point and stays at column block 0. -/
theorem idx0_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Element y of window 1's block at point t sits in the array at row 256·t + y₀, column y₁. -/
theorem emb0_1 (t : Fin cfg0.N) (y : S256x4096.Idx) :
    (((cfg0.win 1).blk t).view.emb y : S4096x4096.Idx) = ix2 (row0 t (y 0)) (y 1) := by
  obtain ⟨e0, e1⟩ := idx0_1 t
  funext a
  apply Fin.ext
  match a with
  | ⟨0, _⟩ =>
    show win0_1.index t (0 : Fin 2) * 256 + 1 * (y 0).val = 256 * t.val + (y 0).val
    omega
  | ⟨1, _⟩ =>
    show win0_1.index t (1 : Fin 2) * 4096 + 1 * (y 1).val = (y 1).val
    omega

/-- Window 8 moves one row block per point and stays at column block 0. -/
theorem idx0_8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)

/-- Element y of window 8's block at point t sits in the array at row 256·t + y₀, column y₁. -/
theorem emb0_8 (t : Fin cfg0.N) (y : S256x256.Idx) :
    (((cfg0.win 8).blk t).view.emb y : S4096x256.Idx) = ix2 (row0 t (y 0)) (y 1) := by
  obtain ⟨e0, e1⟩ := idx0_8 t
  funext a
  apply Fin.ext
  match a with
  | ⟨0, _⟩ =>
    show win0_8.index t (0 : Fin 2) * 256 + 1 * (y 0).val = 256 * t.val + (y 0).val
    omega
  | ⟨1, _⟩ =>
    show win0_8.index t (1 : Fin 2) * 256 + 1 * (y 1).val = (y 1).val
    omega

/-- Window 9 moves one row block per point and stays at column block 0. -/
theorem idx0_9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

/-- Element y of window 9's block at point t sits in the array at row 256·t + y₀, column y₁. -/
theorem emb0_9 (t : Fin cfg0.N) (y : S256x256.Idx) :
    (((cfg0.win 9).blk t).view.emb y : S4096x256.Idx) = ix2 (row0 t (y 0)) (y 1) := by
  obtain ⟨e0, e1⟩ := idx0_9 t
  funext a
  apply Fin.ext
  match a with
  | ⟨0, _⟩ =>
    show win0_9.index t (0 : Fin 2) * 256 + 1 * (y 0).val = 256 * t.val + (y 0).val
    omega
  | ⟨1, _⟩ =>
    show win0_9.index t (1 : Fin 2) * 256 + 1 * (y 1).val = (y 1).val
    omega

/-- Window 2 stays at block (0, 0): its block is its whole array. -/
theorem idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Element y of window 2's block sits in the array at y. -/
theorem emb0_2 (t : Fin cfg0.N) (y : S4096x256.Idx) :
    (((cfg0.win 2).blk t).view.emb y : S4096x256.Idx) = y := by
  obtain ⟨e0, e1⟩ := idx0_2 t
  funext a
  apply Fin.ext
  match a with
  | ⟨0, _⟩ =>
    show win0_2.index t (0 : Fin 2) * 4096 + 1 * (y 0).val = (y 0).val
    omega
  | ⟨1, _⟩ =>
    show win0_2.index t (1 : Fin 2) * 256 + 1 * (y 1).val = (y 1).val
    omega

/-- Window 3 stays at block (0, 0): its block is its whole array. -/
theorem idx0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Element y of window 3's block sits in the array at y. -/
theorem emb0_3 (t : Fin cfg0.N) (y : S4096x256.Idx) :
    (((cfg0.win 3).blk t).view.emb y : S4096x256.Idx) = y := by
  obtain ⟨e0, e1⟩ := idx0_3 t
  funext a
  apply Fin.ext
  match a with
  | ⟨0, _⟩ =>
    show win0_3.index t (0 : Fin 2) * 4096 + 1 * (y 0).val = (y 0).val
    omega
  | ⟨1, _⟩ =>
    show win0_3.index t (1 : Fin 2) * 256 + 1 * (y 1).val = (y 1).val
    omega

/-- Window 4 stays at block (0, 0): its block is its whole array. -/
theorem idx0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Element y of window 4's block sits in the array at y. -/
theorem emb0_4 (t : Fin cfg0.N) (y : S256x256.Idx) :
    (((cfg0.win 4).blk t).view.emb y : S256x256.Idx) = y := by
  obtain ⟨e0, e1⟩ := idx0_4 t
  funext a
  apply Fin.ext
  match a with
  | ⟨0, _⟩ =>
    show win0_4.index t (0 : Fin 2) * 256 + 1 * (y 0).val = (y 0).val
    omega
  | ⟨1, _⟩ =>
    show win0_4.index t (1 : Fin 2) * 256 + 1 * (y 1).val = (y 1).val
    omega

/-- Window 5 stays at block (0, 0): its block is its whole array. -/
theorem idx0_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Element y of window 5's block sits in the array at y. -/
theorem emb0_5 (t : Fin cfg0.N) (y : S1x256.Idx) :
    (((cfg0.win 5).blk t).view.emb y : S1x256.Idx) = y := by
  obtain ⟨e0, e1⟩ := idx0_5 t
  funext a
  apply Fin.ext
  match a with
  | ⟨0, _⟩ =>
    show win0_5.index t (0 : Fin 2) * 1 + 1 * (y 0).val = (y 0).val
    omega
  | ⟨1, _⟩ =>
    show win0_5.index t (1 : Fin 2) * 256 + 1 * (y 1).val = (y 1).val
    omega

/-- Window 6 stays at block (0, 0): its block is its whole array. -/
theorem idx0_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Element y of window 6's block sits in the array at y. -/
theorem emb0_6 (t : Fin cfg0.N) (y : S256x256.Idx) :
    (((cfg0.win 6).blk t).view.emb y : S256x256.Idx) = y := by
  obtain ⟨e0, e1⟩ := idx0_6 t
  funext a
  apply Fin.ext
  match a with
  | ⟨0, _⟩ =>
    show win0_6.index t (0 : Fin 2) * 256 + 1 * (y 0).val = (y 0).val
    omega
  | ⟨1, _⟩ =>
    show win0_6.index t (1 : Fin 2) * 256 + 1 * (y 1).val = (y 1).val
    omega

/-- Window 7 stays at block (0, 0): its block is its whole array. -/
theorem idx0_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- Element y of window 7's block sits in the array at y. -/
theorem emb0_7 (t : Fin cfg0.N) (y : S1x256.Idx) :
    (((cfg0.win 7).blk t).view.emb y : S1x256.Idx) = y := by
  obtain ⟨e0, e1⟩ := idx0_7 t
  funext a
  apply Fin.ext
  match a with
  | ⟨0, _⟩ =>
    show win0_7.index t (0 : Fin 2) * 1 + 1 * (y 0).val = (y 0).val
    omega
  | ⟨1, _⟩ =>
    show win0_7.index t (1 : Fin 2) * 256 + 1 * (y 1).val = (y 1).val
    omega

/-- An index of output window 8's array is in point t's block iff its row is among the block's 256. -/
theorem mem_blk0_8 (t : Fin cfg0.N) (i : S4096x256.Idx) :
    i ∈ ((cfg0.win 8).blk t).view.set ↔ 256 * t.val ≤ (i 0).val ∧ (i 0).val < 256 * t.val + 256 := by
  show i ∈ ((View.whole main_v18_0).slice (win0_8.rect t)).set ↔ _
  rw [View.set_slice_whole, Rect.mem_set_unit]
  obtain ⟨e0, e1⟩ := idx0_8 t
  constructor
  · intro h
    have h0 : win0_8.index t (0 : Fin 2) * 256 ≤ (i 0).val ∧ (i 0).val < win0_8.index t (0 : Fin 2) * 256 + 256 := h 0
    omega
  · intro h a
    match a with
    | ⟨0, _⟩ =>
      show win0_8.index t (0 : Fin 2) * 256 ≤ (i 0).val ∧ (i 0).val < win0_8.index t (0 : Fin 2) * 256 + 256
      omega
    | ⟨1, _⟩ =>
      show win0_8.index t (1 : Fin 2) * 256 ≤ (i 1).val ∧ (i 1).val < win0_8.index t (1 : Fin 2) * 256 + 256
      have : (i 1).val < 256 := (i 1).isLt
      omega

/-- Every index of output window 8's array is in some point's block, and every point writes its block back. -/
theorem cover0_8 (i : S4096x256.Idx) :
    ∃ t : Fin cfg0.N, (cfg0.win 8).flush t = true ∧ i ∈ ((cfg0.win 8).blk t).view.set := by
  have hi : (i 0).val < 4096 := (i 0).isLt
  refine ⟨⟨(i 0).val / 256, by rw [N0]; omega⟩, flush0_8 _, ?_⟩
  rw [mem_blk0_8]
  show 256 * ((i 0).val / 256) ≤ (i 0).val ∧ (i 0).val < 256 * ((i 0).val / 256) + 256
  omega

/-- An index of output window 9's array is in point t's block iff its row is among the block's 256. -/
theorem mem_blk0_9 (t : Fin cfg0.N) (i : S4096x256.Idx) :
    i ∈ ((cfg0.win 9).blk t).view.set ↔ 256 * t.val ≤ (i 0).val ∧ (i 0).val < 256 * t.val + 256 := by
  show i ∈ ((View.whole main_v18_1).slice (win0_9.rect t)).set ↔ _
  rw [View.set_slice_whole, Rect.mem_set_unit]
  obtain ⟨e0, e1⟩ := idx0_9 t
  constructor
  · intro h
    have h0 : win0_9.index t (0 : Fin 2) * 256 ≤ (i 0).val ∧ (i 0).val < win0_9.index t (0 : Fin 2) * 256 + 256 := h 0
    omega
  · intro h a
    match a with
    | ⟨0, _⟩ =>
      show win0_9.index t (0 : Fin 2) * 256 ≤ (i 0).val ∧ (i 0).val < win0_9.index t (0 : Fin 2) * 256 + 256
      omega
    | ⟨1, _⟩ =>
      show win0_9.index t (1 : Fin 2) * 256 ≤ (i 1).val ∧ (i 1).val < win0_9.index t (1 : Fin 2) * 256 + 256
      have : (i 1).val < 256 := (i 1).isLt
      omega

/-- Every index of output window 9's array is in some point's block, and every point writes its block back. -/
theorem cover0_9 (i : S4096x256.Idx) :
    ∃ t : Fin cfg0.N, (cfg0.win 9).flush t = true ∧ i ∈ ((cfg0.win 9).blk t).view.set := by
  have hi : (i 0).val < 4096 := (i 0).isLt
  refine ⟨⟨(i 0).val / 256, by rw [N0]; omega⟩, flush0_9 _, ?_⟩
  rw [mem_blk0_9]
  show 256 * ((i 0).val / 256) ≤ (i 0).val ∧ (i 0).val < 256 * ((i 0).val / 256) + 256
  omega

/-! ## Stage 2 -/

/-- The grid has sixteen points. -/
theorem N1 : cfg1.N = 16 := by decide

theorem lt1 (t : Fin cfg1.N) : t.val < 16 := Nat.lt_of_lt_of_eq t.isLt N1

/-- The row of the array that row y of point t's block is. -/
abbrev row1 (t : Fin cfg1.N) (y : Fin 256) : Fin 4096 := ⟨256 * t.val + y.val, by have := lt1 t; omega⟩

/-- Window 0 moves one row block per point and stays at column block 0. -/
theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- Element y of window 0's block at point t sits in the array at row 256·t + y₀, column y₁. -/
theorem emb1_0 (t : Fin cfg1.N) (y : S256x4096.Idx) :
    (((cfg1.win 0).blk t).view.emb y : S4096x4096.Idx) = ix2 (row1 t (y 0)) (y 1) := by
  obtain ⟨e0, e1⟩ := idx1_0 t
  funext a
  apply Fin.ext
  match a with
  | ⟨0, _⟩ =>
    show win1_0.index t (0 : Fin 2) * 256 + 1 * (y 0).val = 256 * t.val + (y 0).val
    omega
  | ⟨1, _⟩ =>
    show win1_0.index t (1 : Fin 2) * 4096 + 1 * (y 1).val = (y 1).val
    omega

/-- Window 1 moves one row block per point and stays at column block 0. -/
theorem idx1_1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)

/-- Element y of window 1's block at point t sits in the array at row 256·t + y₀, column y₁. -/
theorem emb1_1 (t : Fin cfg1.N) (y : S256x4096.Idx) :
    (((cfg1.win 1).blk t).view.emb y : S4096x4096.Idx) = ix2 (row1 t (y 0)) (y 1) := by
  obtain ⟨e0, e1⟩ := idx1_1 t
  funext a
  apply Fin.ext
  match a with
  | ⟨0, _⟩ =>
    show win1_1.index t (0 : Fin 2) * 256 + 1 * (y 0).val = 256 * t.val + (y 0).val
    omega
  | ⟨1, _⟩ =>
    show win1_1.index t (1 : Fin 2) * 4096 + 1 * (y 1).val = (y 1).val
    omega

/-- Window 4 moves one row block per point and stays at column block 0. -/
theorem idx1_4 : ∀ t : Fin cfg1.N, win1_4.index t (0 : Fin 2) = t.val ∧ win1_4.index t (1 : Fin 2) = 0 :=
  (by decide +kernel : ∀ t : Fin grid1.N, win1_4.index t (0 : Fin 2) = t.val ∧ win1_4.index t (1 : Fin 2) = 0)

/-- Element y of window 4's block at point t sits in the array at row 256·t + y₀, column y₁. -/
theorem emb1_4 (t : Fin cfg1.N) (y : S256x256.Idx) :
    (((cfg1.win 4).blk t).view.emb y : S4096x256.Idx) = ix2 (row1 t (y 0)) (y 1) := by
  obtain ⟨e0, e1⟩ := idx1_4 t
  funext a
  apply Fin.ext
  match a with
  | ⟨0, _⟩ =>
    show win1_4.index t (0 : Fin 2) * 256 + 1 * (y 0).val = 256 * t.val + (y 0).val
    omega
  | ⟨1, _⟩ =>
    show win1_4.index t (1 : Fin 2) * 256 + 1 * (y 1).val = (y 1).val
    omega

/-- Window 5 moves one row block per point and stays at column block 0. -/
theorem idx1_5 : ∀ t : Fin cfg1.N, win1_5.index t (0 : Fin 2) = t.val ∧ win1_5.index t (1 : Fin 2) = 0 :=
  (by decide +kernel : ∀ t : Fin grid1.N, win1_5.index t (0 : Fin 2) = t.val ∧ win1_5.index t (1 : Fin 2) = 0)

/-- Element y of window 5's block at point t sits in the array at row 256·t + y₀, column y₁. -/
theorem emb1_5 (t : Fin cfg1.N) (y : S256x256.Idx) :
    (((cfg1.win 5).blk t).view.emb y : S4096x256.Idx) = ix2 (row1 t (y 0)) (y 1) := by
  obtain ⟨e0, e1⟩ := idx1_5 t
  funext a
  apply Fin.ext
  match a with
  | ⟨0, _⟩ =>
    show win1_5.index t (0 : Fin 2) * 256 + 1 * (y 0).val = 256 * t.val + (y 0).val
    omega
  | ⟨1, _⟩ =>
    show win1_5.index t (1 : Fin 2) * 256 + 1 * (y 1).val = (y 1).val
    omega

/-- Window 16 moves one row block per point and stays at column block 0. -/
theorem idx1_16 : ∀ t : Fin cfg1.N, win1_16.index t (0 : Fin 2) = t.val ∧ win1_16.index t (1 : Fin 2) = 0 :=
  (by decide +kernel : ∀ t : Fin grid1.N, win1_16.index t (0 : Fin 2) = t.val ∧ win1_16.index t (1 : Fin 2) = 0)

/-- Element y of window 16's block at point t sits in the array at row 256·t + y₀, column y₁. -/
theorem emb1_16 (t : Fin cfg1.N) (y : S256x256.Idx) :
    (((cfg1.win 16).blk t).view.emb y : S4096x256.Idx) = ix2 (row1 t (y 0)) (y 1) := by
  obtain ⟨e0, e1⟩ := idx1_16 t
  funext a
  apply Fin.ext
  match a with
  | ⟨0, _⟩ =>
    show win1_16.index t (0 : Fin 2) * 256 + 1 * (y 0).val = 256 * t.val + (y 0).val
    omega
  | ⟨1, _⟩ =>
    show win1_16.index t (1 : Fin 2) * 256 + 1 * (y 1).val = (y 1).val
    omega

/-- Window 2 stays at block (0, 0): its block is its whole array. -/
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)

/-- Element y of window 2's block sits in the array at y. -/
theorem emb1_2 (t : Fin cfg1.N) (y : S4096x256.Idx) :
    (((cfg1.win 2).blk t).view.emb y : S4096x256.Idx) = y := by
  obtain ⟨e0, e1⟩ := idx1_2 t
  funext a
  apply Fin.ext
  match a with
  | ⟨0, _⟩ =>
    show win1_2.index t (0 : Fin 2) * 4096 + 1 * (y 0).val = (y 0).val
    omega
  | ⟨1, _⟩ =>
    show win1_2.index t (1 : Fin 2) * 256 + 1 * (y 1).val = (y 1).val
    omega

/-- Window 3 stays at block (0, 0): its block is its whole array. -/
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)

/-- Element y of window 3's block sits in the array at y. -/
theorem emb1_3 (t : Fin cfg1.N) (y : S4096x256.Idx) :
    (((cfg1.win 3).blk t).view.emb y : S4096x256.Idx) = y := by
  obtain ⟨e0, e1⟩ := idx1_3 t
  funext a
  apply Fin.ext
  match a with
  | ⟨0, _⟩ =>
    show win1_3.index t (0 : Fin 2) * 4096 + 1 * (y 0).val = (y 0).val
    omega
  | ⟨1, _⟩ =>
    show win1_3.index t (1 : Fin 2) * 256 + 1 * (y 1).val = (y 1).val
    omega

/-- Window 6 stays at block (0, 0): its block is its whole array. -/
theorem idx1_6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)

/-- Element y of window 6's block sits in the array at y. -/
theorem emb1_6 (t : Fin cfg1.N) (y : S256x256.Idx) :
    (((cfg1.win 6).blk t).view.emb y : S256x256.Idx) = y := by
  obtain ⟨e0, e1⟩ := idx1_6 t
  funext a
  apply Fin.ext
  match a with
  | ⟨0, _⟩ =>
    show win1_6.index t (0 : Fin 2) * 256 + 1 * (y 0).val = (y 0).val
    omega
  | ⟨1, _⟩ =>
    show win1_6.index t (1 : Fin 2) * 256 + 1 * (y 1).val = (y 1).val
    omega

/-- Window 7 stays at block (0, 0): its block is its whole array. -/
theorem idx1_7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)

/-- Element y of window 7's block sits in the array at y. -/
theorem emb1_7 (t : Fin cfg1.N) (y : S1x256.Idx) :
    (((cfg1.win 7).blk t).view.emb y : S1x256.Idx) = y := by
  obtain ⟨e0, e1⟩ := idx1_7 t
  funext a
  apply Fin.ext
  match a with
  | ⟨0, _⟩ =>
    show win1_7.index t (0 : Fin 2) * 1 + 1 * (y 0).val = (y 0).val
    omega
  | ⟨1, _⟩ =>
    show win1_7.index t (1 : Fin 2) * 256 + 1 * (y 1).val = (y 1).val
    omega

/-- Window 8 stays at block (0, 0): its block is its whole array. -/
theorem idx1_8 : ∀ t : Fin cfg1.N, win1_8.index t (0 : Fin 2) = 0 ∧ win1_8.index t (1 : Fin 2) = 0 :=
  (by decide +kernel : ∀ t : Fin grid1.N, win1_8.index t (0 : Fin 2) = 0 ∧ win1_8.index t (1 : Fin 2) = 0)

/-- Element y of window 8's block sits in the array at y. -/
theorem emb1_8 (t : Fin cfg1.N) (y : S256x256.Idx) :
    (((cfg1.win 8).blk t).view.emb y : S256x256.Idx) = y := by
  obtain ⟨e0, e1⟩ := idx1_8 t
  funext a
  apply Fin.ext
  match a with
  | ⟨0, _⟩ =>
    show win1_8.index t (0 : Fin 2) * 256 + 1 * (y 0).val = (y 0).val
    omega
  | ⟨1, _⟩ =>
    show win1_8.index t (1 : Fin 2) * 256 + 1 * (y 1).val = (y 1).val
    omega

/-- Window 9 stays at block (0, 0): its block is its whole array. -/
theorem idx1_9 : ∀ t : Fin cfg1.N, win1_9.index t (0 : Fin 2) = 0 ∧ win1_9.index t (1 : Fin 2) = 0 :=
  (by decide +kernel : ∀ t : Fin grid1.N, win1_9.index t (0 : Fin 2) = 0 ∧ win1_9.index t (1 : Fin 2) = 0)

/-- Element y of window 9's block sits in the array at y. -/
theorem emb1_9 (t : Fin cfg1.N) (y : S1x256.Idx) :
    (((cfg1.win 9).blk t).view.emb y : S1x256.Idx) = y := by
  obtain ⟨e0, e1⟩ := idx1_9 t
  funext a
  apply Fin.ext
  match a with
  | ⟨0, _⟩ =>
    show win1_9.index t (0 : Fin 2) * 1 + 1 * (y 0).val = (y 0).val
    omega
  | ⟨1, _⟩ =>
    show win1_9.index t (1 : Fin 2) * 256 + 1 * (y 1).val = (y 1).val
    omega

/-- Window 10 stays at block (0, 0): its block is its whole array. -/
theorem idx1_10 : ∀ t : Fin cfg1.N, win1_10.index t (0 : Fin 2) = 0 ∧ win1_10.index t (1 : Fin 2) = 0 :=
  (by decide +kernel : ∀ t : Fin grid1.N, win1_10.index t (0 : Fin 2) = 0 ∧ win1_10.index t (1 : Fin 2) = 0)

/-- Element y of window 10's block sits in the array at y. -/
theorem emb1_10 (t : Fin cfg1.N) (y : S256x256.Idx) :
    (((cfg1.win 10).blk t).view.emb y : S256x256.Idx) = y := by
  obtain ⟨e0, e1⟩ := idx1_10 t
  funext a
  apply Fin.ext
  match a with
  | ⟨0, _⟩ =>
    show win1_10.index t (0 : Fin 2) * 256 + 1 * (y 0).val = (y 0).val
    omega
  | ⟨1, _⟩ =>
    show win1_10.index t (1 : Fin 2) * 256 + 1 * (y 1).val = (y 1).val
    omega

/-- Window 11 stays at block (0, 0): its block is its whole array. -/
theorem idx1_11 : ∀ t : Fin cfg1.N, win1_11.index t (0 : Fin 2) = 0 ∧ win1_11.index t (1 : Fin 2) = 0 :=
  (by decide +kernel : ∀ t : Fin grid1.N, win1_11.index t (0 : Fin 2) = 0 ∧ win1_11.index t (1 : Fin 2) = 0)

/-- Element y of window 11's block sits in the array at y. -/
theorem emb1_11 (t : Fin cfg1.N) (y : S256x256.Idx) :
    (((cfg1.win 11).blk t).view.emb y : S256x256.Idx) = y := by
  obtain ⟨e0, e1⟩ := idx1_11 t
  funext a
  apply Fin.ext
  match a with
  | ⟨0, _⟩ =>
    show win1_11.index t (0 : Fin 2) * 256 + 1 * (y 0).val = (y 0).val
    omega
  | ⟨1, _⟩ =>
    show win1_11.index t (1 : Fin 2) * 256 + 1 * (y 1).val = (y 1).val
    omega

/-- Window 12 stays at block (0, 0): its block is its whole array. -/
theorem idx1_12 : ∀ t : Fin cfg1.N, win1_12.index t (0 : Fin 2) = 0 ∧ win1_12.index t (1 : Fin 2) = 0 :=
  (by decide +kernel : ∀ t : Fin grid1.N, win1_12.index t (0 : Fin 2) = 0 ∧ win1_12.index t (1 : Fin 2) = 0)

/-- Element y of window 12's block sits in the array at y. -/
theorem emb1_12 (t : Fin cfg1.N) (y : S1x256.Idx) :
    (((cfg1.win 12).blk t).view.emb y : S1x256.Idx) = y := by
  obtain ⟨e0, e1⟩ := idx1_12 t
  funext a
  apply Fin.ext
  match a with
  | ⟨0, _⟩ =>
    show win1_12.index t (0 : Fin 2) * 1 + 1 * (y 0).val = (y 0).val
    omega
  | ⟨1, _⟩ =>
    show win1_12.index t (1 : Fin 2) * 256 + 1 * (y 1).val = (y 1).val
    omega

/-- Window 13 stays at block (0, 0): its block is its whole array. -/
theorem idx1_13 : ∀ t : Fin cfg1.N, win1_13.index t (0 : Fin 2) = 0 ∧ win1_13.index t (1 : Fin 2) = 0 :=
  (by decide +kernel : ∀ t : Fin grid1.N, win1_13.index t (0 : Fin 2) = 0 ∧ win1_13.index t (1 : Fin 2) = 0)

/-- Element y of window 13's block sits in the array at y. -/
theorem emb1_13 (t : Fin cfg1.N) (y : S256x256.Idx) :
    (((cfg1.win 13).blk t).view.emb y : S256x256.Idx) = y := by
  obtain ⟨e0, e1⟩ := idx1_13 t
  funext a
  apply Fin.ext
  match a with
  | ⟨0, _⟩ =>
    show win1_13.index t (0 : Fin 2) * 256 + 1 * (y 0).val = (y 0).val
    omega
  | ⟨1, _⟩ =>
    show win1_13.index t (1 : Fin 2) * 256 + 1 * (y 1).val = (y 1).val
    omega

/-- Window 14 stays at block (0, 0): its block is its whole array. -/
theorem idx1_14 : ∀ t : Fin cfg1.N, win1_14.index t (0 : Fin 2) = 0 ∧ win1_14.index t (1 : Fin 2) = 0 :=
  (by decide +kernel : ∀ t : Fin grid1.N, win1_14.index t (0 : Fin 2) = 0 ∧ win1_14.index t (1 : Fin 2) = 0)

/-- Element y of window 14's block sits in the array at y. -/
theorem emb1_14 (t : Fin cfg1.N) (y : S256x256.Idx) :
    (((cfg1.win 14).blk t).view.emb y : S256x256.Idx) = y := by
  obtain ⟨e0, e1⟩ := idx1_14 t
  funext a
  apply Fin.ext
  match a with
  | ⟨0, _⟩ =>
    show win1_14.index t (0 : Fin 2) * 256 + 1 * (y 0).val = (y 0).val
    omega
  | ⟨1, _⟩ =>
    show win1_14.index t (1 : Fin 2) * 256 + 1 * (y 1).val = (y 1).val
    omega

/-- Window 15 stays at block (0, 0): its block is its whole array. -/
theorem idx1_15 : ∀ t : Fin cfg1.N, win1_15.index t (0 : Fin 2) = 0 ∧ win1_15.index t (1 : Fin 2) = 0 :=
  (by decide +kernel : ∀ t : Fin grid1.N, win1_15.index t (0 : Fin 2) = 0 ∧ win1_15.index t (1 : Fin 2) = 0)

/-- Element y of window 15's block sits in the array at y. -/
theorem emb1_15 (t : Fin cfg1.N) (y : S1x256.Idx) :
    (((cfg1.win 15).blk t).view.emb y : S1x256.Idx) = y := by
  obtain ⟨e0, e1⟩ := idx1_15 t
  funext a
  apply Fin.ext
  match a with
  | ⟨0, _⟩ =>
    show win1_15.index t (0 : Fin 2) * 1 + 1 * (y 0).val = (y 0).val
    omega
  | ⟨1, _⟩ =>
    show win1_15.index t (1 : Fin 2) * 256 + 1 * (y 1).val = (y 1).val
    omega

/-- An index of output window 16's array is in point t's block iff its row is among the block's 256. -/
theorem mem_blk1_16 (t : Fin cfg1.N) (i : S4096x256.Idx) :
    i ∈ ((cfg1.win 16).blk t).view.set ↔ 256 * t.val ≤ (i 0).val ∧ (i 0).val < 256 * t.val + 256 := by
  show i ∈ ((View.whole main_v19).slice (win1_16.rect t)).set ↔ _
  rw [View.set_slice_whole, Rect.mem_set_unit]
  obtain ⟨e0, e1⟩ := idx1_16 t
  constructor
  · intro h
    have h0 : win1_16.index t (0 : Fin 2) * 256 ≤ (i 0).val ∧ (i 0).val < win1_16.index t (0 : Fin 2) * 256 + 256 := h 0
    omega
  · intro h a
    match a with
    | ⟨0, _⟩ =>
      show win1_16.index t (0 : Fin 2) * 256 ≤ (i 0).val ∧ (i 0).val < win1_16.index t (0 : Fin 2) * 256 + 256
      omega
    | ⟨1, _⟩ =>
      show win1_16.index t (1 : Fin 2) * 256 ≤ (i 1).val ∧ (i 1).val < win1_16.index t (1 : Fin 2) * 256 + 256
      have : (i 1).val < 256 := (i 1).isLt
      omega

/-- Every index of output window 16's array is in some point's block, and every point writes its block back. -/
theorem cover1_16 (i : S4096x256.Idx) :
    ∃ t : Fin cfg1.N, (cfg1.win 16).flush t = true ∧ i ∈ ((cfg1.win 16).blk t).view.set := by
  have hi : (i 0).val < 4096 := (i 0).isLt
  refine ⟨⟨(i 0).val / 256, by rw [N1]; omega⟩, flush1_16 _, ?_⟩
  rw [mem_blk1_16]
  show 256 * ((i 0).val / 256) ≤ (i 0).val ∧ (i 0).val < 256 * ((i 0).val / 256) + 256
  omega

end Cert.KernelIdeal.Cover

end
-- ==== Proof.Stage1Value.lean ====
/-
  The first kernel's two results as whole arrays.

  Point t of the sixteen writes back rows 256·t … 256·t + 255 of each result: the rectified
  (adjacency block t · stored product + bias row). Row y of adjacency block t is row 256·t + y of the adjacency; the
  stored product is  features · weight  of the whole arrays, read whole at the first point; the bias row holds the bias.
  So the block written back is the same rows of the layer  leaky (adj · (x · W) + b),  and the sixteen blocks cover
  the array: after the last point each result array holds its layer.
-/
import proofs.«116847_g8323646620422_cont_9to1_m_1182_26_alg».proof.Proof.Stage1Data
import proofs.«116847_g8323646620422_cont_9to1_m_1182_26_alg».proof.Proof.Blocks
import proofs.«116847_g8323646620422_cont_9to1_m_1182_26_alg».proof.Proof.Cover
import proofs.«116847_g8323646620422_cont_9to1_m_1182_26_alg».proof.Proof.Spec

noncomputable section

namespace Cert.KernelIdeal.Stage1Value

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Arith Cert.KernelIdeal.Cover Cert.Products Cert.TwoLayer

variable (V : (c : Dev nD) → (b : Ref sig .tc) → Buf (Elt Ideal) ((c : Thread nD τ).loc b))

/-! ## The blocks the body is handed, as parts of the arrays -/

/-- Row y of the source adjacency's block at point t is row 256·t + y of the adjacency. -/
theorem iblk_0 (c : Dev nD) (t : Fin cfg0.N) (y : Fin 256) (j : Fin 4096) :
    (Stage1.iblk V c 0 t : S256x4096.Idx → EReal) (ix2 y j)
      = (V c main_arg3 : S4096x4096.Idx → EReal) (ix2 (row0 t y) j) := by
  unfold Stage1.iblk
  rw [View.read_apply]
  show (V c main_arg3 : S4096x4096.Idx → EReal) (((cfg0.win 0).blk t).view.emb (ix2 y j)) = _
  rw [emb0_0]
  rfl

/-- Row y of the target adjacency's block at point t is row 256·t + y of the adjacency. -/
theorem iblk_1 (c : Dev nD) (t : Fin cfg0.N) (y : Fin 256) (j : Fin 4096) :
    (Stage1.iblk V c 1 t : S256x4096.Idx → EReal) (ix2 y j)
      = (V c main_arg5 : S4096x4096.Idx → EReal) (ix2 (row0 t y) j) := by
  unfold Stage1.iblk
  rw [View.read_apply]
  show (V c main_arg5 : S4096x4096.Idx → EReal) (((cfg0.win 1).blk t).view.emb (ix2 y j)) = _
  rw [emb0_1]
  rfl

/-- The source features are handed whole. -/
theorem iblk_2 (c : Dev nD) (t : Fin cfg0.N) :
    (Stage1.iblk V c 2 t : S4096x256.Idx → EReal) = (V c main_arg0 : S4096x256.Idx → EReal) := by
  funext y
  unfold Stage1.iblk
  rw [View.read_apply]
  show (V c main_arg0 : S4096x256.Idx → EReal) (((cfg0.win 2).blk t).view.emb y) = _
  rw [emb0_2]

/-- The target features are handed whole. -/
theorem iblk_3 (c : Dev nD) (t : Fin cfg0.N) :
    (Stage1.iblk V c 3 t : S4096x256.Idx → EReal) = (V c main_arg1 : S4096x256.Idx → EReal) := by
  funext y
  unfold Stage1.iblk
  rw [View.read_apply]
  show (V c main_arg1 : S4096x256.Idx → EReal) (((cfg0.win 3).blk t).view.emb y) = _
  rw [emb0_3]

/-- The first weight is handed whole. -/
theorem iblk_4 (c : Dev nD) (t : Fin cfg0.N) :
    (Stage1.iblk V c 4 t : S256x256.Idx → EReal) = (V c main_arg6 : S256x256.Idx → EReal) := by
  funext y
  unfold Stage1.iblk
  rw [View.read_apply]
  show (V c main_arg6 : S256x256.Idx → EReal) (((cfg0.win 4).blk t).view.emb y) = _
  rw [emb0_4]

/-- The first bias row is handed whole. -/
theorem iblk_5 (c : Dev nD) (t : Fin cfg0.N) :
    (Stage1.iblk V c 5 t : S1x256.Idx → EReal) = (V c main_v0 : S1x256.Idx → EReal) := by
  funext y
  unfold Stage1.iblk
  rw [View.read_apply]
  show (V c main_v0 : S1x256.Idx → EReal) (((cfg0.win 5).blk t).view.emb y) = _
  rw [emb0_5]

/-- The second weight is handed whole. -/
theorem iblk_6 (c : Dev nD) (t : Fin cfg0.N) :
    (Stage1.iblk V c 6 t : S256x256.Idx → EReal) = (V c main_arg8 : S256x256.Idx → EReal) := by
  funext y
  unfold Stage1.iblk
  rw [View.read_apply]
  show (V c main_arg8 : S256x256.Idx → EReal) (((cfg0.win 6).blk t).view.emb y) = _
  rw [emb0_6]

/-- The second bias row is handed whole. -/
theorem iblk_7 (c : Dev nD) (t : Fin cfg0.N) :
    (Stage1.iblk V c 7 t : S1x256.Idx → EReal) = (V c main_v1 : S1x256.Idx → EReal) := by
  funext y
  unfold Stage1.iblk
  rw [View.read_apply]
  show (V c main_v1 : S1x256.Idx → EReal) (((cfg0.win 7).blk t).view.emb y) = _
  rw [emb0_7]

/-! ## The two stored products -/

/-- The source path's stored product is  features · weight  of the whole arrays. -/
theorem sup1_eq (c : Dev nD) :
    Stage1.sup1 V c = matProd (V c main_arg0 : S4096x256.Idx → EReal) (V c main_arg6 : S256x256.Idx → EReal) := by
  unfold Stage1.sup1
  rw [iblk_2, iblk_4, k0_pay1_eq]

/-- The target path's stored product likewise. -/
theorem sup2_eq (c : Dev nD) :
    Stage1.sup2 V c = matProd (V c main_arg1 : S4096x256.Idx → EReal) (V c main_arg8 : S256x256.Idx → EReal) := by
  unfold Stage1.sup2
  rw [iblk_3, iblk_6, k0_pay2_eq]

/-! ## What each point writes back, and the arrays after the last point -/

/-- Point t writes back block t of the source path's first layer. -/
theorem flushed_8 (c : Dev nD) (b1 : Vx 256)
    (hb1 : ∀ q : Fin 256, (V c main_v0 : S1x256.Idx → EReal) (ix2 (0 : Fin 1) q) = b1 (ix1 q)) (t : Fin cfg0.N) :
    (Stage1.dat V c).flushed 8 t = ((cfg0.win 8).blk t).view.read (Elt Ideal)
      (layer (V c main_arg3 : S4096x4096.Idx → EReal) (V c main_arg0 : S4096x256.Idx → EReal)
        (V c main_arg6 : S256x256.Idx → EReal) b1 : S4096x256.Idx → EReal) := by
  show (cfg0.win 8).cut (grid0.coords t) ((Stage1.dat V c).after 8 t) = _
  rw [Stage1.after_8]
  funext j
  obtain ⟨y, q, rfl⟩ : ∃ (y q : Fin 256), j = ix2 y q := ⟨j 0, j 1, eq_ix2 j⟩
  show k0_pay3 (F := Ideal) (Stage1.iblk V c 0 t) (Stage1.sup1 V c) (Stage1.iblk V c 5 t) (ix2 y q)
    = layer (V c main_arg3 : S4096x4096.Idx → EReal) (V c main_arg0 : S4096x256.Idx → EReal)
        (V c main_arg6 : S256x256.Idx → EReal) b1 (((cfg0.win 8).blk t).view.emb (ix2 y q))
  rw [emb0_8]
  exact k0_pay3_block _ _ _ b1 _ _ _ y (row0 t y) q (fun j => iblk_0 V c t y j) (sup1_eq V c)
    ((congrFun (iblk_5 V c t) _).trans (hb1 q))

/-- Point t writes back block t of the target path's first layer. -/
theorem flushed_9 (c : Dev nD) (b2 : Vx 256)
    (hb2 : ∀ q : Fin 256, (V c main_v1 : S1x256.Idx → EReal) (ix2 (0 : Fin 1) q) = b2 (ix1 q)) (t : Fin cfg0.N) :
    (Stage1.dat V c).flushed 9 t = ((cfg0.win 9).blk t).view.read (Elt Ideal)
      (layer (V c main_arg5 : S4096x4096.Idx → EReal) (V c main_arg1 : S4096x256.Idx → EReal)
        (V c main_arg8 : S256x256.Idx → EReal) b2 : S4096x256.Idx → EReal) := by
  show (cfg0.win 9).cut (grid0.coords t) ((Stage1.dat V c).after 9 t) = _
  rw [Stage1.after_9]
  funext j
  obtain ⟨y, q, rfl⟩ : ∃ (y q : Fin 256), j = ix2 y q := ⟨j 0, j 1, eq_ix2 j⟩
  show k0_pay4 (F := Ideal) (Stage1.iblk V c 1 t) (Stage1.sup2 V c) (Stage1.iblk V c 7 t) (ix2 y q)
    = layer (V c main_arg5 : S4096x4096.Idx → EReal) (V c main_arg1 : S4096x256.Idx → EReal)
        (V c main_arg8 : S256x256.Idx → EReal) b2 (((cfg0.win 9).blk t).view.emb (ix2 y q))
  rw [emb0_9]
  exact k0_pay4_block _ _ _ b2 _ _ _ y (row0 t y) q (fun j => iblk_1 V c t y j) (sup2_eq V c)
    ((congrFun (iblk_7 V c t) _).trans (hb2 q))

/-- THE SOURCE PATH'S FIRST LAYER: after the last point the first result array holds  leaky (adj · (x · W1) + b1). -/
theorem first_result (c : Dev nD) (b1 : Vx 256)
    (hb1 : ∀ q : Fin 256, (V c main_v0 : S1x256.Idx → EReal) (ix2 (0 : Fin 1) q) = b1 (ix1 q)) :
    ((Stage1.dat V c).arrAt 8 cfg0.N : S4096x256.Idx → EReal)
      = layer (V c main_arg3 : S4096x4096.Idx → EReal) (V c main_arg0 : S4096x256.Idx → EReal)
          (V c main_arg6 : S256x256.Idx → EReal) b1 :=
  (Stage1.dat V c).arrAt_eq_of_cover 8 _ (fun t _ => flushed_8 V c b1 hb1 t) cover0_8

/-- THE TARGET PATH'S FIRST LAYER: the second result array holds  leaky (adj · (x · W2) + b2). -/
theorem second_result (c : Dev nD) (b2 : Vx 256)
    (hb2 : ∀ q : Fin 256, (V c main_v1 : S1x256.Idx → EReal) (ix2 (0 : Fin 1) q) = b2 (ix1 q)) :
    ((Stage1.dat V c).arrAt 9 cfg0.N : S4096x256.Idx → EReal)
      = layer (V c main_arg5 : S4096x4096.Idx → EReal) (V c main_arg1 : S4096x256.Idx → EReal)
          (V c main_arg8 : S256x256.Idx → EReal) b2 :=
  (Stage1.dat V c).arrAt_eq_of_cover 9 _ (fun t _ => flushed_9 V c b2 hb2 t) cover0_9

end Cert.KernelIdeal.Stage1Value

end
-- ==== Proof.Stage2Value.lean ====
/-
  The second kernel's result as a whole array.

  Point t of the sixteen writes back rows 256·t … 256·t + 255 of the output: both paths' second layers on that row
  block (adjacency block t · stored product + bias row, rectified), each times the left half of its head weight, plus
  the path's feature block times the right half, plus the head bias; then half the positive part of one head plus half
  the positive part of the other. Row y of a row block is row 256·t + y of its array; the stored products are the first
  layers (whole) times the second weights; the weights, head halves and bias rows are handed whole. So the block
  written back is the same rows of the whole-array result, and the sixteen blocks cover the array.
-/
import proofs.«116847_g8323646620422_cont_9to1_m_1182_26_alg».proof.Proof.Stage2Data
import proofs.«116847_g8323646620422_cont_9to1_m_1182_26_alg».proof.Proof.Blocks
import proofs.«116847_g8323646620422_cont_9to1_m_1182_26_alg».proof.Proof.Cover
import proofs.«116847_g8323646620422_cont_9to1_m_1182_26_alg».proof.Proof.Spec

noncomputable section

namespace Cert.KernelIdeal.Stage2Value

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Arith Cert.KernelIdeal.Cover Cert.Products Cert.TwoLayer

variable (V : (c : Dev nD) → (b : Ref sig .tc) → Buf (Elt Ideal) ((c : Thread nD τ).loc b))

/-! ## The blocks the body is handed, as parts of the arrays -/

/-- Row y of the block of the source path's second adjacency at point t is row 256·t + y of the array. -/
theorem iblk_0 (c : Dev nD) (t : Fin cfg1.N) (y : Fin 256) (j : Fin 4096) :
    (Stage2.iblk V c 0 t : S256x4096.Idx → EReal) (ix2 y j)
      = (V c main_arg2 : S4096x4096.Idx → EReal) (ix2 (row1 t y) j) := by
  unfold Stage2.iblk
  rw [View.read_apply]
  show (V c main_arg2 : S4096x4096.Idx → EReal) (((cfg1.win 0).blk t).view.emb (ix2 y j)) = _
  rw [emb1_0]
  rfl

/-- Row y of the block of the target path's second adjacency at point t is row 256·t + y of the array. -/
theorem iblk_1 (c : Dev nD) (t : Fin cfg1.N) (y : Fin 256) (j : Fin 4096) :
    (Stage2.iblk V c 1 t : S256x4096.Idx → EReal) (ix2 y j)
      = (V c main_arg4 : S4096x4096.Idx → EReal) (ix2 (row1 t y) j) := by
  unfold Stage2.iblk
  rw [View.read_apply]
  show (V c main_arg4 : S4096x4096.Idx → EReal) (((cfg1.win 1).blk t).view.emb (ix2 y j)) = _
  rw [emb1_1]
  rfl

/-- Row y of the block of the source features at point t is row 256·t + y of the array. -/
theorem iblk_4 (c : Dev nD) (t : Fin cfg1.N) (y : Fin 256) (j : Fin 256) :
    (Stage2.iblk V c 4 t : S256x256.Idx → EReal) (ix2 y j)
      = (V c main_arg0 : S4096x256.Idx → EReal) (ix2 (row1 t y) j) := by
  unfold Stage2.iblk
  rw [View.read_apply]
  show (V c main_arg0 : S4096x256.Idx → EReal) (((cfg1.win 4).blk t).view.emb (ix2 y j)) = _
  rw [emb1_4]
  rfl

/-- Row y of the block of the target features at point t is row 256·t + y of the array. -/
theorem iblk_5 (c : Dev nD) (t : Fin cfg1.N) (y : Fin 256) (j : Fin 256) :
    (Stage2.iblk V c 5 t : S256x256.Idx → EReal) (ix2 y j)
      = (V c main_arg1 : S4096x256.Idx → EReal) (ix2 (row1 t y) j) := by
  unfold Stage2.iblk
  rw [View.read_apply]
  show (V c main_arg1 : S4096x256.Idx → EReal) (((cfg1.win 5).blk t).view.emb (ix2 y j)) = _
  rw [emb1_5]
  rfl

/-- The source path's first layer is handed whole. -/
theorem iblk_2 (c : Dev nD) (t : Fin cfg1.N) :
    (Stage2.iblk V c 2 t : S4096x256.Idx → EReal) = (V c main_v18_0 : S4096x256.Idx → EReal) := by
  funext y
  unfold Stage2.iblk
  rw [View.read_apply]
  show (V c main_v18_0 : S4096x256.Idx → EReal) (((cfg1.win 2).blk t).view.emb y) = _
  rw [emb1_2]

/-- The target path's first layer is handed whole. -/
theorem iblk_3 (c : Dev nD) (t : Fin cfg1.N) :
    (Stage2.iblk V c 3 t : S4096x256.Idx → EReal) = (V c main_v18_1 : S4096x256.Idx → EReal) := by
  funext y
  unfold Stage2.iblk
  rw [View.read_apply]
  show (V c main_v18_1 : S4096x256.Idx → EReal) (((cfg1.win 3).blk t).view.emb y) = _
  rw [emb1_3]

/-- The third weight is handed whole. -/
theorem iblk_6 (c : Dev nD) (t : Fin cfg1.N) :
    (Stage2.iblk V c 6 t : S256x256.Idx → EReal) = (V c main_arg10 : S256x256.Idx → EReal) := by
  funext y
  unfold Stage2.iblk
  rw [View.read_apply]
  show (V c main_arg10 : S256x256.Idx → EReal) (((cfg1.win 6).blk t).view.emb y) = _
  rw [emb1_6]

/-- The third bias row is handed whole. -/
theorem iblk_7 (c : Dev nD) (t : Fin cfg1.N) :
    (Stage2.iblk V c 7 t : S1x256.Idx → EReal) = (V c main_v2 : S1x256.Idx → EReal) := by
  funext y
  unfold Stage2.iblk
  rw [View.read_apply]
  show (V c main_v2 : S1x256.Idx → EReal) (((cfg1.win 7).blk t).view.emb y) = _
  rw [emb1_7]

/-- The fourth weight is handed whole. -/
theorem iblk_8 (c : Dev nD) (t : Fin cfg1.N) :
    (Stage2.iblk V c 8 t : S256x256.Idx → EReal) = (V c main_arg12 : S256x256.Idx → EReal) := by
  funext y
  unfold Stage2.iblk
  rw [View.read_apply]
  show (V c main_arg12 : S256x256.Idx → EReal) (((cfg1.win 8).blk t).view.emb y) = _
  rw [emb1_8]

/-- The fourth bias row is handed whole. -/
theorem iblk_9 (c : Dev nD) (t : Fin cfg1.N) :
    (Stage2.iblk V c 9 t : S1x256.Idx → EReal) = (V c main_v3 : S1x256.Idx → EReal) := by
  funext y
  unfold Stage2.iblk
  rw [View.read_apply]
  show (V c main_v3 : S1x256.Idx → EReal) (((cfg1.win 9).blk t).view.emb y) = _
  rw [emb1_9]

/-- The left half of the source head weight is handed whole. -/
theorem iblk_10 (c : Dev nD) (t : Fin cfg1.N) :
    (Stage2.iblk V c 10 t : S256x256.Idx → EReal) = (V c main_v8 : S256x256.Idx → EReal) := by
  funext y
  unfold Stage2.iblk
  rw [View.read_apply]
  show (V c main_v8 : S256x256.Idx → EReal) (((cfg1.win 10).blk t).view.emb y) = _
  rw [emb1_10]

/-- The right half of the source head weight is handed whole. -/
theorem iblk_11 (c : Dev nD) (t : Fin cfg1.N) :
    (Stage2.iblk V c 11 t : S256x256.Idx → EReal) = (V c main_v11 : S256x256.Idx → EReal) := by
  funext y
  unfold Stage2.iblk
  rw [View.read_apply]
  show (V c main_v11 : S256x256.Idx → EReal) (((cfg1.win 11).blk t).view.emb y) = _
  rw [emb1_11]

/-- The source head's bias row is handed whole. -/
theorem iblk_12 (c : Dev nD) (t : Fin cfg1.N) :
    (Stage2.iblk V c 12 t : S1x256.Idx → EReal) = (V c main_v4 : S1x256.Idx → EReal) := by
  funext y
  unfold Stage2.iblk
  rw [View.read_apply]
  show (V c main_v4 : S1x256.Idx → EReal) (((cfg1.win 12).blk t).view.emb y) = _
  rw [emb1_12]

/-- The left half of the target head weight is handed whole. -/
theorem iblk_13 (c : Dev nD) (t : Fin cfg1.N) :
    (Stage2.iblk V c 13 t : S256x256.Idx → EReal) = (V c main_v14 : S256x256.Idx → EReal) := by
  funext y
  unfold Stage2.iblk
  rw [View.read_apply]
  show (V c main_v14 : S256x256.Idx → EReal) (((cfg1.win 13).blk t).view.emb y) = _
  rw [emb1_13]

/-- The right half of the target head weight is handed whole. -/
theorem iblk_14 (c : Dev nD) (t : Fin cfg1.N) :
    (Stage2.iblk V c 14 t : S256x256.Idx → EReal) = (V c main_v17 : S256x256.Idx → EReal) := by
  funext y
  unfold Stage2.iblk
  rw [View.read_apply]
  show (V c main_v17 : S256x256.Idx → EReal) (((cfg1.win 14).blk t).view.emb y) = _
  rw [emb1_14]

/-- The target head's bias row is handed whole. -/
theorem iblk_15 (c : Dev nD) (t : Fin cfg1.N) :
    (Stage2.iblk V c 15 t : S1x256.Idx → EReal) = (V c main_v5 : S1x256.Idx → EReal) := by
  funext y
  unfold Stage2.iblk
  rw [View.read_apply]
  show (V c main_v5 : S1x256.Idx → EReal) (((cfg1.win 15).blk t).view.emb y) = _
  rw [emb1_15]

/-! ## The two stored products -/

/-- The source path's stored product is its first layer (whole) times the third weight. -/
theorem sup1_eq (c : Dev nD) :
    Stage2.sup1 V c = matProd (V c main_v18_0 : S4096x256.Idx → EReal) (V c main_arg10 : S256x256.Idx → EReal) := by
  unfold Stage2.sup1
  rw [iblk_2, iblk_6, k1_pay2_eq]

/-- The target path's stored product is its first layer (whole) times the fourth weight. -/
theorem sup2_eq (c : Dev nD) :
    Stage2.sup2 V c = matProd (V c main_v18_1 : S4096x256.Idx → EReal) (V c main_arg12 : S256x256.Idx → EReal) := by
  unfold Stage2.sup2
  rw [iblk_3, iblk_8, k1_pay3_eq]

/-! ## What each point writes back, and the array after the last point -/

section Result

variable (c : Dev nD) (vus vut : Mx 4096 4096) (W1 : Mx 256 256) (b1 : Vx 256) (W2 : Mx 256 256) (b2 : Vx 256)
  (b3 b4 : Vx 256) (Wsu : Mx 256 512) (bsu : Vx 256) (Wtu : Mx 256 512) (btu : Vx 256)

/-- The whole-array result, of the arrays the second kernel is entered from. -/
abbrev G : S4096x256.Idx → EReal :=
  result (V c main_arg0 : S4096x256.Idx → EReal) (V c main_arg1 : S4096x256.Idx → EReal)
    (V c main_arg2 : S4096x4096.Idx → EReal) vus (V c main_arg4 : S4096x4096.Idx → EReal) vut W1 b1 W2 b2
    (V c main_arg10 : S256x256.Idx → EReal) b3 (V c main_arg12 : S256x256.Idx → EReal) b4 Wsu bsu Wtu btu

variable (hh1s : (V c main_v18_0 : S4096x256.Idx → EReal) = layer vus (V c main_arg0 : S4096x256.Idx → EReal) W1 b1)
  (hh1t : (V c main_v18_1 : S4096x256.Idx → EReal) = layer vut (V c main_arg1 : S4096x256.Idx → EReal) W2 b2)
  (hb3 : ∀ q : Fin 256, (V c main_v2 : S1x256.Idx → EReal) (ix2 (0 : Fin 1) q) = b3 (ix1 q))
  (hb4 : ∀ q : Fin 256, (V c main_v3 : S1x256.Idx → EReal) (ix2 (0 : Fin 1) q) = b4 (ix1 q))
  (hbs : ∀ q : Fin 256, (V c main_v4 : S1x256.Idx → EReal) (ix2 (0 : Fin 1) q) = bsu (ix1 q))
  (hbt : ∀ q : Fin 256, (V c main_v5 : S1x256.Idx → EReal) (ix2 (0 : Fin 1) q) = btu (ix1 q))
  (hwsua : (V c main_v8 : S256x256.Idx → EReal) = headL Wsu) (hwsub : (V c main_v11 : S256x256.Idx → EReal) = headR Wsu)
  (hwtua : (V c main_v14 : S256x256.Idx → EReal) = headL Wtu) (hwtub : (V c main_v17 : S256x256.Idx → EReal) = headR Wtu)

include hh1s hh1t hb3 hb4 hbs hbt hwsua hwsub hwtua hwtub

/-- Point t writes back block t of the result. -/
theorem flushed_16 (t : Fin cfg1.N) :
    (Stage2.dat V c).flushed 16 t = ((cfg1.win 16).blk t).view.read (Elt Ideal)
      (G V c vus vut W1 b1 W2 b2 b3 b4 Wsu bsu Wtu btu) := by
  show (cfg1.win 16).cut (grid1.coords t) ((Stage2.dat V c).after 16 t) = _
  rw [Stage2.after_16]
  funext j
  obtain ⟨y, q, rfl⟩ : ∃ (y q : Fin 256), j = ix2 y q := ⟨j 0, j 1, eq_ix2 j⟩
  show k1_pay1 (F := Ideal) (k1_pay4 (F := Ideal) (Stage2.iblk V c 1 t) (Stage2.sup2 V c) (Stage2.iblk V c 9 t))
      (k1_pay5 (F := Ideal) (Stage2.iblk V c 0 t) (Stage2.sup1 V c) (Stage2.iblk V c 7 t) (Stage2.iblk V c 10 t))
      (Stage2.iblk V c 4 t) (Stage2.iblk V c 11 t) (Stage2.iblk V c 12 t) (Stage2.iblk V c 13 t)
      (Stage2.iblk V c 5 t) (Stage2.iblk V c 14 t) (Stage2.iblk V c 15 t) (ix2 y q)
    = G V c vus vut W1 b1 W2 b2 b3 b4 Wsu bsu Wtu btu (((cfg1.win 16).blk t).view.emb (ix2 y q))
  rw [emb1_16]
  exact k1_pay1_block_result _ _ _ vus _ vut W1 b1 W2 b2 _ b3 _ b4 Wsu bsu Wtu btu
    _ _ _ _ _ _ _ _ _ _ _ _ _ _ y (row1 t y) q
    (fun j => iblk_0 V c t y j) (fun j => iblk_1 V c t y j)
    ((sup1_eq V c).trans (by rw [hh1s])) ((sup2_eq V c).trans (by rw [hh1t]))
    (fun j => (congrFun (iblk_7 V c t) _).trans (hb3 j)) (fun j => (congrFun (iblk_9 V c t) _).trans (hb4 j))
    (fun j => iblk_4 V c t y j) (fun j => iblk_5 V c t y j)
    ((iblk_10 V c t).trans hwsua) ((iblk_11 V c t).trans hwsub) ((iblk_13 V c t).trans hwtua) ((iblk_14 V c t).trans hwtub)
    ((congrFun (iblk_12 V c t) _).trans (hbs q)) ((congrFun (iblk_15 V c t) _).trans (hbt q))

/-- THE RESULT: after the last point the output array holds the whole-array result. -/
theorem result_16 :
    ((Stage2.dat V c).arrAt 16 cfg1.N : S4096x256.Idx → EReal) = G V c vus vut W1 b1 W2 b2 b3 b4 Wsu bsu Wtu btu :=
  (Stage2.dat V c).arrAt_eq_of_cover 16 _
    (fun t _ => flushed_16 V c vus vut W1 b1 W2 b2 b3 b4 Wsu bsu Wtu btu hh1s hh1t hb3 hb4 hbs hbt hwsua hwsub hwtua hwtub t)
    cover1_16

end Result

end Cert.KernelIdeal.Stage2Value

end
-- ==== Proof.HostLines.lean ====
/-
  The host lines before the two calls, read at an index.

  A bias of 256 entries recast as one row of 256 reads, at column q of that row, the bias at q. A head weight
  Wu : [256, 512] cut to its first or last 256 columns, transposed and narrowed (the narrowing is the identity on
  extended reals) is the left or right half  Wu[:, :256]ᵀ,  Wu[:, 256:]ᵀ  of the weight.
-/
import proofs.«116847_g8323646620422_cont_9to1_m_1182_26_alg».proof.Proof.Gen.KernelIdeal.Skeleton
import proofs.«116847_g8323646620422_cont_9to1_m_1182_26_alg».proof.Proof.Spec
import Idealize.ShloMosaic.Lib.ValueLayout

noncomputable section

namespace Cert.KernelIdeal.Arith

open Idealize.ShloMosaic Idealize.ShloMosaic.ValueIdx Cert.Products Cert.TwoLayer Cert.KernelIdeal Cert.KernelIdeal.Gen

/-- The bias recast as a row, at column q, is the bias at q. -/
theorem biasRow_apply (b : Vec Ideal S256 .f32) (q : Fin 256) :
    shapeCast S1x256 b shapeCasts_S256_S1x256 (ix2 (0 : Fin 1) q) = b (ix1 q) :=
  shapeCast_a_1a_apply b shapeCasts_S256_S1x256 0 q

/-- The first 256 columns of a head weight, transposed and narrowed: its left half. -/
theorem headL_host (Wu : Vec Ideal S256x512 .f32) :
    truncf (F := Ideal) .bf16 (transpose S256x256 [1, 0] (extractStridedSlice S256x256 ![0, 0] Wu slices_S256x512_S256x256_0_0)
      transposes_S256x256_S256x256_1_0) bitsLt_bf16_f32 = headL Wu := by
  funext i
  obtain ⟨p, q, rfl⟩ : ∃ (p q : Fin 256), i = ix2 p q := ⟨i 0, i 1, eq_ix2 i⟩
  rw [truncf_apply, transpose_ix2_apply, slice2_axis1_apply 0 Wu slices_S256x512_S256x256_0_0 q p (Fin.castAdd 256 p)
    (by simp)]
  rfl

/-- The last 256 columns of a head weight, transposed and narrowed: its right half. -/
theorem headR_host (Wu : Vec Ideal S256x512 .f32) :
    truncf (F := Ideal) .bf16 (transpose S256x256 [1, 0] (extractStridedSlice S256x256 ![0, 256] Wu slices_S256x512_S256x256_0_256)
      transposes_S256x256_S256x256_1_0) bitsLt_bf16_f32 = headR Wu := by
  funext i
  obtain ⟨p, q, rfl⟩ : ∃ (p q : Fin 256), i = ix2 p q := ⟨i 0, i 1, eq_ix2 i⟩
  rw [truncf_apply, transpose_ix2_apply, slice2_axis1_apply 256 Wu slices_S256x512_S256x256_0_256 q p (Fin.natAdd 256 p)
    (Fin.coe_natAdd 256 p)]
  rfl

end Cert.KernelIdeal.Arith

end
-- ==== Proof.HostValues.lean ====
/-
  What the buffers hold when the first call is entered: the host lines before the two calls, folded over the launch
  memory and read at each reference.

  Six lines recast a bias of 256 entries as one row; twelve lines cut each head weight to its first or last 256 columns,
  transpose the cut and narrow it. No line writes an argument. So on entry every argument buffer holds its launch
  contents, each recast bias holds the bias along its one row, and the four narrowed transposes hold the left and right
  halves  Wu[:, :256]ᵀ,  Wu[:, 256:]ᵀ  of the two head weights.
-/
import proofs.«116847_g8323646620422_cont_9to1_m_1182_26_alg».proof.Proof.HostLines
import proofs.«116847_g8323646620422_cont_9to1_m_1182_26_alg».proof.Proof.Gen.KernelIdeal.Regions

noncomputable section

namespace Cert.KernelIdeal.HostValues

open Idealize.ShloMosaic Idealize.ShloMosaic.TcCoe Idealize.ShloMosaic.StableHlo Idealize.ShloMosaic.ValueIdx Idealize.SL.Sem
  Cert.TwoLayer Cert.KernelIdeal Cert.KernelIdeal.Gen Cert.KernelIdeal.Arith

/-! ## The host lines over any starting contents -/

/-- After the host lines, buffer %0 is the bias %arg7 recast as a row. -/
theorem after_row0 (V : Valuation τ sig (Elt Ideal)) :
    after hostOps0 V (main_v0 : DevRef τ sig)
      = shapeCast S1x256 (V (main_arg7 : DevRef τ sig)) shapeCasts_S256_S1x256 := by
  after_results
  rfl

/-- After the host lines, buffer %1 is the bias %arg9 recast as a row. -/
theorem after_row1 (V : Valuation τ sig (Elt Ideal)) :
    after hostOps0 V (main_v1 : DevRef τ sig)
      = shapeCast S1x256 (V (main_arg9 : DevRef τ sig)) shapeCasts_S256_S1x256 := by
  after_results
  rfl

/-- After the host lines, buffer %2 is the bias %arg11 recast as a row. -/
theorem after_row2 (V : Valuation τ sig (Elt Ideal)) :
    after hostOps0 V (main_v2 : DevRef τ sig)
      = shapeCast S1x256 (V (main_arg11 : DevRef τ sig)) shapeCasts_S256_S1x256 := by
  after_results
  rfl

/-- After the host lines, buffer %3 is the bias %arg13 recast as a row. -/
theorem after_row3 (V : Valuation τ sig (Elt Ideal)) :
    after hostOps0 V (main_v3 : DevRef τ sig)
      = shapeCast S1x256 (V (main_arg13 : DevRef τ sig)) shapeCasts_S256_S1x256 := by
  after_results
  rfl

/-- After the host lines, buffer %4 is the bias %arg15 recast as a row. -/
theorem after_row4 (V : Valuation τ sig (Elt Ideal)) :
    after hostOps0 V (main_v4 : DevRef τ sig)
      = shapeCast S1x256 (V (main_arg15 : DevRef τ sig)) shapeCasts_S256_S1x256 := by
  after_results
  rfl

/-- After the host lines, buffer %5 is the bias %arg17 recast as a row. -/
theorem after_row5 (V : Valuation τ sig (Elt Ideal)) :
    after hostOps0 V (main_v5 : DevRef τ sig)
      = shapeCast S1x256 (V (main_arg17 : DevRef τ sig)) shapeCasts_S256_S1x256 := by
  after_results
  rfl

/-- After the host lines, buffer %8 is the left half of the head weight %arg14. -/
theorem after_half8 (V : Valuation τ sig (Elt Ideal)) :
    (after hostOps0 V (main_v8 : DevRef τ sig) : S256x256.Idx → EReal) = headL (V (main_arg14 : DevRef τ sig)) := by
  after_results
  exact headL_host _

/-- After the host lines, buffer %11 is the right half of the head weight %arg14. -/
theorem after_half11 (V : Valuation τ sig (Elt Ideal)) :
    (after hostOps0 V (main_v11 : DevRef τ sig) : S256x256.Idx → EReal) = headR (V (main_arg14 : DevRef τ sig)) := by
  after_results
  exact headR_host _

/-- After the host lines, buffer %14 is the left half of the head weight %arg16. -/
theorem after_half14 (V : Valuation τ sig (Elt Ideal)) :
    (after hostOps0 V (main_v14 : DevRef τ sig) : S256x256.Idx → EReal) = headL (V (main_arg16 : DevRef τ sig)) := by
  after_results
  exact headL_host _

/-- After the host lines, buffer %17 is the right half of the head weight %arg16. -/
theorem after_half17 (V : Valuation τ sig (Elt Ideal)) :
    (after hostOps0 V (main_v17 : DevRef τ sig) : S256x256.Idx → EReal) = headR (V (main_arg16 : DevRef τ sig)) := by
  after_results
  exact headR_host _

/-! ## On entry to the first call -/

/-- A row index of a one-row matrix is the index (0, its column). -/
theorem row_idx (i : S1x256.Idx) : i = ix2 (0 : Fin 1) (i 1) := by
  have h0 : ∀ u : Fin 1, u = 0 := fun u => Fin.ext (Nat.lt_one_iff.mp u.isLt)
  exact (eq_ix2 i).trans (congrArg (fun u : Fin 1 => ix2 u (i 1)) (h0 (i 0)))

variable (m : (ℓ : Loc nD τ sig) → Buf (Elt Ideal) ℓ) (c : Dev nD)

/-- On entry buffer %0 reads, at column q of its row, the bias %arg7 at q. -/
theorem row0_apply (q : Fin 256) :
    (V1 m c main_v0 : S1x256.Idx → EReal) (ix2 (0 : Fin 1) q) = m ((c : Thread nD τ).loc main_arg7) (ix1 q) :=
  (congrFun (after_row0 (V0 m c)) (ix2 (0 : Fin 1) q)).trans (biasRow_apply _ q)

/-- The same as an equation between functions of the row's index. -/
theorem row0_eq :
    (V1 m c main_v0 : S1x256.Idx → EReal) = fun i => m ((c : Thread nD τ).loc main_arg7) (ix1 (i 1)) :=
  funext fun i => (congrArg (V1 m c main_v0 : S1x256.Idx → EReal) (row_idx i)).trans (row0_apply m c (i 1))

/-- On entry buffer %1 reads, at column q of its row, the bias %arg9 at q. -/
theorem row1_apply (q : Fin 256) :
    (V1 m c main_v1 : S1x256.Idx → EReal) (ix2 (0 : Fin 1) q) = m ((c : Thread nD τ).loc main_arg9) (ix1 q) :=
  (congrFun (after_row1 (V0 m c)) (ix2 (0 : Fin 1) q)).trans (biasRow_apply _ q)

/-- The same as an equation between functions of the row's index. -/
theorem row1_eq :
    (V1 m c main_v1 : S1x256.Idx → EReal) = fun i => m ((c : Thread nD τ).loc main_arg9) (ix1 (i 1)) :=
  funext fun i => (congrArg (V1 m c main_v1 : S1x256.Idx → EReal) (row_idx i)).trans (row1_apply m c (i 1))

/-- On entry buffer %2 reads, at column q of its row, the bias %arg11 at q. -/
theorem row2_apply (q : Fin 256) :
    (V1 m c main_v2 : S1x256.Idx → EReal) (ix2 (0 : Fin 1) q) = m ((c : Thread nD τ).loc main_arg11) (ix1 q) :=
  (congrFun (after_row2 (V0 m c)) (ix2 (0 : Fin 1) q)).trans (biasRow_apply _ q)

/-- The same as an equation between functions of the row's index. -/
theorem row2_eq :
    (V1 m c main_v2 : S1x256.Idx → EReal) = fun i => m ((c : Thread nD τ).loc main_arg11) (ix1 (i 1)) :=
  funext fun i => (congrArg (V1 m c main_v2 : S1x256.Idx → EReal) (row_idx i)).trans (row2_apply m c (i 1))

/-- On entry buffer %3 reads, at column q of its row, the bias %arg13 at q. -/
theorem row3_apply (q : Fin 256) :
    (V1 m c main_v3 : S1x256.Idx → EReal) (ix2 (0 : Fin 1) q) = m ((c : Thread nD τ).loc main_arg13) (ix1 q) :=
  (congrFun (after_row3 (V0 m c)) (ix2 (0 : Fin 1) q)).trans (biasRow_apply _ q)

/-- The same as an equation between functions of the row's index. -/
theorem row3_eq :
    (V1 m c main_v3 : S1x256.Idx → EReal) = fun i => m ((c : Thread nD τ).loc main_arg13) (ix1 (i 1)) :=
  funext fun i => (congrArg (V1 m c main_v3 : S1x256.Idx → EReal) (row_idx i)).trans (row3_apply m c (i 1))

/-- On entry buffer %4 reads, at column q of its row, the bias %arg15 at q. -/
theorem row4_apply (q : Fin 256) :
    (V1 m c main_v4 : S1x256.Idx → EReal) (ix2 (0 : Fin 1) q) = m ((c : Thread nD τ).loc main_arg15) (ix1 q) :=
  (congrFun (after_row4 (V0 m c)) (ix2 (0 : Fin 1) q)).trans (biasRow_apply _ q)

/-- The same as an equation between functions of the row's index. -/
theorem row4_eq :
    (V1 m c main_v4 : S1x256.Idx → EReal) = fun i => m ((c : Thread nD τ).loc main_arg15) (ix1 (i 1)) :=
  funext fun i => (congrArg (V1 m c main_v4 : S1x256.Idx → EReal) (row_idx i)).trans (row4_apply m c (i 1))

/-- On entry buffer %5 reads, at column q of its row, the bias %arg17 at q. -/
theorem row5_apply (q : Fin 256) :
    (V1 m c main_v5 : S1x256.Idx → EReal) (ix2 (0 : Fin 1) q) = m ((c : Thread nD τ).loc main_arg17) (ix1 q) :=
  (congrFun (after_row5 (V0 m c)) (ix2 (0 : Fin 1) q)).trans (biasRow_apply _ q)

/-- The same as an equation between functions of the row's index. -/
theorem row5_eq :
    (V1 m c main_v5 : S1x256.Idx → EReal) = fun i => m ((c : Thread nD τ).loc main_arg17) (ix1 (i 1)) :=
  funext fun i => (congrArg (V1 m c main_v5 : S1x256.Idx → EReal) (row_idx i)).trans (row5_apply m c (i 1))

/-- On entry buffer %8 is the left half of the head weight %arg14. -/
theorem half8_eq :
    (V1 m c main_v8 : S256x256.Idx → EReal) = headL (m ((c : Thread nD τ).loc main_arg14)) :=
  after_half8 (V0 m c)

/-- On entry buffer %11 is the right half of the head weight %arg14. -/
theorem half11_eq :
    (V1 m c main_v11 : S256x256.Idx → EReal) = headR (m ((c : Thread nD τ).loc main_arg14)) :=
  after_half11 (V0 m c)

/-- On entry buffer %14 is the left half of the head weight %arg16. -/
theorem half14_eq :
    (V1 m c main_v14 : S256x256.Idx → EReal) = headL (m ((c : Thread nD τ).loc main_arg16)) :=
  after_half14 (V0 m c)

/-- On entry buffer %17 is the right half of the head weight %arg16. -/
theorem half17_eq :
    (V1 m c main_v17 : S256x256.Idx → EReal) = headR (m ((c : Thread nD τ).loc main_arg16)) :=
  after_half17 (V0 m c)

/-! ## The arguments on entry: no host line writes one -/

theorem arg0_eq : V1 m c main_arg0 = m ((c : Thread nD τ).loc main_arg0) :=
  (V1_of m c main_arg0 (by decide)).trans rfl
theorem arg1_eq : V1 m c main_arg1 = m ((c : Thread nD τ).loc main_arg1) :=
  (V1_of m c main_arg1 (by decide)).trans rfl
theorem arg2_eq : V1 m c main_arg2 = m ((c : Thread nD τ).loc main_arg2) :=
  (V1_of m c main_arg2 (by decide)).trans rfl
theorem arg3_eq : V1 m c main_arg3 = m ((c : Thread nD τ).loc main_arg3) :=
  (V1_of m c main_arg3 (by decide)).trans rfl
theorem arg4_eq : V1 m c main_arg4 = m ((c : Thread nD τ).loc main_arg4) :=
  (V1_of m c main_arg4 (by decide)).trans rfl
theorem arg5_eq : V1 m c main_arg5 = m ((c : Thread nD τ).loc main_arg5) :=
  (V1_of m c main_arg5 (by decide)).trans rfl
theorem arg6_eq : V1 m c main_arg6 = m ((c : Thread nD τ).loc main_arg6) :=
  (V1_of m c main_arg6 (by decide)).trans rfl
theorem arg7_eq : V1 m c main_arg7 = m ((c : Thread nD τ).loc main_arg7) :=
  (V1_of m c main_arg7 (by decide)).trans rfl
theorem arg8_eq : V1 m c main_arg8 = m ((c : Thread nD τ).loc main_arg8) :=
  (V1_of m c main_arg8 (by decide)).trans rfl
theorem arg9_eq : V1 m c main_arg9 = m ((c : Thread nD τ).loc main_arg9) :=
  (V1_of m c main_arg9 (by decide)).trans rfl
theorem arg10_eq : V1 m c main_arg10 = m ((c : Thread nD τ).loc main_arg10) :=
  (V1_of m c main_arg10 (by decide)).trans rfl
theorem arg11_eq : V1 m c main_arg11 = m ((c : Thread nD τ).loc main_arg11) :=
  (V1_of m c main_arg11 (by decide)).trans rfl
theorem arg12_eq : V1 m c main_arg12 = m ((c : Thread nD τ).loc main_arg12) :=
  (V1_of m c main_arg12 (by decide)).trans rfl
theorem arg13_eq : V1 m c main_arg13 = m ((c : Thread nD τ).loc main_arg13) :=
  (V1_of m c main_arg13 (by decide)).trans rfl
theorem arg14_eq : V1 m c main_arg14 = m ((c : Thread nD τ).loc main_arg14) :=
  (V1_of m c main_arg14 (by decide)).trans rfl
theorem arg15_eq : V1 m c main_arg15 = m ((c : Thread nD τ).loc main_arg15) :=
  (V1_of m c main_arg15 (by decide)).trans rfl
theorem arg16_eq : V1 m c main_arg16 = m ((c : Thread nD τ).loc main_arg16) :=
  (V1_of m c main_arg16 (by decide)).trans rfl
theorem arg17_eq : V1 m c main_arg17 = m ((c : Thread nD τ).loc main_arg17) :=
  (V1_of m c main_arg17 (by decide)).trans rfl

end Cert.KernelIdeal.HostValues

end
-- ==== Proof.KernelValue.lean ====
/-
  The second kernel's result array after the whole program, as one function of the eighteen launch arrays.

  The host lines leave every argument as launched, each bias along the one row of its recast buffer and the four halves
  of the head weights in theirs. The first kernel then leaves its two result arrays at the two paths' first layers of
  those arguments and changes nothing else. The second kernel is entered from that: its result array ends at the
  whole-array result of the arguments.
-/
import proofs.«116847_g8323646620422_cont_9to1_m_1182_26_alg».proof.Proof.Segments
import proofs.«116847_g8323646620422_cont_9to1_m_1182_26_alg».proof.Proof.Stage1Value
import proofs.«116847_g8323646620422_cont_9to1_m_1182_26_alg».proof.Proof.Stage2Value
import proofs.«116847_g8323646620422_cont_9to1_m_1182_26_alg».proof.Proof.HostValues

noncomputable section

namespace Cert.KernelIdeal.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Arith Cert.KernelIdeal.Cover Cert.Products Cert.TwoLayer
open Cert.KernelIdeal.Run

variable (m : (ℓ : Loc nD τ sig) → Buf (Elt Ideal) ℓ) (c : Dev nD)

/-! ## The buffers the second kernel is entered from -/

/-- The first kernel hands its input arrays back as it found them, -/
theorem C2_in (w : Fin cfg0.W) (hin : (cfg0.win w).isOut = false) :
    W2 m c (Proc.devRef .tc (Pipeline.arrRef spec0 w)) = W1 m c (Proc.devRef .tc (Pipeline.arrRef spec0 w)) :=
  (W2_arr m c w).trans (((Stage1.dat (C1 m) c).arrAt_in w hin _).trans (Stage1.A_eq (C1 m) c w))

theorem C2_arg0 : C2 m c main_arg0 = m ((c : Thread nD τ).loc main_arg0) :=
  (C2_in m c 2 rfl).trans (HostValues.arg0_eq m c)
theorem C2_arg1 : C2 m c main_arg1 = m ((c : Thread nD τ).loc main_arg1) :=
  (C2_in m c 3 rfl).trans (HostValues.arg1_eq m c)
/-- and touches no other buffer but its two results. -/
theorem C2_arg2 : C2 m c main_arg2 = m ((c : Thread nD τ).loc main_arg2) :=
  (W2_of_ne m c main_arg2 (by decide)).trans (HostValues.arg2_eq m c)
theorem C2_arg4 : C2 m c main_arg4 = m ((c : Thread nD τ).loc main_arg4) :=
  (W2_of_ne m c main_arg4 (by decide)).trans (HostValues.arg4_eq m c)
theorem C2_arg10 : C2 m c main_arg10 = m ((c : Thread nD τ).loc main_arg10) :=
  (W2_of_ne m c main_arg10 (by decide)).trans (HostValues.arg10_eq m c)
theorem C2_arg12 : C2 m c main_arg12 = m ((c : Thread nD τ).loc main_arg12) :=
  (W2_of_ne m c main_arg12 (by decide)).trans (HostValues.arg12_eq m c)

/-- The first result array holds the source path's first layer of the launch arrays. -/
theorem C2_h1s : (C2 m c main_v18_0 : S4096x256.Idx → EReal)
    = layer (m ((c : Thread nD τ).loc main_arg3)) (m ((c : Thread nD τ).loc main_arg0)) (m ((c : Thread nD τ).loc main_arg6))
        (m ((c : Thread nD τ).loc main_arg7)) := by
  refine (W2_arr m c 8).trans ?_
  refine (Stage1Value.first_result (C1 m) c (m ((c : Thread nD τ).loc main_arg7)) (HostValues.row0_apply m c)).trans ?_
  rw [show C1 m c main_arg3 = m ((c : Thread nD τ).loc main_arg3) from HostValues.arg3_eq m c,
    show C1 m c main_arg0 = m ((c : Thread nD τ).loc main_arg0) from HostValues.arg0_eq m c,
    show C1 m c main_arg6 = m ((c : Thread nD τ).loc main_arg6) from HostValues.arg6_eq m c]

/-- The second result array holds the target path's first layer of the launch arrays. -/
theorem C2_h1t : (C2 m c main_v18_1 : S4096x256.Idx → EReal)
    = layer (m ((c : Thread nD τ).loc main_arg5)) (m ((c : Thread nD τ).loc main_arg1)) (m ((c : Thread nD τ).loc main_arg8))
        (m ((c : Thread nD τ).loc main_arg9)) := by
  refine (W2_arr m c 9).trans ?_
  refine (Stage1Value.second_result (C1 m) c (m ((c : Thread nD τ).loc main_arg9)) (HostValues.row1_apply m c)).trans ?_
  rw [show C1 m c main_arg5 = m ((c : Thread nD τ).loc main_arg5) from HostValues.arg5_eq m c,
    show C1 m c main_arg1 = m ((c : Thread nD τ).loc main_arg1) from HostValues.arg1_eq m c,
    show C1 m c main_arg8 = m ((c : Thread nD τ).loc main_arg8) from HostValues.arg8_eq m c]

/-! ## The result -/

/-- THE KERNEL'S RESULT: after the program the result buffer holds the whole-array result of the launch arrays. -/
theorem value : (W3 m c (Proc.devRef .tc main_v19) : S4096x256.Idx → EReal)
    = result (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) (m ((c : Thread nD τ).loc main_arg9))
        (m ((c : Thread nD τ).loc main_arg10)) (m ((c : Thread nD τ).loc main_arg11))
        (m ((c : Thread nD τ).loc main_arg12)) (m ((c : Thread nD τ).loc main_arg13))
        (m ((c : Thread nD τ).loc main_arg14)) (m ((c : Thread nD τ).loc main_arg15))
        (m ((c : Thread nD τ).loc main_arg16)) (m ((c : Thread nD τ).loc main_arg17)) := by
  refine (W3_main_v19 m c).trans ?_
  refine (Stage2Value.result_16 (C2 m) c (m ((c : Thread nD τ).loc main_arg3)) (m ((c : Thread nD τ).loc main_arg5))
    (m ((c : Thread nD τ).loc main_arg6)) (m ((c : Thread nD τ).loc main_arg7))
    (m ((c : Thread nD τ).loc main_arg8)) (m ((c : Thread nD τ).loc main_arg9))
    (m ((c : Thread nD τ).loc main_arg11)) (m ((c : Thread nD τ).loc main_arg13))
    (m ((c : Thread nD τ).loc main_arg14)) (m ((c : Thread nD τ).loc main_arg15))
    (m ((c : Thread nD τ).loc main_arg16)) (m ((c : Thread nD τ).loc main_arg17))
    ((C2_h1s m c).trans (by rw [C2_arg0])) ((C2_h1t m c).trans (by rw [C2_arg1]))
    (fun q => (congrFun (W2_of_ne m c main_v2 (by decide)) _).trans (HostValues.row2_apply m c q))
    (fun q => (congrFun (W2_of_ne m c main_v3 (by decide)) _).trans (HostValues.row3_apply m c q))
    (fun q => (congrFun (W2_of_ne m c main_v4 (by decide)) _).trans (HostValues.row4_apply m c q))
    (fun q => (congrFun (W2_of_ne m c main_v5 (by decide)) _).trans (HostValues.row5_apply m c q))
    ((W2_of_ne m c main_v8 (by decide)).trans (HostValues.half8_eq m c))
    ((W2_of_ne m c main_v11 (by decide)).trans (HostValues.half11_eq m c))
    ((W2_of_ne m c main_v14 (by decide)).trans (HostValues.half14_eq m c))
    ((W2_of_ne m c main_v17 (by decide)).trans (HostValues.half17_eq m c))).trans ?_
  show result (C2 m c main_arg0) (C2 m c main_arg1) (C2 m c main_arg2) _ (C2 m c main_arg4) _ _ _ _ _
    (C2 m c main_arg10) _ (C2 m c main_arg12) _ _ _ _ _ = _
  rw [C2_arg0, C2_arg1, C2_arg2, C2_arg4, C2_arg10, C2_arg12]

end Cert.KernelIdeal.KernelValue

end
-- ==== Proof.LibHostRows.lean ====
/-
  The host's keepdims broadcasts for a ROW, read at coordinates, for any extents and element type:
  a vector [b] laid out as the row [1, b] (broadcast_in_dim with dims [1]) reads (u, q) at q, and a row [1, b] laid
  against a rows (dims [0, 1]) reads (p, q) at (0, q): what a bias b[None, :] added to every row of a matrix needs.
-/
import Idealize.ShloMosaic.Lib.ValueIdx
import Idealize.ShloMosaic.Lib.Pipeline.Value

namespace Idealize.ShloMosaic.ValueIdx

variable {α : Type}

/-- A `[b]` array laid out as the row `[1, b]` by the host's broadcast reads, at `(u, q)`, the operand at `q`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row `[1, b]` laid against `a` rows by the host's broadcast reads, at `(p, q)`, the row at `(0, q)`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 (0 : Fin 1) q) := by
  refine broadcastInDim_apply _ h v (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

/-- A per-column value laid out as a row and then against every row reads, at `(p, q)`, the value of column `q`. -/
theorem broadcastInDim_row_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h2 (broadcastInDim ⟨2, ![1, b]⟩ (![1] : Fin 1 → Fin 2) h1 x) (ix2 p q)
      = x (ix1 q) :=
  (broadcastInDim_1b_ab_apply _ h2 p q).trans (broadcastInDim_b_1b_apply x h1 0 q)

end Idealize.ShloMosaic.ValueIdx
-- ==== Proof.RefLayer.lean ====
/-
  One graph-convolution layer as the host computes it, read as a whole-array function on the extended reals.

  The host spells  leaky (adj · (x · W) + b)  as: two dot products, the bias laid out as a row and then against every
  row, an addition, a comparison against a broadcast zero, a multiplication by a broadcast tenth, and a selection.
  At an entry (p, q) the two dot products are the matrix products, the laid-out bias is b q, the broadcast scalars are
  the scalars, and the three pointwise operations act on that one entry: together the rectifier of the biased product.
-/
import proofs.«116847_g8323646620422_cont_9to1_m_1182_26_alg».proof.Proof.Spec
import proofs.«116847_g8323646620422_cont_9to1_m_1182_26_alg».proof.Proof.LibHostRows

noncomputable section

open scoped BigOperators

namespace Cert.RefSide

open Idealize.ShloMosaic Idealize.ShloMosaic.ValueIdx Cert.Products Cert.TwoLayer

/-- A scalar constant broadcast over a matrix reads, at every entry, the value of its word. -/
theorem scalar_bcast_apply {n h : ℕ} (w : BitVec 32)
    (hb0 : (⟨0, ![]⟩ : Shape).BroadcastsInDim ⟨2, ![n, h]⟩ (![] : Fin 0 → Fin 2)) (i : (⟨2, ![n, h]⟩ : Shape).Idx) :
    broadcastInDim ⟨2, ![n, h]⟩ (![] : Fin 0 → Fin 2) hb0 (constant (F := Ideal) ⟨0, ![]⟩ .f32 w) i = Ideal.ofBits .f32 w :=
  broadcastInDim_apply _ hb0 (constant (F := Ideal) ⟨0, ![]⟩ .f32 w) i ix0 (fun a => a.elim0)

section Layer

variable {n d h : ℕ}
variable (dX : DotDims ⟨2, ![n, d]⟩ ⟨2, ![d, h]⟩ ⟨2, ![n, h]⟩)
variable (hXl : dX.lhsContracting = [1]) (hXr : dX.rhsContracting = [0]) (hXln : dX.lhsNonContracting = [0])
variable (hXrn : dX.rhsNonContracting = [1]) (hXlb : dX.lhsBatch = []) (hXrb : dX.rhsBatch = [])
variable (dA : DotDims ⟨2, ![n, n]⟩ ⟨2, ![n, h]⟩ ⟨2, ![n, h]⟩)
variable (hAl : dA.lhsContracting = [1]) (hAr : dA.rhsContracting = [0]) (hAln : dA.lhsNonContracting = [0])
variable (hArn : dA.rhsNonContracting = [1]) (hAlb : dA.lhsBatch = []) (hArb : dA.rhsBatch = [])
variable (hb1 : (⟨1, ![h]⟩ : Shape).BroadcastsInDim ⟨2, ![1, h]⟩ (![1] : Fin 1 → Fin 2))
variable (hb2 : (⟨2, ![1, h]⟩ : Shape).BroadcastsInDim ⟨2, ![n, h]⟩ (![0, 1] : Fin 2 → Fin 2))
variable (hb0 : (⟨0, ![]⟩ : Shape).BroadcastsInDim ⟨2, ![n, h]⟩ (![] : Fin 0 → Fin 2))

/-- The host's biased product  adj · (x · W) + b  before the rectifier. -/
def hostPre (A : Mx n n) (X : Mx n d) (W : Mx d h) (b : Vx h) : Mx n h :=
  addf (F := Ideal) (φ := .f32) (Host.dotGeneral (F := Ideal) (φ₁ := .f32) (φ₂ := .f32) dA none A
      (Host.dotGeneral (F := Ideal) (φ₁ := .f32) (φ₂ := .f32) dX none X W))
    (broadcastInDim ⟨2, ![n, h]⟩ (![0, 1] : Fin 2 → Fin 2) hb2 (broadcastInDim ⟨2, ![1, h]⟩ (![1] : Fin 1 → Fin 2) hb1 b))

include hXl hXr hXln hXrn hXlb hXrb hAl hAr hAln hArn hAlb hArb in
/-- At an entry it is the matrix product's entry plus the bias of the column. -/
theorem hostPre_ix2 (A : Mx n n) (X : Mx n d) (W : Mx d h) (b : Vx h) (p : Fin n) (q : Fin h) :
    hostPre dX dA hb1 hb2 A X W b (ix2 p q) = matProd A (matProd X W) (ix2 p q) + b (ix1 q) := by
  unfold hostPre
  rw [addf_apply, broadcastInDim_row_apply b hb1 hb2 p q]
  show FloatOps.dotGeneral (F := Ideal) (φ₁ := .f32) (φ₂ := .f32) dA none .single A
      (FloatOps.dotGeneral (F := Ideal) (φ₁ := .f32) (φ₂ := .f32) dX none .single X W) (ix2 p q) + b (ix1 q) = _
  rw [dotGeneral_eq (φ₁ := .f32) (φ₂ := .f32) dX hXl hXr hXln hXrn hXlb hXrb none .single X W,
    dotGeneral_eq (φ₁ := .f32) (φ₂ := .f32) dA hAl hAr hAln hArn hAlb hArb none .single A (matProd X W)]

include hXl hXr hXln hXrn hXlb hXrb hAl hAr hAln hArn hAlb hArb in
/-- The host's layer — compare with zero, multiply by a tenth, select — is the layer. -/
theorem host_layer (A : Mx n n) (X : Mx n d) (W : Mx d h) (b : Vx h) :
    select (cmpf (F := Ideal) (φ := .f32) .ogt (hostPre dX dA hb1 hb2 A X W b)
        (broadcastInDim ⟨2, ![n, h]⟩ (![] : Fin 0 → Fin 2) hb0 (constant (F := Ideal) ⟨0, ![]⟩ .f32 0x00000000#32)))
      (hostPre dX dA hb1 hb2 A X W b)
      (mulf (F := Ideal) (φ := .f32)
        (broadcastInDim ⟨2, ![n, h]⟩ (![] : Fin 0 → Fin 2) hb0 (constant (F := Ideal) ⟨0, ![]⟩ .f32 0x3DCCCCCD#32))
        (hostPre dX dA hb1 hb2 A X W b))
      = layer A X W b := by
  funext i
  obtain ⟨p, q, rfl⟩ : ∃ (p : Fin n) (q : Fin h), i = ix2 p q := ⟨i 0, i 1, eq_ix2 i⟩
  rw [select_apply, cmpf_apply, mulf_apply, scalar_bcast_apply, scalar_bcast_apply,
    hostPre_ix2 dX hXl hXr hXln hXrn hXlb hXrb dA hAl hAr hAln hArn hAlb hArb hb1 hb2 A X W b p q]
  rfl

end Layer

end Cert.RefSide

end
-- ==== Proof.LibColumnsConcat.lean ====
/-
  Two matrices joined along their columns, read at coordinates, for any extents and element type: the [a, b₁ + b₂]
  matrix `[x₁ | x₂]` reads, at (p, d), `x₁` at (p, d) when `d < b₁` and `x₂` at (p, d - b₁) otherwise (what a kernel's
  `jnp.concatenate([x₁, x₂], axis=-1)` of two [a, ·] values needs); and an [a, 1, 1] array cast to the column [a, 1]
  reads, at (p, 0), the operand at (p, 0, 0) (a keepdims slice of an [a, k, 1] array with one unit axis dropped).
-/
import Idealize.ShloMosaic.Lib.ValueIdx
import Idealize.ShloMosaic.Lib.Pipeline.Value

namespace Idealize.ShloMosaic.ValueIdx

variable {α : Type}

/-- A column in the first piece: `[x₁ | x₂]` at (p, d) with `d < b₁` is `x₁` at (p, d). -/
theorem concatenate_cols_left {a b₁ b₂ b : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b]⟩ (1 : Fin (⟨2, ![a, b]⟩ : Shape).rank))
    (p : Fin a) (d : Fin b) (hd : d.val < b₁) :
    concatenate ⟨2, ![a, b]⟩ (1 : Fin (⟨2, ![a, b]⟩ : Shape).rank) [⟨⟨2, ![a, b₁]⟩, x₁⟩, ⟨⟨2, ![a, b₂]⟩, x₂⟩] h (ix2 p d)
      = x₁ (ix2 p ⟨d.val, hd⟩) :=
  concatenate_pair_apply_left _ x₁ x₂ h (ix2 p d) rfl (ix2 p ⟨d.val, hd⟩)
    (fun c => match c with | ⟨0, _⟩ => rfl | ⟨1, _⟩ => rfl)

/-- A column in the second piece: `[x₁ | x₂]` at (p, d) with `b₁ ≤ d` is `x₂` at (p, d - b₁). -/
theorem concatenate_cols_right {a b₁ b₂ b : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b]⟩ (1 : Fin (⟨2, ![a, b]⟩ : Shape).rank))
    (p : Fin a) (d : Fin b) (hd : b₁ ≤ d.val) (hd2 : d.val - b₁ < b₂) :
    concatenate ⟨2, ![a, b]⟩ (1 : Fin (⟨2, ![a, b]⟩ : Shape).rank) [⟨⟨2, ![a, b₁]⟩, x₁⟩, ⟨⟨2, ![a, b₂]⟩, x₂⟩] h (ix2 p d)
      = x₂ (ix2 p ⟨d.val - b₁, hd2⟩) :=
  concatenate_pair_apply_right _ x₁ x₂ h (ix2 p d) rfl rfl (ix2 p ⟨d.val - b₁, hd2⟩)
    (fun c hc => match c, hc with | ⟨0, _⟩, _ => rfl | ⟨1, _⟩, hc => absurd rfl hc)
    (by show d.val - b₁ + b₁ = d.val; omega)

/-- An [a, 1, 1] array cast to the column [a, 1] reads, at (p, 0), the operand at (p, 0, 0). -/
theorem shapeCast_a11_a1_apply {a : ℕ} (x : (⟨3, ![a, 1, 1]⟩ : Shape).Idx → α)
    (h : (⟨3, ![a, 1, 1]⟩ : Shape).ShapeCasts ⟨2, ![a, 1]⟩) (p : Fin a) :
    shapeCast ⟨2, ![a, 1]⟩ x h (ix2 p (0 : Fin 1)) = x (ix3 p (0 : Fin 1) (0 : Fin 1)) :=
  shapeCast_apply x h _ _ (by
    rw [Shape.rowMajor_val_three, Shape.rowMajor_val_two]
    show (p.val * 1 + 0) * 1 + 0 = p.val * 1 + 0
    omega)

end Idealize.ShloMosaic.ValueIdx
-- ==== Proof.RefHead.lean ====
/-
  The head of one path as the host computes it, read as a whole-array function on the extended reals.

  The host joins the second layer's result ho and the path's features x along the columns into [ho | x] : [n, 512],
  transposes the head weight Wu : [256, 512], takes ONE product over the 512 joined columns and adds the bias laid
  against every row. An entry of that product is a sum over 512 positions; the first 256 read ho against the
  columns 0 … 255 of Wu, the last 256 read x against the columns 256 … 511. A finite sum over 256 + 256 positions is
  the sum over the first 256 plus the sum over the last 256 (in any commutative monoid: no entry need be finite), and
  the two parts are the entries of  ho · Wu[:, :256]ᵀ  and  x · Wu[:, 256:]ᵀ.
-/
import proofs.«116847_g8323646620422_cont_9to1_m_1182_26_alg».proof.Proof.Spec
import proofs.«116847_g8323646620422_cont_9to1_m_1182_26_alg».proof.Proof.LibHostRows
import proofs.«116847_g8323646620422_cont_9to1_m_1182_26_alg».proof.Proof.LibColumnsConcat

noncomputable section

open scoped BigOperators

namespace Cert.RefSide

open Idealize.ShloMosaic Idealize.ShloMosaic.ValueIdx Cert.Products Cert.TwoLayer

/-- A sum over 512 positions is the sum over the first 256 plus the sum over the last 256. -/
theorem sum_halves {M : Type*} [AddCommMonoid M] (f : Fin 512 → M) :
    ∑ j : Fin 512, f j = ∑ j : Fin 256, f (Fin.castAdd 256 j) + ∑ j : Fin 256, f (Fin.natAdd 256 j) :=
  Fin.sum_univ_add (a := 256) (b := 256) f

/-- The transposed head weight Wuᵀ : [512, 256]. -/
def transposed (ht : (⟨2, ![256, 512]⟩ : Shape).Transposes [1, 0] ⟨2, ![512, 256]⟩) (Wu : Mx 256 512) : Mx 512 256 :=
  transpose (α := EReal) ⟨2, ![512, 256]⟩ [1, 0] Wu ht

/-- The transposed head weight at (j, q) is the head weight at (q, j). -/
theorem transposed_ix2 (ht : (⟨2, ![256, 512]⟩ : Shape).Transposes [1, 0] ⟨2, ![512, 256]⟩) (Wu : Mx 256 512)
    (j : Fin 512) (q : Fin 256) : transposed ht Wu (ix2 j q) = Wu (ix2 q j) :=
  transpose_apply [1, 0] Wu ht (ix2 j q) (ix2 q j) (fun b => match b with
    | ⟨0, _⟩ => rfl
    | ⟨1, _⟩ => rfl)

section Head

variable {n : ℕ}
variable (dH : DotDims ⟨2, ![n, 512]⟩ ⟨2, ![512, 256]⟩ ⟨2, ![n, 256]⟩)
variable (hl : dH.lhsContracting = [1]) (hr : dH.rhsContracting = [0]) (hln : dH.lhsNonContracting = [0])
variable (hrn : dH.rhsNonContracting = [1]) (hlb : dH.lhsBatch = []) (hrb : dH.rhsBatch = [])
variable (hc : Shape.Concatenates [⟨2, ![n, 256]⟩, ⟨2, ![n, 256]⟩] ⟨2, ![n, 512]⟩ (1 : Fin (⟨2, ![n, 512]⟩ : Shape).rank))
variable (ht : (⟨2, ![256, 512]⟩ : Shape).Transposes [1, 0] ⟨2, ![512, 256]⟩)
variable (hb1 : (⟨1, ![256]⟩ : Shape).BroadcastsInDim ⟨2, ![1, 256]⟩ (![1] : Fin 1 → Fin 2))
variable (hb2 : (⟨2, ![1, 256]⟩ : Shape).BroadcastsInDim ⟨2, ![n, 256]⟩ (![0, 1] : Fin 2 → Fin 2))

/-- The joined matrix [ho | x]. -/
def joined (ho x : Mx n 256) : Mx n 512 :=
  concatenate (α := EReal) ⟨2, ![n, 512]⟩ (1 : Fin (⟨2, ![n, 512]⟩ : Shape).rank) [⟨⟨2, ![n, 256]⟩, ho⟩, ⟨⟨2, ![n, 256]⟩, x⟩] hc

/-- On its first 256 columns the joined matrix is ho, -/
theorem joined_left (ho x : Mx n 256) (p : Fin n) (j : Fin 256) :
    joined hc ho x (ix2 p (Fin.castAdd 256 j : Fin 512)) = ho (ix2 p j) :=
  concatenate_cols_left ho x hc p (Fin.castAdd 256 j : Fin 512) j.isLt

/-- and on its last 256 columns it is x. -/
theorem joined_right (ho x : Mx n 256) (p : Fin n) (j : Fin 256) :
    joined hc ho x (ix2 p (Fin.natAdd 256 j : Fin 512)) = x (ix2 p j) := by
  have h1 : 256 ≤ (Fin.natAdd 256 j : Fin 512).val := Nat.le_add_right 256 j.val
  have h2 : (Fin.natAdd 256 j : Fin 512).val - 256 < 256 := by
    show 256 + j.val - 256 < 256
    have := j.isLt; omega
  refine (concatenate_cols_right ho x hc p (Fin.natAdd 256 j : Fin 512) h1 h2).trans ?_
  refine congrArg x (congrArg (ix2 p) (Fin.ext ?_))
  show 256 + j.val - 256 = j.val
  omega

include hl hr hln hrn hlb hrb in
/-- The one product over the joined columns is the sum of the two half products. -/
theorem joined_product (ho x : Mx n 256) (Wu : Mx 256 512) (p : Fin n) (q : Fin 256) :
    Host.dotGeneral (F := Ideal) (φ₁ := .f32) (φ₂ := .f32) dH none (joined hc ho x)
        (transposed ht Wu) (ix2 p q)
      = matProd ho (headL Wu) (ix2 p q) + matProd x (headR Wu) (ix2 p q) := by
  show FloatOps.dotGeneral (F := Ideal) (φ₁ := .f32) (φ₂ := .f32) dH none .single (joined hc ho x) (transposed ht Wu) (ix2 p q) = _
  rw [dotGeneral_eq (φ₁ := .f32) (φ₂ := .f32) dH hl hr hln hrn hlb hrb none .single, matProd_ix2, matProd_ix2, matProd_ix2, sum_halves]
  congr 1
  · refine Finset.sum_congr rfl fun j _ => ?_
    rw [joined_left, transposed_ix2]
    rfl
  · refine Finset.sum_congr rfl fun j _ => ?_
    rw [joined_right, transposed_ix2]
    rfl

include hl hr hln hrn hlb hrb in
/-- The host's head — join, transpose, one product, add the laid-out bias — is the head. -/
theorem host_head (ho x : Mx n 256) (Wu : Mx 256 512) (bu : Vx 256) :
    addf (F := Ideal) (φ := .f32)
        (Host.dotGeneral (F := Ideal) (φ₁ := .f32) (φ₂ := .f32) dH none (joined hc ho x)
          (transposed ht Wu))
        (broadcastInDim ⟨2, ![n, 256]⟩ (![0, 1] : Fin 2 → Fin 2) hb2
          (broadcastInDim ⟨2, ![1, 256]⟩ (![1] : Fin 1 → Fin 2) hb1 bu))
      = head ho x Wu bu := by
  funext i
  obtain ⟨p, q, rfl⟩ : ∃ (p : Fin n) (q : Fin 256), i = ix2 p q := ⟨i 0, i 1, eq_ix2 i⟩
  rw [addf_apply, broadcastInDim_row_apply bu hb1 hb2 p q,
    joined_product dH hl hr hln hrn hlb hrb hc ht ho x Wu p q]
  rfl

end Head

end Cert.RefSide

end
-- ==== Proof.RefValue.lean ====
import proofs.«116847_g8323646620422_cont_9to1_m_1182_26_alg».proof.Defs
import proofs.«116847_g8323646620422_cont_9to1_m_1182_26_alg».proof.Proof.Gen.ReferenceIdeal.Read
import proofs.«116847_g8323646620422_cont_9to1_m_1182_26_alg».proof.Proof.Gen.Pre_finite_inputs
import proofs.«116847_g8323646620422_cont_9to1_m_1182_26_alg».proof.Proof.Spec
import proofs.«116847_g8323646620422_cont_9to1_m_1182_26_alg».proof.Proof.RefLayer
import proofs.«116847_g8323646620422_cont_9to1_m_1182_26_alg».proof.Proof.RefHead

/-!
  The reference's result as the two-layer function of its eighteen arguments.

  The reference's operations, composed, are: for each path two host layers (each the rectified biased product
  adj · (x · W) + b), the host head over the joined columns, and at the end half the positive part of the source
  head plus half the positive part of the target head. Each host layer is the layer, each host head is the head
  (a sum over 512 joined columns split into its two halves), and the last four pointwise operations read at an
  entry are the combination of the two heads at that entry.
-/

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.TwoLayer Cert.RefSide

/-- The source path's first layer: the adjacency main_arg3 over the features main_arg0. -/
theorem source_layer1 (x0 : (⟨S4096x256, .f32⟩ : BufTy).Contents (Elt Ideal)) (x3 : (⟨S4096x4096, .f32⟩ : BufTy).Contents (Elt Ideal)) (x6 : (⟨S256x256, .f32⟩ : BufTy).Contents (Elt Ideal)) (x7 : (⟨S256, .f32⟩ : BufTy).Contents (Elt Ideal)) :
    val_main_v9 (F := Ideal) x0 x3 x6 x7 = layer x3 x0 x6 x7 :=
  host_layer dot_S4096x256_S256x256_S4096x256_1_0_0_1_n_n rfl rfl rfl rfl rfl rfl
    dot_S4096x4096_S4096x256_S4096x256_1_0_0_1_n_n rfl rfl rfl rfl rfl rfl
    Facts₀.bcast_S256_S1x256_1 Facts₀.bcast_S1x256_S4096x256_0_1 Facts₀.bcast_S_S4096x256 x3 x0 x6 x7

/-- The source path's second layer, over the first layer's result. -/
theorem source_layer2 (x0 : (⟨S4096x256, .f32⟩ : BufTy).Contents (Elt Ideal)) (x2 x3 : (⟨S4096x4096, .f32⟩ : BufTy).Contents (Elt Ideal)) (x6 : (⟨S256x256, .f32⟩ : BufTy).Contents (Elt Ideal)) (x7 : (⟨S256, .f32⟩ : BufTy).Contents (Elt Ideal)) (x10 : (⟨S256x256, .f32⟩ : BufTy).Contents (Elt Ideal)) (x11 : (⟨S256, .f32⟩ : BufTy).Contents (Elt Ideal)) :
    val_main_v19 (F := Ideal) x0 x2 x3 x6 x7 x10 x11 = layer x2 (layer x3 x0 x6 x7) x10 x11 :=
  (host_layer dot_S4096x256_S256x256_S4096x256_1_0_0_1_n_n rfl rfl rfl rfl rfl rfl
    dot_S4096x4096_S4096x256_S4096x256_1_0_0_1_n_n rfl rfl rfl rfl rfl rfl
    Facts₀.bcast_S256_S1x256_1 Facts₀.bcast_S1x256_S4096x256_0_1 Facts₀.bcast_S_S4096x256 x2 (val_main_v9 (F := Ideal) x0 x3 x6 x7) x10 x11).trans
    (congrArg (fun y => layer x2 y x10 x11) (source_layer1 x0 x3 x6 x7))

/-- The target path's first layer: the adjacency main_arg5 over the features main_arg1. -/
theorem target_layer1 (x1 : (⟨S4096x256, .f32⟩ : BufTy).Contents (Elt Ideal)) (x5 : (⟨S4096x4096, .f32⟩ : BufTy).Contents (Elt Ideal)) (x8 : (⟨S256x256, .f32⟩ : BufTy).Contents (Elt Ideal)) (x9 : (⟨S256, .f32⟩ : BufTy).Contents (Elt Ideal)) :
    val_main_v29 (F := Ideal) x1 x5 x8 x9 = layer x5 x1 x8 x9 :=
  host_layer dot_S4096x256_S256x256_S4096x256_1_0_0_1_n_n rfl rfl rfl rfl rfl rfl
    dot_S4096x4096_S4096x256_S4096x256_1_0_0_1_n_n rfl rfl rfl rfl rfl rfl
    Facts₀.bcast_S256_S1x256_1 Facts₀.bcast_S1x256_S4096x256_0_1 Facts₀.bcast_S_S4096x256 x5 x1 x8 x9

/-- The target path's second layer. -/
theorem target_layer2 (x1 : (⟨S4096x256, .f32⟩ : BufTy).Contents (Elt Ideal)) (x4 x5 : (⟨S4096x4096, .f32⟩ : BufTy).Contents (Elt Ideal)) (x8 : (⟨S256x256, .f32⟩ : BufTy).Contents (Elt Ideal)) (x9 : (⟨S256, .f32⟩ : BufTy).Contents (Elt Ideal)) (x12 : (⟨S256x256, .f32⟩ : BufTy).Contents (Elt Ideal)) (x13 : (⟨S256, .f32⟩ : BufTy).Contents (Elt Ideal)) :
    val_main_v39 (F := Ideal) x1 x4 x5 x8 x9 x12 x13 = layer x4 (layer x5 x1 x8 x9) x12 x13 :=
  (host_layer dot_S4096x256_S256x256_S4096x256_1_0_0_1_n_n rfl rfl rfl rfl rfl rfl
    dot_S4096x4096_S4096x256_S4096x256_1_0_0_1_n_n rfl rfl rfl rfl rfl rfl
    Facts₀.bcast_S256_S1x256_1 Facts₀.bcast_S1x256_S4096x256_0_1 Facts₀.bcast_S_S4096x256 x4 (val_main_v29 (F := Ideal) x1 x5 x8 x9) x12 x13).trans
    (congrArg (fun y => layer x4 y x12 x13) (target_layer1 x1 x5 x8 x9))

/-- The source head. -/
theorem source_head (x0 : (⟨S4096x256, .f32⟩ : BufTy).Contents (Elt Ideal)) (x2 x3 : (⟨S4096x4096, .f32⟩ : BufTy).Contents (Elt Ideal)) (x6 : (⟨S256x256, .f32⟩ : BufTy).Contents (Elt Ideal)) (x7 : (⟨S256, .f32⟩ : BufTy).Contents (Elt Ideal)) (x10 : (⟨S256x256, .f32⟩ : BufTy).Contents (Elt Ideal)) (x11 : (⟨S256, .f32⟩ : BufTy).Contents (Elt Ideal)) (x14 : (⟨S256x512, .f32⟩ : BufTy).Contents (Elt Ideal)) (x15 : (⟨S256, .f32⟩ : BufTy).Contents (Elt Ideal)) :
    val_main_v45 (F := Ideal) x0 x2 x3 x6 x7 x10 x11 x14 x15
      = head (layer x2 (layer x3 x0 x6 x7) x10 x11) x0 x14 x15 :=
  (host_head dot_S4096x512_S512x256_S4096x256_1_0_0_1_n_n rfl rfl rfl rfl rfl rfl
    Facts₀.concatenates_S4096x256_S4096x256_S4096x512_d1 Facts₀.transposes_S256x512_S512x256_1_0
    Facts₀.bcast_S256_S1x256_1 Facts₀.bcast_S1x256_S4096x256_0_1 (val_main_v19 (F := Ideal) x0 x2 x3 x6 x7 x10 x11) x0 x14 x15).trans
    (congrArg (fun y => head y x0 x14 x15) (source_layer2 x0 x2 x3 x6 x7 x10 x11))

/-- The target head. -/
theorem target_head (x1 : (⟨S4096x256, .f32⟩ : BufTy).Contents (Elt Ideal)) (x4 x5 : (⟨S4096x4096, .f32⟩ : BufTy).Contents (Elt Ideal)) (x8 : (⟨S256x256, .f32⟩ : BufTy).Contents (Elt Ideal)) (x9 : (⟨S256, .f32⟩ : BufTy).Contents (Elt Ideal)) (x12 : (⟨S256x256, .f32⟩ : BufTy).Contents (Elt Ideal)) (x13 : (⟨S256, .f32⟩ : BufTy).Contents (Elt Ideal)) (x16 : (⟨S256x512, .f32⟩ : BufTy).Contents (Elt Ideal)) (x17 : (⟨S256, .f32⟩ : BufTy).Contents (Elt Ideal)) :
    val_main_v51 (F := Ideal) x1 x4 x5 x8 x9 x12 x13 x16 x17
      = head (layer x4 (layer x5 x1 x8 x9) x12 x13) x1 x16 x17 :=
  (host_head dot_S4096x512_S512x256_S4096x256_1_0_0_1_n_n rfl rfl rfl rfl rfl rfl
    Facts₀.concatenates_S4096x256_S4096x256_S4096x512_d1 Facts₀.transposes_S256x512_S512x256_1_0
    Facts₀.bcast_S256_S1x256_1 Facts₀.bcast_S1x256_S4096x256_0_1 (val_main_v39 (F := Ideal) x1 x4 x5 x8 x9 x12 x13) x1 x16 x17).trans
    (congrArg (fun y => head y x1 x16 x17) (target_layer2 x1 x4 x5 x8 x9 x12 x13))

/-- The last stage, as a function of the arguments, is the result. -/
theorem stage_result (x0 x1 : (⟨S4096x256, .f32⟩ : BufTy).Contents (Elt Ideal)) (x2 x3 x4 x5 : (⟨S4096x4096, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256x256, .f32⟩ : BufTy).Contents (Elt Ideal)) (x13 : (⟨S256, .f32⟩ : BufTy).Contents (Elt Ideal)) (x14 : (⟨S256x512, .f32⟩ : BufTy).Contents (Elt Ideal)) (x15 : (⟨S256, .f32⟩ : BufTy).Contents (Elt Ideal)) (x16 : (⟨S256x512, .f32⟩ : BufTy).Contents (Elt Ideal)) (x17 : (⟨S256, .f32⟩ : BufTy).Contents (Elt Ideal)) :
    val_main_v58 (F := Ideal) x0 x1 x2 x3 x4 x5 x6 x7 x8 x9 x10 x11 x12 x13 x14 x15 x16 x17
      = result x0 x1 x2 x3 x4 x5 x6 x7 x8 x9 x10 x11 x12 x13 x14 x15 x16 x17 := by
  funext i
  rw [val_main_v58_apply, val_main_v54_apply, val_main_v57_apply, val_main_v52_apply, val_main_v55_apply,
    source_head, target_head]
  rw [show val_main_v53 (F := Ideal) i = half from scalar_bcast_apply 0x3F000000#32 Facts₀.bcast_S_S4096x256 i,
    show val_main_v56 (F := Ideal) i = half from scalar_bcast_apply 0x3F000000#32 Facts₀.bcast_S_S4096x256 i,
    show val_main_call4_v0 (F := Ideal) i = zero from scalar_bcast_apply 0x00000000#32 Facts₀.bcast_S_S4096x256 i,
    show val_main_call5_v0 (F := Ideal) i = zero from scalar_bcast_apply 0x00000000#32 Facts₀.bcast_S_S4096x256 i]
  rfl

/-- The run's result term is the result of the eighteen argument buffers. -/
theorem ref_result (m : (ℓ : Loc nD τ sig) → Buf (Elt Ideal) ℓ) (c : Dev nD) :
    Cert.ReferenceIdeal.Value.res_main_v58 (F := Ideal) m c
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) :=
  (val_main_v58_eq (F := Ideal) m c).trans (stage_result _ _ _ _ _ _ _ _ _ _ _ _ _ _ _ _ _ _)

/-- The reference runs, ends with both results at the result of its arguments, and leaves the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v58) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_v58) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun r h c => ⟨(h c).1.trans (ref_result m c), (h c).2.1.trans (ref_result m c), (h c).2.2⟩)
    (Cert.ReferenceIdeal.Value.run (F := Ideal) m ρ)

/-- The reference runs and leaves its arguments unchanged: its run with the results dropped. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

end Cert.ReferenceIdeal.RefValue

end
-- ==== Proof.lean ====
/- The proof of `Cert.Claim`: a two-layer graph convolution over dense adjacency matrices, per path, followed by a head
   and a half-and-half combination of the two paths' positive parts, computed by two tiled kernels and by a plain
   whole-array reference.

   The kernel program runs some host lines (the biases as rows, the four transposed halves of the head weights), then a
   first kernel that writes both paths' first-layer results block of rows by block of rows, then a second kernel that
   writes the final result block by block. Each kernel keeps, in two buffers of its own, the product features · weight
   computed once at its first grid point; every later point reads it back. The frames of the two kernel programs follow
   from one run of the program in which every unscoped buffer's contents are known between the steps; the value of the
   idealized kernel program's result is read off the same run: every block of 256 rows of the final array is the
   specification's function of the whole argument arrays at those rows (a row of a matrix product depends on the left
   factor only through that row). The reference's result is the same function: its one product over the 512 joined
   columns is the sum of the two products over 256 columns each. No finiteness of the inputs is used. -/
import proofs.«116847_g8323646620422_cont_9to1_m_1182_26_alg».proof.Defs
import proofs.«116847_g8323646620422_cont_9to1_m_1182_26_alg».proof.Proof.Gen.Kernel
import proofs.«116847_g8323646620422_cont_9to1_m_1182_26_alg».proof.Proof.Gen.KernelIdeal
import proofs.«116847_g8323646620422_cont_9to1_m_1182_26_alg».proof.Proof.Gen.ReferenceIdeal
import proofs.«116847_g8323646620422_cont_9to1_m_1182_26_alg».proof.Proof.Gen.Pre_finite_inputs
import proofs.«116847_g8323646620422_cont_9to1_m_1182_26_alg».proof.Proof.KSegments
import proofs.«116847_g8323646620422_cont_9to1_m_1182_26_alg».proof.Proof.Segments
import proofs.«116847_g8323646620422_cont_9to1_m_1182_26_alg».proof.Proof.KernelValue
import proofs.«116847_g8323646620422_cont_9to1_m_1182_26_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel (hKernel := Cert.Kernel.Gen.facts) (hPre_finite_inputs := Cert.Pre_finite_inputs.Gen.facts) :=
  fun m ρ _ => Cert.Kernel.Run.frame (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Run.frame (F := Ideal) m ρ

/-- The idealized kernel program and the idealized reference, from memories agreeing on the arguments, both end with the
    specification's function of the eighteen argument arrays in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.TwoLayer.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    fun c => Cert.TwoLayer.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · refine (θ_run Cert.KernelIdeal.defs _ _).mono (fun r h c => ?_) (Cert.KernelIdeal.Run.run_value (F := Ideal) m ρ)
    have hv := (h c).1.trans ((Cert.KernelIdeal.Run.W3_main_v19 m c).symm.trans (Cert.KernelIdeal.KernelValue.value m c))
    exact ⟨hv, hv, (h c).2⟩
  · refine (θ_run Cert.ReferenceIdeal.defs _ _).mono (fun r h c => ?_) (Cert.ReferenceIdeal.RefValue.ref_run m' ρ')
    obtain ⟨a0, a1, a2, a3, a4, a5, a6, a7, a8, a9, a10, a11, a12, a13, a14, a15, a16, a17⟩ := hagree c
    have e : Cert.TwoLayer.result (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))
        = Cert.TwoLayer.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) := by
      rw [a0, a1, a2, a3, a4, a5, a6, a7, a8, a9, a10, a11, a12, a13, a14, a15, a16, a17]
    exact ⟨(h c).1.trans e, (h c).2.1.trans e, (h c).2.2⟩

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
